-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S2x1x4 : Shape := ⟨3, ![2, 1, 4]⟩
abbrev S2x1x256 : Shape := ⟨3, ![2, 1, 256]⟩
abbrev S1024x256 : Shape := ⟨2, ![1024, 256]⟩
abbrev S1x1x4 : Shape := ⟨3, ![1, 1, 4]⟩
abbrev S1x1x256 : Shape := ⟨3, ![1, 1, 256]⟩
abbrev S1x1 : Shape := ⟨2, ![1, 1]⟩
abbrev S1x256 : Shape := ⟨2, ![1, 256]⟩
abbrev S1024 : Shape := ⟨1, ![1024]⟩
abbrev S1024x1 : Shape := ⟨2, ![1024, 1]⟩
abbrev S1 : Shape := ⟨1, ![1]⟩
abbrev S256 : Shape := ⟨1, ![256]⟩
abbrev S1x4 : Shape := ⟨2, ![1, 4]⟩
abbrev S1x1x1 : Shape := ⟨3, ![1, 1, 1]⟩
abbrev S_ : Shape := ⟨0, ![]⟩

abbrev nBuf : Space → Nat
  | .hbm => 95
  | .vmem => 16
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S2x1x4, .f32⟩
  | .hbm, ⟨3, _⟩ => ⟨S2x1x256, .f32⟩
  | .hbm, ⟨4, _⟩ => ⟨S2x1x256, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S_, .f32⟩
  | .hbm, ⟨9, _⟩ => ⟨S_, .f32⟩
  | .hbm, ⟨10, _⟩ => ⟨S1x1x1, .f32⟩
  | .hbm, ⟨11, _⟩ => ⟨S_, .f32⟩
  | .hbm, ⟨12, _⟩ => ⟨S1x1x1, .f32⟩
  | .hbm, ⟨13, _⟩ => ⟨S_, .f32⟩
  | .hbm, ⟨14, _⟩ => ⟨S_, .f32⟩
  | .hbm, ⟨15, _⟩ => ⟨S1x1x1, .f32⟩
  | .hbm, ⟨16, _⟩ => ⟨S_, .f32⟩
  | .hbm, ⟨17, _⟩ => ⟨S1x1x1, .f32⟩
  | .hbm, ⟨18, _⟩ => ⟨S_, .f32⟩
  | .hbm, ⟨19, _⟩ => ⟨S_, .f32⟩
  | .hbm, ⟨20, _⟩ => ⟨S1x1x1, .f32⟩
  | .hbm, ⟨21, _⟩ => ⟨S_, .f32⟩
  | .hbm, ⟨22, _⟩ => ⟨S1x1x1, .f32⟩
  | .hbm, ⟨23, _⟩ => ⟨S_, .f32⟩
  | .hbm, ⟨24, _⟩ => ⟨S_, .f32⟩
  | .hbm, ⟨25, _⟩ => ⟨S1x1x256, .f32⟩
  | .hbm, ⟨26, _⟩ => ⟨S256, .f32⟩
  | .hbm, ⟨27, _⟩ => ⟨S1x1x256, .f32⟩
  | .hbm, ⟨28, _⟩ => ⟨S256, .f32⟩
  | .hbm, ⟨29, _⟩ => ⟨S256, .f32⟩
  | .hbm, ⟨30, _⟩ => ⟨S1x1x256, .f32⟩
  | .hbm, ⟨31, _⟩ => ⟨S256, .f32⟩
  | .hbm, ⟨32, _⟩ => ⟨S1x1x256, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S256, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S256, .f32⟩
  | .hbm, ⟨87, _⟩ => ⟨S256, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1x1x4, .f32⟩
  | .local _ .vmem, ⟨5, _⟩ => ⟨S1x1x4, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S1x256, .f32⟩
  | .local _ .vmem, ⟨15, _⟩ => ⟨S1x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst : Ref sig .tc := ⟨.hbm, 47, rfl⟩
abbrev main_v43 : Ref sig .tc := ⟨.hbm, 48, rfl⟩
abbrev main_cst_0 : Ref sig .tc := ⟨.hbm, 49, rfl⟩
abbrev main_v44 : Ref sig .tc := ⟨.hbm, 50, rfl⟩
abbrev main_cst_1 : Ref sig .tc := ⟨.hbm, 51, rfl⟩
abbrev main_v45 : Ref sig .tc := ⟨.hbm, 52, rfl⟩
abbrev main_v46 : Ref sig .tc := ⟨.hbm, 53, rfl⟩
abbrev main_cst_2 : Ref sig .tc := ⟨.hbm, 54, rfl⟩
abbrev main_v47 : Ref sig .tc := ⟨.hbm, 55, rfl⟩
abbrev main_cst_3 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_v61 : Ref sig .tc := ⟨.hbm, 80, rfl⟩
abbrev main_cst_14 : Ref sig .tc := ⟨.hbm, 81, rfl⟩
abbrev main_v62 : Ref sig .tc := ⟨.hbm, 82, rfl⟩
abbrev main_cst_15 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_16 : Ref sig .tc := ⟨.hbm, 88, rfl⟩
abbrev main_v67 : Ref sig .tc := ⟨.hbm, 89, rfl⟩
abbrev main_cst_17 : Ref sig .tc := ⟨.hbm, 90, rfl⟩
abbrev main_v68 : Ref sig .tc := ⟨.hbm, 91, rfl⟩
abbrev main_cst_18 : Ref sig .tc := ⟨.hbm, 92, rfl⟩
abbrev main_v69 : Ref sig .tc := ⟨.hbm, 93, rfl⟩
abbrev main_v70 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v57 : BitVec 1 := Scalar.cmpi .eq arg1 c1_i32
  let v58 : BitVec 32 := Scalar.extui v57
  let c0_i32_37 : BitVec 32 := 0#32
  let v59 : BitVec 1 := Scalar.cmpi .ne v58 c0_i32_37
  v59

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  reduces_S1024x1_S1 : S1024x1.Reduces [0] S1
  shapeCasts_S1_S1x1 : S1.ShapeCasts S1x1
  reduces_S1024x256_S256 : S1024x256.Reduces [0] S256
  shapeCasts_S256_S1x256 : S256.ShapeCasts S1x256
  concatenates_S1x1_S1x1_S1x1_S1x1_S1x4_d1 : Shape.Concatenates [S1x1, S1x1, S1x1, S1x1] S1x4 1
  inb_S1x1x4_S1x1x4_0_0_0 : ∀ a, (![0, 0, 0] : Fin 3 → Nat) a + S1x1x4.size a ≤ S1x1x4.size a
  h_S1x1x4 : 0 < S1x1x4.numel
  shapeCasts_S1x1x4_S1x4 : S1x1x4.ShapeCasts S1x4
  shapeCasts_S1x4_S1x1x4 : S1x4.ShapeCasts S1x1x4
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  slices_S2x1x4_S1x1x1_0_0_0 : S2x1x4.Slices ![0, 0, 0] S1x1x1
  shapeCasts_S1x1x1_S_ : S1x1x1.ShapeCasts S_
  slices_S2x1x4_S1x1x1_1_0_0 : S2x1x4.Slices ![1, 0, 0] S1x1x1
  slices_S2x1x4_S1x1x1_0_0_1 : S2x1x4.Slices ![0, 0, 1] S1x1x1
  slices_S2x1x4_S1x1x1_1_0_1 : S2x1x4.Slices ![1, 0, 1] S1x1x1
  slices_S2x1x4_S1x1x1_0_0_2 : S2x1x4.Slices ![0, 0, 2] S1x1x1
  slices_S2x1x4_S1x1x1_1_0_2 : S2x1x4.Slices ![1, 0, 2] S1x1x1
  slices_S2x1x4_S1x1x1_0_0_3 : S2x1x4.Slices ![0, 0, 3] S1x1x1
  slices_S2x1x4_S1x1x1_1_0_3 : S2x1x4.Slices ![1, 0, 3] S1x1x1
  slices_S2x1x256_S1x1x256_0_0_0 : S2x1x256.Slices ![0, 0, 0] S1x1x256
  shapeCasts_S1x1x256_S256 : S1x1x256.ShapeCasts S256
  slices_S2x1x256_S1x1x256_1_0_0 : S2x1x256.Slices ![1, 0, 0] S1x1x256
  bcast_S_S256 : S_.BroadcastsInDim S256 (![] : Fin 0 → Fin S256.rank)
  reducesTo_S256_S_d0 : S256.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4.size a ≤ S2x1x4.size a
  hwx0_2 : ∀ i : grid0.Coords, EltTy.bits .f32 = 32 ∨ (Rect.block (s := S2x1x4) S1x1x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S2x1x256.size a
  hwx0_3 : ∀ i : grid0.Coords, EltTy.bits .f32 = 32 ∨ (Rect.block (s := S2x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S2x1x256.size a
  hwx0_4 : ∀ i : grid0.Coords, EltTy.bits .f32 = 32 ∨ (Rect.block (s := S2x1x256) S1x1x256.size (cc0_transform_4 i) (hinb0_4 i)).WholeWords (EltTy.packing .f32)

variable [Facts₀]

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x4.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S8192x256 : Shape := ⟨2, ![8192, 256]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩
abbrev S4096x4096 : Shape := ⟨2, ![4096, 4096]⟩

abbrev nBuf : Space → Nat
  | .hbm => 75
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S8192x256, .f32⟩
  | .hbm, ⟨12, _⟩ => ⟨S8192x256, .f32⟩
  | .hbm, ⟨13, _⟩ => ⟨S_, .f32⟩
  | .hbm, ⟨14, _⟩ => ⟨S8192, .f32⟩
  | .hbm, ⟨15, _⟩ => ⟨S256x8192, .f32⟩
  | .hbm, ⟨16, _⟩ => ⟨S8192x8192, .f32⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_cst_10 : Ref sig .tc := ⟨.hbm, 41, rfl⟩
abbrev main_v28 : Ref sig .tc := ⟨.hbm, 42, rfl⟩
abbrev main_cst_11 : Ref sig .tc := ⟨.hbm, 43, rfl⟩
abbrev main_v29 : Ref sig .tc := ⟨.hbm, 44, rfl⟩
abbrev main_v30 : Ref sig .tc := ⟨.hbm, 45, rfl⟩
abbrev main_cst_12 : Ref sig .tc := ⟨.hbm, 46, rfl⟩
abbrev main_v31 : Ref sig .tc := ⟨.hbm, 47, rfl⟩
abbrev main_cst_13 : Ref sig .tc := ⟨.hbm, 48, rfl⟩
abbrev main_v32 : Ref sig .tc := ⟨.hbm, 49, rfl⟩
abbrev main_v33 : Ref sig .tc := ⟨.hbm, 50, rfl⟩
abbrev main_cst_14 : Ref sig .tc := ⟨.hbm, 51, rfl⟩
abbrev main_v34 : Ref sig .tc := ⟨.hbm, 52, rfl⟩
abbrev main_cst_15 : Ref sig .tc := ⟨.hbm, 53, rfl⟩
abbrev main_v35 : Ref sig .tc := ⟨.hbm, 54, rfl⟩
abbrev main_v36 : Ref sig .tc := ⟨.hbm, 55, rfl⟩
abbrev main_cst_16 : Ref sig .tc := ⟨.hbm, 56, rfl⟩
abbrev main_v37 : Ref sig .tc := ⟨.hbm, 57, rfl⟩
abbrev main_cst_17 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_18 : Ref sig .tc := ⟨.hbm, 71, rfl⟩
abbrev main_v50 : Ref sig .tc := ⟨.hbm, 72, rfl⟩
abbrev main_cst_19 : Ref sig .tc := ⟨.hbm, 73, rfl⟩
abbrev main_v51 : Ref sig .tc := ⟨.hbm, 74, rfl⟩

abbrev nD : Nat := 1
abbrev τ : Topo := Topo.v7x

variable {F : FTy → Type} [FloatOps F]

class Facts₀ : Prop where
  reducesTo_S4096x256_S_d0_1 : S4096x256.ReducesTo [0, 1] S_
  h_S_ : 0 < S_.numel
  bcast_S_S4096x256 : S_.BroadcastsInDim S4096x256 (![] : Fin 0 → Fin S4096x256.rank)
  concatenates_S4096x256_S4096x256_S8192x256_d0 : Shape.Concatenates [S4096x256, S4096x256] S8192x256 0
  reducesTo_S8192x256_S8192_d1 : S8192x256.ReducesTo [1] S8192
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  slices_S8192x8192_S4096x4096_0_0 : S8192x8192.Slices ![0, 0] S4096x4096
  slices_S8192x8192_S4096x4096_4096_4096 : S8192x8192.Slices ![4096, 4096] S4096x4096
  slices_S8192x8192_S4096x4096_0_4096 : S8192x8192.Slices ![0, 4096] S4096x4096
  slices_S8192x8192_S4096x4096_4096_0 : S8192x8192.Slices ![4096, 0] S4096x4096
  reducesTo_S4096x4096_S_d0_1 : S4096x4096.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KB.Runs.lean ====
/-
  The frame of the reduction kernel, first part: what the later parts are stated over.

  The program is one region on a 2 x 2 grid followed by ninety host operations. At grid point (c, i) the body reads
  block 2c + i (1024 rows) of each input and keeps six running values in scratch buffers: the maximum and the
  minimum of the first input, the two sums of squares, and the two vectors of column sums. They are reset when
  i = 0, and when i = 1 they are copied into row c of the three results; so the results' buffers are touched, and
  written back, only at the points with i = 1. Here: the arrays as the region finds them, @main as the region
  continued by its host operations (cut into two stretches), that those operations write no array of the region
  and allocate nothing, the two conditions on i in closed form over the four points, and the invariant that
  holds the scratch buffers.
-/
import proofs.«119928_j66408784331046_2_alg».proof.Proof.Gen.Kernel.Launch
import proofs.«119928_j66408784331046_2_alg».proof.Proof.Gen.Kernel.Skeleton
import proofs.«119928_j66408784331046_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: no host operation comes before it. -/
abbrev V0 (c : Dev nD) : Valuation τ sig (Elt F) := StableHlo.after (List.flatten []) (fun b => m (c, b))
/-- The same, read at a reference of the core. -/
abbrev V (c : Dev nD) (b : Ref sig .tc) : Buf (Elt F) ((c : Thread nD τ).loc b) := V0 m c (Proc.devRef .tc b)

/-- The host operations after the region, as the two stretches @main is printed in. -/
abbrev tail : List (List (HloOp τ sig (Elt F))) := [main_part0_ops0, main_part1_ops0]

theorem tail0_fresh : (main_part0_ops0 : List (HloOp τ sig (Elt F))).Forall fun op => op.fresh = ∅ := by
  simp only [List.Forall]; repeat' constructor
theorem tail1_fresh : (main_part1_ops0 : List (HloOp τ sig (Elt F))).Forall fun op => op.fresh = ∅ := by
  simp only [List.Forall]; repeat' constructor

/-- @main is the region continued by the two stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [] tail (by simp only [List.Forall])
    (by simp only [List.Forall]) main_chain_windows

/-- The later operations touch only unscoped references of the core. -/
theorem tail_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tail, List.mem_cons, List.mem_nil_iff, or_false] at hops
  rcases hops with rfl | rfl
  · exact Pipeline.sub_ucRefs op ((List.forall_iff_forall_mem.mp main_part0_ops0_sub) op hop)
  · exact Pipeline.sub_ucRefs op ((List.forall_iff_forall_mem.mp main_part1_ops0_sub) op hop)

/-- They allocate nothing. -/
theorem tail_fresh : ∀ ops ∈ (tail : List (List (HloOp τ sig (Elt F)))), ∀ op ∈ ops, op.fresh = ∅ := by
  intro ops hops op hop
  simp only [tail, List.mem_cons, List.mem_nil_iff, or_false] at hops
  rcases hops with rfl | rfl
  · exact (List.forall_iff_forall_mem.mp tail0_fresh) op hop
  · exact (List.forall_iff_forall_mem.mp tail1_fresh) op hop

set_option maxHeartbeats 4000000 in
/-- Each writes only its own result buffer, which is neither input nor one of the region's three results. -/
theorem tail0_keeps : ∀ op ∈ (main_part0_ops0 : List (HloOp τ sig (Elt F))),
    ∀ w, Proc.devRef .tc (Pipeline.arrRef spec0 w) ∉ op.writes := by
  intro op hop
  simp only [main_part0_ops0, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem tail1_keeps : ∀ op ∈ (main_part1_ops0 : List (HloOp τ sig (Elt F))),
    ∀ w, Proc.devRef .tc (Pipeline.arrRef spec0 w) ∉ op.writes := by
  intro op hop
  simp only [main_part1_ops0, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_keeps : ∀ ops ∈ (tail : List (List (HloOp τ sig (Elt F)))), ∀ op ∈ ops,
    ∀ w, Proc.devRef .tc (Pipeline.arrRef spec0 w) ∉ op.writes := by
  intro ops hops op hop
  simp only [tail, List.mem_cons, List.mem_nil_iff, or_false] at hops
  rcases hops with rfl | rfl
  · exact tail0_keeps op hop
  · exact tail1_keeps op hop

theorem V_main_arg0 (c : Dev nD) : V m c main_arg0 = m ((c : Thread nD τ).loc main_arg0) := rfl
theorem V_main_arg1 (c : Dev nD) : V m c main_arg1 = m ((c : Thread nD τ).loc main_arg1) := rfl

/-! ## The blocks of the windows -/

/-- Block `t` of window `w`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds its block at every point, for any proof data over these arrays whose body
    leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditions on the inner grid coordinate -/

/-- "The inner coordinate is 0": the accumulators are reset. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 2 = 0 :=
  (by decide +kernel : ∀ t : Fin grid0.N, condFirst (grid0.coords t) ↔ t.val % 2 = 0)

/-- "The inner coordinate is 1": the accumulators are copied to the results. -/
abbrev condLast (i : grid0.Coords) : Prop := k0_cond2 i = 1#1
theorem hcondLast : ∀ t : Fin cfg0.N, condLast (grid0.coords t) ↔ t.val % 2 = 1 :=
  (by decide +kernel : ∀ t : Fin grid0.N, condLast (grid0.coords t) ↔ t.val % 2 = 1)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
theorem idle_out2 : ∀ t : Fin cfg0.N, t.val % 2 = 0 → cfg0.idle 2 (grid0.coords t) = true := by decide +kernel
theorem idle_out3 : ∀ t : Fin cfg0.N, t.val % 2 = 0 → cfg0.idle 3 (grid0.coords t) = true := by decide +kernel
theorem idle_out4 : ∀ t : Fin cfg0.N, t.val % 2 = 0 → cfg0.idle 4 (grid0.coords t) = true := by decide +kernel
theorem noflush_out2 : ∀ t : Fin cfg0.N, t.val % 2 = 0 → (cfg0.win 2).flush t = false := by decide +kernel
theorem noflush_out3 : ∀ t : Fin cfg0.N, t.val % 2 = 0 → (cfg0.win 3).flush t = false := by decide +kernel
theorem noflush_out4 : ∀ t : Fin cfg0.N, t.val % 2 = 0 → (cfg0.win 4).flush t = false := by decide +kernel
theorem live_out2 : ∀ t : Fin cfg0.N, t.val % 2 = 1 → cfg0.idle 2 (grid0.coords t) = false := by decide +kernel
theorem live_out3 : ∀ t : Fin cfg0.N, t.val % 2 = 1 → cfg0.idle 3 (grid0.coords t) = false := by decide +kernel
theorem live_out4 : ∀ t : Fin cfg0.N, t.val % 2 = 1 → cfg0.idle 4 (grid0.coords t) = false := by decide +kernel

/-! ## The memrefs the body is called with -/

/-- One staging buffer of each result window, through which its contents are stated. -/
abbrev VO2 : View sig .tc .vmem S1x1x4 .f32 := (Memref.whole cc0_stg2_0 : Memref sig .tc .vmem S1x1x4 .f32).view
abbrev VO3 : View sig .tc .vmem S1x1x256 .f32 := (Memref.whole cc0_stg3_0 : Memref sig .tc .vmem S1x1x256 .f32).view
abbrev VO4 : View sig .tc .vmem S1x1x256 .f32 := (Memref.whole cc0_stg4_0 : Memref sig .tc .vmem S1x1x256 .f32).view
/-- Each window's current staging memref at point `t`, and that it is a whole buffer. -/
abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x4 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x256 .f32 := win0_4.stage (cfg0.slots t 4)
abbrev hs4 (t : Fin cfg0.N) : (ms4 t).IsWhole := hstage0_4 ((cfg0.slots t 4).cast nbuf0_4)
/-- The six accumulators: running maximum, running minimum, the two sums of squares, the two column sums. -/
abbrev scM0 : Memref sig .tc .vmem S1x1 .f32 := Memref.whole cc0_scratch0
abbrev scM1 : Memref sig .tc .vmem S1x1 .f32 := Memref.whole cc0_scratch1
abbrev scM2 : Memref sig .tc .vmem S1x1 .f32 := Memref.whole cc0_scratch2
abbrev scM3 : Memref sig .tc .vmem S1x1 .f32 := Memref.whole cc0_scratch3
abbrev scM4 : Memref sig .tc .vmem S1x256 .f32 := Memref.whole cc0_scratch4
abbrev scM5 : Memref sig .tc .vmem S1x256 .f32 := Memref.whole cc0_scratch5
abbrev VS0 : View sig .tc .vmem S1x1 .f32 := scM0.view
abbrev VS1 : View sig .tc .vmem S1x1 .f32 := scM1.view
abbrev VS2 : View sig .tc .vmem S1x1 .f32 := scM2.view
abbrev VS3 : View sig .tc .vmem S1x1 .f32 := scM3.view
abbrev VS4 : View sig .tc .vmem S1x256 .f32 := scM4.view
abbrev VS5 : View sig .tc .vmem S1x256 .f32 := scM5.view

/-- The region's invariant with the accumulators as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d)) ∗ (∃ r, prngReg c r)) := by
  unfold Pipeline.ΦA; rw [scopedRest0_eq]; simp only [scM0, scM1, scM2, scM3, scM4, scM5, owns_whole]; try rfl

end Cert.Kernel.Fr

end
-- ==== Proof.KB.RunFirst.lean ====
/-
  The body at a point whose inner coordinate is 0. The six accumulators are stored whole twice: first with their
  neutral values (minus infinity, plus infinity, zeros) and then with those values combined with the block's own
  maximum, minimum, sums of squares and column sums; the three results' buffers are not touched. The stores each
  accumulator ends with are found by running the body; they are the witness.
-/
import proofs.«119928_j66408784331046_2_alg».proof.Proof.KB.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs, the inputs' at their blocks `x0`, `x1` and the accumulators' at anything, the body at a point
    with inner coordinate 0 runs to a continuation that holds the inputs as they were and each accumulator with
    the listed stores written (last store first). -/
noncomputable def runFirst (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i)
    (x0 x1 : Vec F S1024x256 .f32) :
    Σ' (LS0 : List (View.Piece (Elt F) S1x1 .f32)) (LS1 : List (View.Piece (Elt F) S1x1 .f32)) (LS2 : List (View.Piece (Elt F) S1x1 .f32)) (LS3 : List (View.Piece (Elt F) S1x1 .f32)) (LS4 : List (View.Piece (Elt F) S1x256 .f32)), { LS5 : List (View.Piece (Elt F) S1x256 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Fr

end
-- ==== Proof.KB.RunLast.lean ====
/-
  The body at a point whose inner coordinate is 1. Each accumulator, holding what the point before left in it
  (`xs0` … `xs5`), is stored whole once with that value combined with the block's own, and the new values are
  then copied into the three results' buffers: the maximum, the minimum and the two sums of squares side by side
  into the first, the two vectors of column sums into the others.
-/
import proofs.«119928_j66408784331046_2_alg».proof.Proof.KB.RunFirst

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs, the inputs' at their blocks, the results' at anything and the accumulators' at `xs0` … `xs5`,
    the body at a point with inner coordinate 1 runs to a continuation that holds the inputs as they were and every
    result and accumulator with the listed stores written. -/
noncomputable def runLast (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i)
    (x0 x1 : Vec F S1024x256 .f32) (xs0 xs1 xs2 xs3 : Vec F S1x1 .f32) (xs4 xs5 : Vec F S1x256 .f32) :
    Σ' (L2 : List (View.Piece (Elt F) S1x1x4 .f32)) (L3 : List (View.Piece (Elt F) S1x1x256 .f32)) (L4 : List (View.Piece (Elt F) S1x1x256 .f32)) (LS0 : List (View.Piece (Elt F) S1x1 .f32)) (LS1 : List (View.Piece (Elt F) S1x1 .f32)) (LS2 : List (View.Piece (Elt F) S1x1 .f32)) (LS3 : List (View.Piece (Elt F) S1x1 .f32)) (LS4 : List (View.Piece (Elt F) S1x256 .f32)), { LS5 : List (View.Piece (Elt F) S1x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ owns (c : Thread nD τ) arg12 fullShare xs5
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1
    obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Fr

end
-- ==== Proof.KB.Held.lean ====
/-
  What the body leaves at a point, case by case, and by recursion on the point. At a point with inner coordinate 0
  each accumulator is stored twice (its neutral value, then that value combined with the block's own), and what it
  holds is those stores read back; at a point with inner coordinate 1 each accumulator is stored once, over what the
  point before left, and each result's buffer once with a copy. The stores cover their buffers, so the read-back
  does not depend on what the buffer held.
-/
import proofs.«119928_j66408784331046_2_alg».proof.Proof.KB.RunLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The stores a point with inner coordinate 0 leaves in accumulator 0 cover it. -/
theorem scoverF0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) (y : S1x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1).1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1).1 S1x1.size (by sl_kernel_rfl) y
/-- What such a point leaves in accumulator 0: its stores read back. -/
def soutF0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) : Vec F S1x1 .f32 :=
  VS0.read (Elt F) (VS0.writes (Elt F) VS0.junk (runFirst c i arg2 harg2 arg3 harg3 arg4 harg4 arg5 harg5 arg6 harg6 arg7 harg7 arg8 harg8 arg9 harg9 arg10 harg10 arg11 harg11 arg12 harg12 hc0 hc1 x0 x1).1)

/-- The stores a point with inner coordinate 0 leaves in accumulator 1 cover it. -/
theorem scoverF1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) (y : S1x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1).2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1).2.1 S1x1.size (by sl_kernel_rfl) y
/-- What such a point leaves in accumulator 1: its stores read back. -/
def soutF1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) : Vec F S1x1 .f32 :=
  VS1.read (Elt F) (VS1.writes (Elt F) VS1.junk (runFirst c i arg2 harg2 arg3 harg3 arg4 harg4 arg5 harg5 arg6 harg6 arg7 harg7 arg8 harg8 arg9 harg9 arg10 harg10 arg11 harg11 arg12 harg12 hc0 hc1 x0 x1).2.1)

/-- The stores a point with inner coordinate 0 leaves in accumulator 2 cover it. -/
theorem scoverF2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) (y : S1x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1).2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1).2.2.1 S1x1.size (by sl_kernel_rfl) y
/-- What such a point leaves in accumulator 2: its stores read back. -/
def soutF2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) : Vec F S1x1 .f32 :=
  VS2.read (Elt F) (VS2.writes (Elt F) VS2.junk (runFirst c i arg2 harg2 arg3 harg3 arg4 harg4 arg5 harg5 arg6 harg6 arg7 harg7 arg8 harg8 arg9 harg9 arg10 harg10 arg11 harg11 arg12 harg12 hc0 hc1 x0 x1).2.2.1)

/-- The stores a point with inner coordinate 0 leaves in accumulator 3 cover it. -/
theorem scoverF3 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) (y : S1x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1).2.2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1).2.2.2.1 S1x1.size (by sl_kernel_rfl) y
/-- What such a point leaves in accumulator 3: its stores read back. -/
def soutF3 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) : Vec F S1x1 .f32 :=
  VS3.read (Elt F) (VS3.writes (Elt F) VS3.junk (runFirst c i arg2 harg2 arg3 harg3 arg4 harg4 arg5 harg5 arg6 harg6 arg7 harg7 arg8 harg8 arg9 harg9 arg10 harg10 arg11 harg11 arg12 harg12 hc0 hc1 x0 x1).2.2.2.1)

/-- The stores a point with inner coordinate 0 leaves in accumulator 4 cover it. -/
theorem scoverF4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) (y : S1x256.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1).2.2.2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1).2.2.2.2.1 S1x256.size (by sl_kernel_rfl) y
/-- What such a point leaves in accumulator 4: its stores read back. -/
def soutF4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) : Vec F S1x256 .f32 :=
  VS4.read (Elt F) (VS4.writes (Elt F) VS4.junk (runFirst c i arg2 harg2 arg3 harg3 arg4 harg4 arg5 harg5 arg6 harg6 arg7 harg7 arg8 harg8 arg9 harg9 arg10 harg10 arg11 harg11 arg12 harg12 hc0 hc1 x0 x1).2.2.2.2.1)

/-- The stores a point with inner coordinate 0 leaves in accumulator 5 cover it. -/
theorem scoverF5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) (y : S1x256.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1).2.2.2.2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1).2.2.2.2.2.1 S1x256.size (by sl_kernel_rfl) y
/-- What such a point leaves in accumulator 5: its stores read back. -/
def soutF5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) : Vec F S1x256 .f32 :=
  VS5.read (Elt F) (VS5.writes (Elt F) VS5.junk (runFirst c i arg2 harg2 arg3 harg3 arg4 harg4 arg5 harg5 arg6 harg6 arg7 harg7 arg8 harg8 arg9 harg9 arg10 harg10 arg11 harg11 arg12 harg12 hc0 hc1 x0 x1).2.2.2.2.2.1)

/-- The store a point with inner coordinate 1 leaves in result window 2's buffer covers it. -/
theorem coverL2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) (y : S1x1x4.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).1 S1x1x4.size (by sl_kernel_rfl) y
/-- What such a point leaves in result window 2's buffer. -/
def outL2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) : Vec F S1x1x4 .f32 :=
  VO2.read (Elt F) (VO2.writes (Elt F) VO2.junk (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).1)

/-- The store a point with inner coordinate 1 leaves in result window 3's buffer covers it. -/
theorem coverL3 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) (y : S1x1x256.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.1 S1x1x256.size (by sl_kernel_rfl) y
/-- What such a point leaves in result window 3's buffer. -/
def outL3 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) : Vec F S1x1x256 .f32 :=
  VO3.read (Elt F) (VO3.writes (Elt F) VO3.junk (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.1)

/-- The store a point with inner coordinate 1 leaves in result window 4's buffer covers it. -/
theorem coverL4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) (y : S1x1x256.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.1 S1x1x256.size (by sl_kernel_rfl) y
/-- What such a point leaves in result window 4's buffer. -/
def outL4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) : Vec F S1x1x256 .f32 :=
  VO4.read (Elt F) (VO4.writes (Elt F) VO4.junk (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.1)

/-- The store a point with inner coordinate 1 leaves in accumulator 0 covers it. -/
theorem scoverL0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) (y : S1x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.1 S1x1.size (by sl_kernel_rfl) y
/-- What such a point leaves in accumulator 0. -/
def soutL0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) : Vec F S1x1 .f32 :=
  VS0.read (Elt F) (VS0.writes (Elt F) VS0.junk (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.1)

/-- The store a point with inner coordinate 1 leaves in accumulator 1 covers it. -/
theorem scoverL1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) (y : S1x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.1 S1x1.size (by sl_kernel_rfl) y
/-- What such a point leaves in accumulator 1. -/
def soutL1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) : Vec F S1x1 .f32 :=
  VS1.read (Elt F) (VS1.writes (Elt F) VS1.junk (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.1)

/-- The store a point with inner coordinate 1 leaves in accumulator 2 covers it. -/
theorem scoverL2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) (y : S1x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.1 S1x1.size (by sl_kernel_rfl) y
/-- What such a point leaves in accumulator 2. -/
def soutL2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) : Vec F S1x1 .f32 :=
  VS2.read (Elt F) (VS2.writes (Elt F) VS2.junk (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.1)

/-- The store a point with inner coordinate 1 leaves in accumulator 3 covers it. -/
theorem scoverL3 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) (y : S1x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.2.1 S1x1.size (by sl_kernel_rfl) y
/-- What such a point leaves in accumulator 3. -/
def soutL3 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) : Vec F S1x1 .f32 :=
  VS3.read (Elt F) (VS3.writes (Elt F) VS3.junk (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.2.1)

/-- The store a point with inner coordinate 1 leaves in accumulator 4 covers it. -/
theorem scoverL4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) (y : S1x256.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.2.2.1 S1x256.size (by sl_kernel_rfl) y
/-- What such a point leaves in accumulator 4. -/
def soutL4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) : Vec F S1x256 .f32 :=
  VS4.read (Elt F) (VS4.writes (Elt F) VS4.junk (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.2.2.1)

/-- The store a point with inner coordinate 1 leaves in accumulator 5 covers it. -/
theorem scoverL5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) (y : S1x256.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.2.2.2.1 S1x256.size (by sl_kernel_rfl) y
/-- What such a point leaves in accumulator 5. -/
def soutL5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) : Vec F S1x256 .f32 :=
  VS5.read (Elt F) (VS5.writes (Elt F) VS5.junk (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.2.2.2.1)

/-! ## What is held after each point -/

/-- The three results' buffers and the six accumulators. -/
structure Held (F : FTy → Type) [FloatOps F] where
  o2 : Vec F S1x1x4 .f32
  o3 : Vec F S1x1x256 .f32
  o4 : Vec F S1x1x256 .f32
  s0 : Vec F S1x1 .f32
  s1 : Vec F S1x1 .f32
  s2 : Vec F S1x1 .f32
  s3 : Vec F S1x1 .f32
  s4 : Vec F S1x256 .f32
  s5 : Vec F S1x256 .f32

theorem notLast_of (t : Fin cfg0.N) (h : t.val % 2 = 0) : ¬condLast (grid0.coords t) :=
  fun h' => by have := (hcondLast t).mp h'; omega
theorem notFirst_of (t : Fin cfg0.N) (h : t.val % 2 = 1) : ¬condFirst (grid0.coords t) :=
  fun h' => by have := (hcondFirst t).mp h'; omega

/-- After a point with inner coordinate 0: the accumulators at that case's values; the results' buffers are not
    stored into there (a placeholder stands for them, which nothing reads). -/
def heldFirst (c : Dev nD) (t : Fin cfg0.N) (h : t.val % 2 = 0) : Held F where
  o2 := VO2.read (Elt F) (VO2.writes (Elt F) VO2.junk [])
  o3 := VO3.read (Elt F) (VO3.writes (Elt F) VO3.junk [])
  o4 := VO4.read (Elt F) (VO4.writes (Elt F) VO4.junk [])
  s0 := soutF0 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) ((hcondFirst t).mpr h) (notLast_of t h) (iblk m c 0 t) (iblk m c 1 t)
  s1 := soutF1 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) ((hcondFirst t).mpr h) (notLast_of t h) (iblk m c 0 t) (iblk m c 1 t)
  s2 := soutF2 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) ((hcondFirst t).mpr h) (notLast_of t h) (iblk m c 0 t) (iblk m c 1 t)
  s3 := soutF3 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) ((hcondFirst t).mpr h) (notLast_of t h) (iblk m c 0 t) (iblk m c 1 t)
  s4 := soutF4 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) ((hcondFirst t).mpr h) (notLast_of t h) (iblk m c 0 t) (iblk m c 1 t)
  s5 := soutF5 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) ((hcondFirst t).mpr h) (notLast_of t h) (iblk m c 0 t) (iblk m c 1 t)

/-- After a point with inner coordinate 1, over what the point before left in the accumulators. -/
def heldLast (c : Dev nD) (t : Fin cfg0.N) (h : t.val % 2 = 1) (p : Held F) : Held F where
  o2 := outL2 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) (notFirst_of t h) ((hcondLast t).mpr h) (iblk m c 0 t) (iblk m c 1 t) p.s0 p.s1 p.s2 p.s3 p.s4 p.s5
  o3 := outL3 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) (notFirst_of t h) ((hcondLast t).mpr h) (iblk m c 0 t) (iblk m c 1 t) p.s0 p.s1 p.s2 p.s3 p.s4 p.s5
  o4 := outL4 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) (notFirst_of t h) ((hcondLast t).mpr h) (iblk m c 0 t) (iblk m c 1 t) p.s0 p.s1 p.s2 p.s3 p.s4 p.s5
  s0 := soutL0 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) (notFirst_of t h) ((hcondLast t).mpr h) (iblk m c 0 t) (iblk m c 1 t) p.s0 p.s1 p.s2 p.s3 p.s4 p.s5
  s1 := soutL1 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) (notFirst_of t h) ((hcondLast t).mpr h) (iblk m c 0 t) (iblk m c 1 t) p.s0 p.s1 p.s2 p.s3 p.s4 p.s5
  s2 := soutL2 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) (notFirst_of t h) ((hcondLast t).mpr h) (iblk m c 0 t) (iblk m c 1 t) p.s0 p.s1 p.s2 p.s3 p.s4 p.s5
  s3 := soutL3 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) (notFirst_of t h) ((hcondLast t).mpr h) (iblk m c 0 t) (iblk m c 1 t) p.s0 p.s1 p.s2 p.s3 p.s4 p.s5
  s4 := soutL4 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) (notFirst_of t h) ((hcondLast t).mpr h) (iblk m c 0 t) (iblk m c 1 t) p.s0 p.s1 p.s2 p.s3 p.s4 p.s5
  s5 := soutL5 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) (notFirst_of t h) ((hcondLast t).mpr h) (iblk m c 0 t) (iblk m c 1 t) p.s0 p.s1 p.s2 p.s3 p.s4 p.s5

/-- The recursion on the point. -/
def heldAt (c : Dev nD) : (n : ℕ) → n < cfg0.N → Held F
  | 0, hn => heldFirst m c ⟨0, hn⟩ (Nat.zero_mod _)
  | n + 1, hn =>
    if h : (n + 1) % 2 = 0 then heldFirst m c ⟨n + 1, hn⟩ h
    else heldLast m c ⟨n + 1, hn⟩ (Nat.mod_two_ne_zero.mp h) (heldAt c n (Nat.lt_of_succ_lt hn))

theorem heldAt_first (c : Dev nD) (t : Fin cfg0.N) (h : t.val % 2 = 0) :
    heldAt m c t.val t.isLt = heldFirst m c t h := by
  obtain ⟨n, hn⟩ := t
  cases n with
  | zero => exact rfl
  | succ n => exact (dif_pos h).trans rfl

theorem heldAt_last (c : Dev nD) (t : Fin cfg0.N) (h : t.val % 2 = 1) :
    heldAt m c t.val t.isLt = heldLast m c t h (heldAt m c (t.val - 1) (Nat.lt_of_le_of_lt (Nat.sub_le _ _) t.isLt)) := by
  obtain ⟨n, hn⟩ := t
  cases n with
  | zero => exact absurd (show (0 : ℕ) % 2 = 1 from h) (by decide)
  | succ n => exact (dif_neg (fun h0 => by have h1 : (n + 1) % 2 = 1 := h; omega)).trans rfl

end Cert.Kernel.Fr

end
-- ==== Proof.KB.Frame.lean ====
/-
  The frame of the reduction kernel, last part. After the body at point t each result's buffer and each accumulator
  holds a value determined by the blocks read so far: at a point with inner coordinate 0 the accumulators hold the
  block's own maximum, minimum, sums of squares and column sums (combined with the neutral values), and the
  results' buffers are whatever they were; at a point with inner coordinate 1 the accumulators hold those of the
  point before combined with the block's, and the results' buffers hold copies of them. This is a recursion on
  the point; the invariant between points is the six accumulators at those values. From it: the proof data, the
  body's obligation at every point, the run of @main (the region and then the ninety host operations), and that
  the two inputs end unchanged.
-/
import proofs.«119928_j66408784331046_2_alg».proof.Proof.KB.Held

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before position `n`: before the first point every accumulator at anything; afterwards each at
    what the point before left in it. -/
def PhiS (c : Dev nD) : (n : ℕ) → n ≤ cfg0.N → sProp 𝕄
  | 0, _ => Pipeline.ΦA spec0 c
  | n + 1, hn => iprop(iprop(owns (c : Thread nD τ) scM0 fullShare ((heldAt m c n hn).s0) ∗ owns (c : Thread nD τ) scM1 fullShare ((heldAt m c n hn).s1) ∗ owns (c : Thread nD τ) scM2 fullShare ((heldAt m c n hn).s2) ∗ owns (c : Thread nD τ) scM3 fullShare ((heldAt m c n hn).s3) ∗ owns (c : Thread nD τ) scM4 fullShare ((heldAt m c n hn).s4) ∗ owns (c : Thread nD τ) scM5 fullShare ((heldAt m c n hn).s5)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((heldAt m c n hn).s0) ∗ owns (c : Thread nD τ) scM1 fullShare ((heldAt m c n hn).s1) ∗ owns (c : Thread nD τ) scM2 fullShare ((heldAt m c n hn).s2) ∗ owns (c : Thread nD τ) scM3 fullShare ((heldAt m c n hn).s3) ∗ owns (c : Thread nD τ) scM4 fullShare ((heldAt m c n hn).s4) ∗ owns (c : Thread nD τ) scM5 fullShare ((heldAt m c n hn).s5)) ∗ (∃ r, prngReg c r)) := rfl

theorem PhiS_pos (c : Dev nD) (n : ℕ) (h : n ≤ cfg0.N) (hz : n ≠ 0) :
    PhiS m c n h = iprop(iprop(owns (c : Thread nD τ) scM0 fullShare ((heldAt m c (n - 1) (by omega)).s0) ∗ owns (c : Thread nD τ) scM1 fullShare ((heldAt m c (n - 1) (by omega)).s1) ∗ owns (c : Thread nD τ) scM2 fullShare ((heldAt m c (n - 1) (by omega)).s2) ∗ owns (c : Thread nD τ) scM3 fullShare ((heldAt m c (n - 1) (by omega)).s3) ∗ owns (c : Thread nD τ) scM4 fullShare ((heldAt m c (n - 1) (by omega)).s4) ∗ owns (c : Thread nD τ) scM5 fullShare ((heldAt m c (n - 1) (by omega)).s5)) ∗ (∃ r, prngReg c r)) := by
  cases n with
  | zero => exact absurd rfl hz
  | succ n => rfl

/-! ## The proof data -/

/-- The arrays as the region finds them; after the body at point `t` each input's buffer at its block and each
    result's at what is held; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (heldAt m c t.val t.isLt).o2
    | ⟨3, _⟩ => (heldAt m c t.val t.isLt).o3
    | ⟨4, _⟩ => (heldAt m c t.val t.isLt).o4
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (heldAt m c t.val t.isLt).o2 := by dsimp only [dats]
theorem after_3 (c : Dev nD) (t : Fin cfg0.N) : (dats m 0 c).after 3 t = (heldAt m c t.val t.isLt).o3 := by dsimp only [dats]
theorem after_4 (c : Dev nD) (t : Fin cfg0.N) : (dats m 0 c).after 4 t = (heldAt m c t.val t.isLt).o4 := by dsimp only [dats]

theorem before_in0 (c : Dev nD) (t : Fin cfg0.N) (d) : (dats m 0 c).before 0 t d = iblk m c 0 t :=
  before_in0_of m (dats m 0 c) (A_eq m c 0) (after_0 m c) t d
theorem before_in1 (c : Dev nD) (t : Fin cfg0.N) (d) : (dats m 0 c).before 1 t d = iblk m c 1 t :=
  before_in1_of m (dats m 0 c) (A_eq m c 1) (after_1 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: the inputs' buffers hold their blocks; the parity of the point says which case it is in;
    the invariant hands the body the accumulators at what the point before left (at anything before the first point)
    and takes them back at this point's values. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).owesAt () t.succ = (dats m 0 c).owesAt () t.castSucc from rfl]
  rw [show (dats m 0 c).Φ t.succ = PhiS m c (t.val + 1) t.isLt from rfl, PhiS_succ]
  have hN : t.val < 4 := lt_of_lt_of_eq t.isLt (show cfg0.N = 4 from N_0)
  rw [show (dats m 0 c).leavesExact 0 t = owns (c : Thread nD τ) (ms0 t) fullShare ((dats m 0 c).after 0 t) from by
    unfold Dat.leavesExact; rw [live_in0 t], after_0]
  rw [show (dats m 0 c).leavesExact 1 t = owns (c : Thread nD τ) (ms1 t) fullShare ((dats m 0 c).after 1 t) from by
    unfold Dat.leavesExact; rw [live_in1 t], after_1]
  by_cases h0 : t.val % 2 = 0
  · rw [Dat.leavesExact_idle (dats m 0 c) 2 t (idle_out2 t h0) (noflush_out2 t h0)]
    rw [Dat.leavesExact_idle (dats m 0 c) 3 t (idle_out3 t h0) (noflush_out3 t h0)]
    rw [Dat.leavesExact_idle (dats m 0 c) 4 t (idle_out4 t h0) (noflush_out4 t h0)]
    by_cases hz : t.val = 0
    ·
      rw [PhiS_castSucc m c t, PhiS_zero m c _ _ hz, PhiA_eq]
      rw [heldAt_first m c t h0]
      iintro ⟨⟨⟨HS0, HS1, HS2, HS3, HS4, HS5⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ _ _ _ _ _ _ ((hcondFirst t).mpr h0) (notLast_of t h0) (iblk m c 0 t) (iblk m c 1 t)).2.2.2.2.2.2 Set.univ _)
      isplitl [H0]; · iexact H0
      isplitl [H1]; · iexact H1
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, ⟨%e0, HS0⟩, ⟨%e1, HS1⟩, ⟨%e2, HS2⟩, ⟨%e3, HS3⟩, ⟨%e4, HS4⟩, ⟨%e5, HS5⟩⟩
      isplitl [HS0 HS1 HS2 HS3 HS4 HS5 Hg]
      · isplitl [HS0 HS1 HS2 HS3 HS4 HS5]
        · isplitl [HS0]
          · unfold heldFirst soutF0 owns; (try dsimp only)
            iexists _; isplitr
            swap; · iexact HS0
            ipureintro; exact View.read_writes_of_cover _ _ _ _ _ (scoverF0 c _ _ _ _ _ _ _ _ _ _ _ _ _ _ _ _ _ _ _ _ _ _ _ _ _ _ _)
          isplitl [HS1]
          · unfold heldFirst soutF1 owns; (try dsimp only)
            iexists _; isplitr
            swap; · iexact HS1
            ipureintro; exact View.read_writes_of_cover _ _ _ _ _ (scoverF1 c _ _ _ _ _ _ _ _ _ _ _ _ _ _ _ _ _ _ _ _ _ _ _ _ _ _ _)
          isplitl [HS2]
          · unfold heldFirst soutF2 owns; (try dsimp only)
            iexists _; isplitr
            swap; · iexact HS2
            ipureintro; exact View.read_writes_of_cover _ _ _ _ _ (scoverF2 c _ _ _ _ _ _ _ _ _ _ _ _ _ _ _ _ _ _ _ _ _ _ _ _ _ _ _)
          isplitl [HS3]
          · unfold heldFirst soutF3 owns; (try dsimp only)
            iexists _; isplitr
            swap; · iexact HS3
            ipureintro; exact View.read_writes_of_cover _ _ _ _ _ (scoverF3 c _ _ _ _ _ _ _ _ _ _ _ _ _ _ _ _ _ _ _ _ _ _ _ _ _ _ _)
          isplitl [HS4]
          · unfold heldFirst soutF4 owns; (try dsimp only)
            iexists _; isplitr
            swap; · iexact HS4
            ipureintro; exact View.read_writes_of_cover _ _ _ _ _ (scoverF4 c _ _ _ _ _ _ _ _ _ _ _ _ _ _ _ _ _ _ _ _ _ _ _ _ _ _ _)
          unfold heldFirst soutF5 owns; (try dsimp only)
          iexists _; isplitr
          swap; · iexact HS5
          ipureintro; exact View.read_writes_of_cover _ _ _ _ _ (scoverF5 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexists _; iexact H2
      isplitl [H3]; · iexists _; iexact H3
      iexists _; iexact H4
    ·
      rw [PhiS_castSucc m c t, PhiS_pos m c _ _ hz]
      rw [heldAt_first m c t h0]
      iintro ⟨⟨⟨HS0, HS1, HS2, HS3, HS4, HS5⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ _ _ _ _ _ _ ((hcondFirst t).mpr h0) (notLast_of t h0) (iblk m c 0 t) (iblk m c 1 t)).2.2.2.2.2.2 Set.univ _)
      isplitl [H0]; · iexact H0
      isplitl [H1]; · iexact H1
      isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iintro ⟨H0, H1, ⟨%e0, HS0⟩, ⟨%e1, HS1⟩, ⟨%e2, HS2⟩, ⟨%e3, HS3⟩, ⟨%e4, HS4⟩, ⟨%e5, HS5⟩⟩
      isplitl [HS0 HS1 HS2 HS3 HS4 HS5 Hg]
      · isplitl [HS0 HS1 HS2 HS3 HS4 HS5]
        · isplitl [HS0]
          · unfold heldFirst soutF0 owns; (try dsimp only)
            iexists _; isplitr
            swap; · iexact HS0
            ipureintro; exact View.read_writes_of_cover _ _ _ _ _ (scoverF0 c _ _ _ _ _ _ _ _ _ _ _ _ _ _ _ _ _ _ _ _ _ _ _ _ _ _ _)
          isplitl [HS1]
          · unfold heldFirst soutF1 owns; (try dsimp only)
            iexists _; isplitr
            swap; · iexact HS1
            ipureintro; exact View.read_writes_of_cover _ _ _ _ _ (scoverF1 c _ _ _ _ _ _ _ _ _ _ _ _ _ _ _ _ _ _ _ _ _ _ _ _ _ _ _)
          isplitl [HS2]
          · unfold heldFirst soutF2 owns; (try dsimp only)
            iexists _; isplitr
            swap; · iexact HS2
            ipureintro; exact View.read_writes_of_cover _ _ _ _ _ (scoverF2 c _ _ _ _ _ _ _ _ _ _ _ _ _ _ _ _ _ _ _ _ _ _ _ _ _ _ _)
          isplitl [HS3]
          · unfold heldFirst soutF3 owns; (try dsimp only)
            iexists _; isplitr
            swap; · iexact HS3
            ipureintro; exact View.read_writes_of_cover _ _ _ _ _ (scoverF3 c _ _ _ _ _ _ _ _ _ _ _ _ _ _ _ _ _ _ _ _ _ _ _ _ _ _ _)
          isplitl [HS4]
          · unfold heldFirst soutF4 owns; (try dsimp only)
            iexists _; isplitr
            swap; · iexact HS4
            ipureintro; exact View.read_writes_of_cover _ _ _ _ _ (scoverF4 c _ _ _ _ _ _ _ _ _ _ _ _ _ _ _ _ _ _ _ _ _ _ _ _ _ _ _)
          unfold heldFirst soutF5 owns; (try dsimp only)
          iexists _; isplitr
          swap; · iexact HS5
          ipureintro; exact View.read_writes_of_cover _ _ _ _ _ (scoverF5 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexists _; iexact H2
      isplitl [H3]; · iexists _; iexact H3
      iexists _; iexact H4
  · have h1 : t.val % 2 = 1 := Nat.mod_two_ne_zero.mp h0
    have hz : t.val ≠ 0 := by omega
    rw [show (dats m 0 c).leavesExact 2 t = owns (c : Thread nD τ) (ms2 t) fullShare ((dats m 0 c).after 2 t) from by
      unfold Dat.leavesExact; rw [live_out2 t h1], after_2]
    rw [show (dats m 0 c).leavesExact 3 t = owns (c : Thread nD τ) (ms3 t) fullShare ((dats m 0 c).after 3 t) from by
      unfold Dat.leavesExact; rw [live_out3 t h1], after_3]
    rw [show (dats m 0 c).leavesExact 4 t = owns (c : Thread nD τ) (ms4 t) fullShare ((dats m 0 c).after 4 t) from by
      unfold Dat.leavesExact; rw [live_out4 t h1], after_4]
    rw [PhiS_castSucc m c t, PhiS_pos m c _ _ hz]
    rw [heldAt_last m c t h1]
    iintro ⟨⟨⟨HS0, HS1, HS2, HS3, HS4, HS5⟩, Hg⟩, Ho, ⟨%d0, H0⟩, ⟨%d1, H1⟩, ⟨%d2, H2⟩, ⟨%d3, H3⟩, ⟨%d4, H4⟩⟩
    iapply ((runLast c (grid0.coords t) _ _ _ _ _ _ _ _ _ _ _ _ _ _ _ _ _ _ _ _ _ _ (notFirst_of t h1) ((hcondLast t).mpr h1) (iblk m c 0 t) (iblk m c 1 t) _ _ _ _ _ _).2.2.2.2.2.2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, ⟨%e2, H2⟩, ⟨%e3, H3⟩, ⟨%e4, H4⟩, ⟨%es0, HS0⟩, ⟨%es1, HS1⟩, ⟨%es2, HS2⟩, ⟨%es3, HS3⟩, ⟨%es4, HS4⟩, ⟨%es5, HS5⟩⟩
    isplitl [HS0 HS1 HS2 HS3 HS4 HS5 Hg]
    · isplitl [HS0 HS1 HS2 HS3 HS4 HS5]
      · isplitl [HS0]
        · unfold heldLast soutL0 owns; (try dsimp only)
          iexists _; isplitr
          swap; · iexact HS0
          ipureintro; exact View.read_writes_of_cover _ _ _ _ _ (scoverL0 c _ _ _ _ _ _ _ _ _ _ _ _ _ _ _ _ _ _ _ _ _ _ _ _ _ _ _ _ _ _ _ _ _)
        isplitl [HS1]
        · unfold heldLast soutL1 owns; (try dsimp only)
          iexists _; isplitr
          swap; · iexact HS1
          ipureintro; exact View.read_writes_of_cover _ _ _ _ _ (scoverL1 c _ _ _ _ _ _ _ _ _ _ _ _ _ _ _ _ _ _ _ _ _ _ _ _ _ _ _ _ _ _ _ _ _)
        isplitl [HS2]
        · unfold heldLast soutL2 owns; (try dsimp only)
          iexists _; isplitr
          swap; · iexact HS2
          ipureintro; exact View.read_writes_of_cover _ _ _ _ _ (scoverL2 c _ _ _ _ _ _ _ _ _ _ _ _ _ _ _ _ _ _ _ _ _ _ _ _ _ _ _ _ _ _ _ _ _)
        isplitl [HS3]
        · unfold heldLast soutL3 owns; (try dsimp only)
          iexists _; isplitr
          swap; · iexact HS3
          ipureintro; exact View.read_writes_of_cover _ _ _ _ _ (scoverL3 c _ _ _ _ _ _ _ _ _ _ _ _ _ _ _ _ _ _ _ _ _ _ _ _ _ _ _ _ _ _ _ _ _)
        isplitl [HS4]
        · unfold heldLast soutL4 owns; (try dsimp only)
          iexists _; isplitr
          swap; · iexact HS4
          ipureintro; exact View.read_writes_of_cover _ _ _ _ _ (scoverL4 c _ _ _ _ _ _ _ _ _ _ _ _ _ _ _ _ _ _ _ _ _ _ _ _ _ _ _ _ _ _ _ _ _)
        unfold heldLast soutL5 owns; (try dsimp only)
        iexists _; isplitr
        swap; · iexact HS5
        ipureintro; exact View.read_writes_of_cover _ _ _ _ _ (scoverL5 c _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]
    · unfold heldLast outL2 owns; (try dsimp only)
      iexists _; isplitr
      swap; · iexact H2
      ipureintro; exact View.read_writes_of_cover _ _ _ _ _ (coverL2 c _ _ _ _ _ _ _ _ _ _ _ _ _ _ _ _ _ _ _ _ _ _ _ _ _ _ _ _ _ _ _ _ _)
    isplitl [H3]
    · unfold heldLast outL3 owns; (try dsimp only)
      iexists _; isplitr
      swap; · iexact H3
      ipureintro; exact View.read_writes_of_cover _ _ _ _ _ (coverL3 c _ _ _ _ _ _ _ _ _ _ _ _ _ _ _ _ _ _ _ _ _ _ _ _ _ _ _ _ _ _ _ _ _)
    unfold heldLast outL4 owns; (try dsimp only)
    iexists _; isplitr
    swap; · iexact H4
    ipureintro; exact View.read_writes_of_cover _ _ _ _ _ (coverL4 c _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the accumulators back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

theorem hout (c : Dev nD) : (dats m 0 c).Φ (Fin.last cfg0.N) ⊢ Pipeline.ΦA spec0 c :=
  Phi_out m c _ (by rw [Fin.val_last]; have : cfg0.N = 4 := N_0; omega)

/-! ## The run and the frame -/

set_option backward.isDefEq.respectTransparency.types false in
/-- Every weakly fair execution of @main terminates; afterwards every array of the region holds what the library
    computes from the proof data, and every other unscoped buffer what the later host operations leave. -/
theorem run_main : θ_run defs (onTc (τ := τ) (main (F := F))) (s₀ m ρ) (Pipeline.FramePost cfgs (dats m) 0 (Pipeline.afterTail₀ cfgs (dats m) 0 (V0 m) tail)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := tail_sub) (hfresh := tail_fresh) (hkeep := tail_keeps)
    (hmain := hmain m Variants.none) (hA := A_eq m) (hin := hin m) (hout := hout m)

/-- The two inputs end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans ((((dats m) 0 c).arrAt_in 0 rfl _).trans ((A_eq m c 0).trans (V_main_arg0 m c))),
     ((h c).1 1).trans ((((dats m) 0 c).arrAt_in 1 rfl _).trans ((A_eq m c 1).trans (V_main_arg1 m c)))⟩) (run_main m ρ)

end Cert.Kernel.Fr

end
-- ==== Proof.KI.Runs.lean ====
/-
  The frame of the reduction kernel, first part: what the later parts are stated over.

  The program is one region on a 2 x 2 grid followed by ninety host operations. At grid point (c, i) the body reads
  block 2c + i (1024 rows) of each input and keeps six running values in scratch buffers: the maximum and the
  minimum of the first input, the two sums of squares, and the two vectors of column sums. They are reset when
  i = 0, and when i = 1 they are copied into row c of the three results; so the results' buffers are touched, and
  written back, only at the points with i = 1. Here: the arrays as the region finds them, @main as the region
  continued by its host operations (cut into two stretches), that those operations write no array of the region
  and allocate nothing, the two conditions on i in closed form over the four points, and the invariant that
  holds the scratch buffers.
-/
import proofs.«119928_j66408784331046_2_alg».proof.Proof.Gen.KernelIdeal.Launch
import proofs.«119928_j66408784331046_2_alg».proof.Proof.Gen.KernelIdeal.Skeleton
import proofs.«119928_j66408784331046_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: no host operation comes before it. -/
abbrev V0 (c : Dev nD) : Valuation τ sig (Elt F) := StableHlo.after (List.flatten []) (fun b => m (c, b))
/-- The same, read at a reference of the core. -/
abbrev V (c : Dev nD) (b : Ref sig .tc) : Buf (Elt F) ((c : Thread nD τ).loc b) := V0 m c (Proc.devRef .tc b)

/-- The host operations after the region, as the two stretches @main is printed in. -/
abbrev tail : List (List (HloOp τ sig (Elt F))) := [main_part0_ops0, main_part1_ops0]

theorem tail0_fresh : (main_part0_ops0 : List (HloOp τ sig (Elt F))).Forall fun op => op.fresh = ∅ := by
  simp only [List.Forall]; repeat' constructor
theorem tail1_fresh : (main_part1_ops0 : List (HloOp τ sig (Elt F))).Forall fun op => op.fresh = ∅ := by
  simp only [List.Forall]; repeat' constructor

/-- @main is the region continued by the two stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [] tail (by simp only [List.Forall])
    (by simp only [List.Forall]) main_chain_windows

/-- The later operations touch only unscoped references of the core. -/
theorem tail_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tail, List.mem_cons, List.mem_nil_iff, or_false] at hops
  rcases hops with rfl | rfl
  · exact Pipeline.sub_ucRefs op ((List.forall_iff_forall_mem.mp main_part0_ops0_sub) op hop)
  · exact Pipeline.sub_ucRefs op ((List.forall_iff_forall_mem.mp main_part1_ops0_sub) op hop)

/-- They allocate nothing. -/
theorem tail_fresh : ∀ ops ∈ (tail : List (List (HloOp τ sig (Elt F)))), ∀ op ∈ ops, op.fresh = ∅ := by
  intro ops hops op hop
  simp only [tail, List.mem_cons, List.mem_nil_iff, or_false] at hops
  rcases hops with rfl | rfl
  · exact (List.forall_iff_forall_mem.mp tail0_fresh) op hop
  · exact (List.forall_iff_forall_mem.mp tail1_fresh) op hop

set_option maxHeartbeats 4000000 in
/-- Each writes only its own result buffer, which is neither input nor one of the region's three results. -/
theorem tail0_keeps : ∀ op ∈ (main_part0_ops0 : List (HloOp τ sig (Elt F))),
    ∀ w, Proc.devRef .tc (Pipeline.arrRef spec0 w) ∉ op.writes := by
  intro op hop
  simp only [main_part0_ops0, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem tail1_keeps : ∀ op ∈ (main_part1_ops0 : List (HloOp τ sig (Elt F))),
    ∀ w, Proc.devRef .tc (Pipeline.arrRef spec0 w) ∉ op.writes := by
  intro op hop
  simp only [main_part1_ops0, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_keeps : ∀ ops ∈ (tail : List (List (HloOp τ sig (Elt F)))), ∀ op ∈ ops,
    ∀ w, Proc.devRef .tc (Pipeline.arrRef spec0 w) ∉ op.writes := by
  intro ops hops op hop
  simp only [tail, List.mem_cons, List.mem_nil_iff, or_false] at hops
  rcases hops with rfl | rfl
  · exact tail0_keeps op hop
  · exact tail1_keeps op hop

theorem V_main_arg0 (c : Dev nD) : V m c main_arg0 = m ((c : Thread nD τ).loc main_arg0) := rfl
theorem V_main_arg1 (c : Dev nD) : V m c main_arg1 = m ((c : Thread nD τ).loc main_arg1) := rfl

/-! ## The blocks of the windows -/

/-- Block `t` of window `w`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds its block at every point, for any proof data over these arrays whose body
    leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditions on the inner grid coordinate -/

/-- "The inner coordinate is 0": the accumulators are reset. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 2 = 0 :=
  (by decide +kernel : ∀ t : Fin grid0.N, condFirst (grid0.coords t) ↔ t.val % 2 = 0)

/-- "The inner coordinate is 1": the accumulators are copied to the results. -/
abbrev condLast (i : grid0.Coords) : Prop := k0_cond2 i = 1#1
theorem hcondLast : ∀ t : Fin cfg0.N, condLast (grid0.coords t) ↔ t.val % 2 = 1 :=
  (by decide +kernel : ∀ t : Fin grid0.N, condLast (grid0.coords t) ↔ t.val % 2 = 1)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
theorem idle_out2 : ∀ t : Fin cfg0.N, t.val % 2 = 0 → cfg0.idle 2 (grid0.coords t) = true := by decide +kernel
theorem idle_out3 : ∀ t : Fin cfg0.N, t.val % 2 = 0 → cfg0.idle 3 (grid0.coords t) = true := by decide +kernel
theorem idle_out4 : ∀ t : Fin cfg0.N, t.val % 2 = 0 → cfg0.idle 4 (grid0.coords t) = true := by decide +kernel
theorem noflush_out2 : ∀ t : Fin cfg0.N, t.val % 2 = 0 → (cfg0.win 2).flush t = false := by decide +kernel
theorem noflush_out3 : ∀ t : Fin cfg0.N, t.val % 2 = 0 → (cfg0.win 3).flush t = false := by decide +kernel
theorem noflush_out4 : ∀ t : Fin cfg0.N, t.val % 2 = 0 → (cfg0.win 4).flush t = false := by decide +kernel
theorem live_out2 : ∀ t : Fin cfg0.N, t.val % 2 = 1 → cfg0.idle 2 (grid0.coords t) = false := by decide +kernel
theorem live_out3 : ∀ t : Fin cfg0.N, t.val % 2 = 1 → cfg0.idle 3 (grid0.coords t) = false := by decide +kernel
theorem live_out4 : ∀ t : Fin cfg0.N, t.val % 2 = 1 → cfg0.idle 4 (grid0.coords t) = false := by decide +kernel

/-! ## The memrefs the body is called with -/

/-- One staging buffer of each result window, through which its contents are stated. -/
abbrev VO2 : View sig .tc .vmem S1x1x4 .f32 := (Memref.whole cc0_stg2_0 : Memref sig .tc .vmem S1x1x4 .f32).view
abbrev VO3 : View sig .tc .vmem S1x1x256 .f32 := (Memref.whole cc0_stg3_0 : Memref sig .tc .vmem S1x1x256 .f32).view
abbrev VO4 : View sig .tc .vmem S1x1x256 .f32 := (Memref.whole cc0_stg4_0 : Memref sig .tc .vmem S1x1x256 .f32).view
/-- Each window's current staging memref at point `t`, and that it is a whole buffer. -/
abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x4 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x256 .f32 := win0_4.stage (cfg0.slots t 4)
abbrev hs4 (t : Fin cfg0.N) : (ms4 t).IsWhole := hstage0_4 ((cfg0.slots t 4).cast nbuf0_4)
/-- The six accumulators: running maximum, running minimum, the two sums of squares, the two column sums. -/
abbrev scM0 : Memref sig .tc .vmem S1x1 .f32 := Memref.whole cc0_scratch0
abbrev scM1 : Memref sig .tc .vmem S1x1 .f32 := Memref.whole cc0_scratch1
abbrev scM2 : Memref sig .tc .vmem S1x1 .f32 := Memref.whole cc0_scratch2
abbrev scM3 : Memref sig .tc .vmem S1x1 .f32 := Memref.whole cc0_scratch3
abbrev scM4 : Memref sig .tc .vmem S1x256 .f32 := Memref.whole cc0_scratch4
abbrev scM5 : Memref sig .tc .vmem S1x256 .f32 := Memref.whole cc0_scratch5
abbrev VS0 : View sig .tc .vmem S1x1 .f32 := scM0.view
abbrev VS1 : View sig .tc .vmem S1x1 .f32 := scM1.view
abbrev VS2 : View sig .tc .vmem S1x1 .f32 := scM2.view
abbrev VS3 : View sig .tc .vmem S1x1 .f32 := scM3.view
abbrev VS4 : View sig .tc .vmem S1x256 .f32 := scM4.view
abbrev VS5 : View sig .tc .vmem S1x256 .f32 := scM5.view

/-- The region's invariant with the accumulators as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d)) ∗ (∃ r, prngReg c r)) := by
  unfold Pipeline.ΦA; rw [scopedRest0_eq]; simp only [scM0, scM1, scM2, scM3, scM4, scM5, owns_whole]; try rfl

end Cert.KernelIdeal.Fr

end
-- ==== Proof.KI.RunFirst.lean ====
/-
  The body at a point whose inner coordinate is 0. The six accumulators are stored whole twice: first with their
  neutral values (minus infinity, plus infinity, zeros) and then with those values combined with the block's own
  maximum, minimum, sums of squares and column sums; the three results' buffers are not touched. The stores each
  accumulator ends with are found by running the body; they are the witness.
-/
import proofs.«119928_j66408784331046_2_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs, the inputs' at their blocks `x0`, `x1` and the accumulators' at anything, the body at a point
    with inner coordinate 0 runs to a continuation that holds the inputs as they were and each accumulator with
    the listed stores written (last store first). -/
noncomputable def runFirst (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i)
    (x0 x1 : Vec F S1024x256 .f32) :
    Σ' (LS0 : List (View.Piece (Elt F) S1x1 .f32)) (LS1 : List (View.Piece (Elt F) S1x1 .f32)) (LS2 : List (View.Piece (Elt F) S1x1 .f32)) (LS3 : List (View.Piece (Elt F) S1x1 .f32)) (LS4 : List (View.Piece (Elt F) S1x256 .f32)), { LS5 : List (View.Piece (Elt F) S1x256 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Fr

end
-- ==== Proof.KI.RunLast.lean ====
/-
  The body at a point whose inner coordinate is 1. Each accumulator, holding what the point before left in it
  (`xs0` … `xs5`), is stored whole once with that value combined with the block's own, and the new values are
  then copied into the three results' buffers: the maximum, the minimum and the two sums of squares side by side
  into the first, the two vectors of column sums into the others.
-/
import proofs.«119928_j66408784331046_2_alg».proof.Proof.KI.RunFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs, the inputs' at their blocks, the results' at anything and the accumulators' at `xs0` … `xs5`,
    the body at a point with inner coordinate 1 runs to a continuation that holds the inputs as they were and every
    result and accumulator with the listed stores written. -/
noncomputable def runLast (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i)
    (x0 x1 : Vec F S1024x256 .f32) (xs0 xs1 xs2 xs3 : Vec F S1x1 .f32) (xs4 xs5 : Vec F S1x256 .f32) :
    Σ' (L2 : List (View.Piece (Elt F) S1x1x4 .f32)) (L3 : List (View.Piece (Elt F) S1x1x256 .f32)) (L4 : List (View.Piece (Elt F) S1x1x256 .f32)) (LS0 : List (View.Piece (Elt F) S1x1 .f32)) (LS1 : List (View.Piece (Elt F) S1x1 .f32)) (LS2 : List (View.Piece (Elt F) S1x1 .f32)) (LS3 : List (View.Piece (Elt F) S1x1 .f32)) (LS4 : List (View.Piece (Elt F) S1x256 .f32)), { LS5 : List (View.Piece (Elt F) S1x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ owns (c : Thread nD τ) arg12 fullShare xs5
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1
    obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Fr

end
-- ==== Proof.KI.Held.lean ====
/-
  What the body leaves at a point, case by case, and by recursion on the point. At a point with inner coordinate 0
  each accumulator is stored twice (its neutral value, then that value combined with the block's own), and what it
  holds is those stores read back; at a point with inner coordinate 1 each accumulator is stored once, over what the
  point before left, and each result's buffer once with a copy. The stores cover their buffers, so the read-back
  does not depend on what the buffer held.
-/
import proofs.«119928_j66408784331046_2_alg».proof.Proof.KI.RunLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The stores a point with inner coordinate 0 leaves in accumulator 0 cover it. -/
theorem scoverF0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) (y : S1x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1).1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1).1 S1x1.size (by sl_kernel_rfl) y
/-- What such a point leaves in accumulator 0: its stores read back. -/
def soutF0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) : Vec F S1x1 .f32 :=
  VS0.read (Elt F) (VS0.writes (Elt F) VS0.junk (runFirst c i arg2 harg2 arg3 harg3 arg4 harg4 arg5 harg5 arg6 harg6 arg7 harg7 arg8 harg8 arg9 harg9 arg10 harg10 arg11 harg11 arg12 harg12 hc0 hc1 x0 x1).1)

/-- The stores a point with inner coordinate 0 leaves in accumulator 1 cover it. -/
theorem scoverF1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) (y : S1x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1).2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1).2.1 S1x1.size (by sl_kernel_rfl) y
/-- What such a point leaves in accumulator 1: its stores read back. -/
def soutF1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) : Vec F S1x1 .f32 :=
  VS1.read (Elt F) (VS1.writes (Elt F) VS1.junk (runFirst c i arg2 harg2 arg3 harg3 arg4 harg4 arg5 harg5 arg6 harg6 arg7 harg7 arg8 harg8 arg9 harg9 arg10 harg10 arg11 harg11 arg12 harg12 hc0 hc1 x0 x1).2.1)

/-- The stores a point with inner coordinate 0 leaves in accumulator 2 cover it. -/
theorem scoverF2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) (y : S1x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1).2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1).2.2.1 S1x1.size (by sl_kernel_rfl) y
/-- What such a point leaves in accumulator 2: its stores read back. -/
def soutF2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) : Vec F S1x1 .f32 :=
  VS2.read (Elt F) (VS2.writes (Elt F) VS2.junk (runFirst c i arg2 harg2 arg3 harg3 arg4 harg4 arg5 harg5 arg6 harg6 arg7 harg7 arg8 harg8 arg9 harg9 arg10 harg10 arg11 harg11 arg12 harg12 hc0 hc1 x0 x1).2.2.1)

/-- The stores a point with inner coordinate 0 leaves in accumulator 3 cover it. -/
theorem scoverF3 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) (y : S1x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1).2.2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1).2.2.2.1 S1x1.size (by sl_kernel_rfl) y
/-- What such a point leaves in accumulator 3: its stores read back. -/
def soutF3 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) : Vec F S1x1 .f32 :=
  VS3.read (Elt F) (VS3.writes (Elt F) VS3.junk (runFirst c i arg2 harg2 arg3 harg3 arg4 harg4 arg5 harg5 arg6 harg6 arg7 harg7 arg8 harg8 arg9 harg9 arg10 harg10 arg11 harg11 arg12 harg12 hc0 hc1 x0 x1).2.2.2.1)

/-- The stores a point with inner coordinate 0 leaves in accumulator 4 cover it. -/
theorem scoverF4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) (y : S1x256.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1).2.2.2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1).2.2.2.2.1 S1x256.size (by sl_kernel_rfl) y
/-- What such a point leaves in accumulator 4: its stores read back. -/
def soutF4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) : Vec F S1x256 .f32 :=
  VS4.read (Elt F) (VS4.writes (Elt F) VS4.junk (runFirst c i arg2 harg2 arg3 harg3 arg4 harg4 arg5 harg5 arg6 harg6 arg7 harg7 arg8 harg8 arg9 harg9 arg10 harg10 arg11 harg11 arg12 harg12 hc0 hc1 x0 x1).2.2.2.2.1)

/-- The stores a point with inner coordinate 0 leaves in accumulator 5 cover it. -/
theorem scoverF5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) (y : S1x256.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1).2.2.2.2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1).2.2.2.2.2.1 S1x256.size (by sl_kernel_rfl) y
/-- What such a point leaves in accumulator 5: its stores read back. -/
def soutF5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) : Vec F S1x256 .f32 :=
  VS5.read (Elt F) (VS5.writes (Elt F) VS5.junk (runFirst c i arg2 harg2 arg3 harg3 arg4 harg4 arg5 harg5 arg6 harg6 arg7 harg7 arg8 harg8 arg9 harg9 arg10 harg10 arg11 harg11 arg12 harg12 hc0 hc1 x0 x1).2.2.2.2.2.1)

/-- The store a point with inner coordinate 1 leaves in result window 2's buffer covers it. -/
theorem coverL2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) (y : S1x1x4.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).1 S1x1x4.size (by sl_kernel_rfl) y
/-- What such a point leaves in result window 2's buffer. -/
def outL2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) : Vec F S1x1x4 .f32 :=
  VO2.read (Elt F) (VO2.writes (Elt F) VO2.junk (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).1)

/-- The store a point with inner coordinate 1 leaves in result window 3's buffer covers it. -/
theorem coverL3 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) (y : S1x1x256.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.1 S1x1x256.size (by sl_kernel_rfl) y
/-- What such a point leaves in result window 3's buffer. -/
def outL3 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) : Vec F S1x1x256 .f32 :=
  VO3.read (Elt F) (VO3.writes (Elt F) VO3.junk (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.1)

/-- The store a point with inner coordinate 1 leaves in result window 4's buffer covers it. -/
theorem coverL4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) (y : S1x1x256.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.1 S1x1x256.size (by sl_kernel_rfl) y
/-- What such a point leaves in result window 4's buffer. -/
def outL4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) : Vec F S1x1x256 .f32 :=
  VO4.read (Elt F) (VO4.writes (Elt F) VO4.junk (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.1)

/-- The store a point with inner coordinate 1 leaves in accumulator 0 covers it. -/
theorem scoverL0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) (y : S1x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.1 S1x1.size (by sl_kernel_rfl) y
/-- What such a point leaves in accumulator 0. -/
def soutL0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) : Vec F S1x1 .f32 :=
  VS0.read (Elt F) (VS0.writes (Elt F) VS0.junk (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.1)

/-- The store a point with inner coordinate 1 leaves in accumulator 1 covers it. -/
theorem scoverL1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) (y : S1x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.1 S1x1.size (by sl_kernel_rfl) y
/-- What such a point leaves in accumulator 1. -/
def soutL1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) : Vec F S1x1 .f32 :=
  VS1.read (Elt F) (VS1.writes (Elt F) VS1.junk (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.1)

/-- The store a point with inner coordinate 1 leaves in accumulator 2 covers it. -/
theorem scoverL2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) (y : S1x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.1 S1x1.size (by sl_kernel_rfl) y
/-- What such a point leaves in accumulator 2. -/
def soutL2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) : Vec F S1x1 .f32 :=
  VS2.read (Elt F) (VS2.writes (Elt F) VS2.junk (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.1)

/-- The store a point with inner coordinate 1 leaves in accumulator 3 covers it. -/
theorem scoverL3 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) (y : S1x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.2.1 S1x1.size (by sl_kernel_rfl) y
/-- What such a point leaves in accumulator 3. -/
def soutL3 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) : Vec F S1x1 .f32 :=
  VS3.read (Elt F) (VS3.writes (Elt F) VS3.junk (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.2.1)

/-- The store a point with inner coordinate 1 leaves in accumulator 4 covers it. -/
theorem scoverL4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) (y : S1x256.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.2.2.1 S1x256.size (by sl_kernel_rfl) y
/-- What such a point leaves in accumulator 4. -/
def soutL4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) : Vec F S1x256 .f32 :=
  VS4.read (Elt F) (VS4.writes (Elt F) VS4.junk (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.2.2.1)

/-- The store a point with inner coordinate 1 leaves in accumulator 5 covers it. -/
theorem scoverL5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) (y : S1x256.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.2.2.2.1 S1x256.size (by sl_kernel_rfl) y
/-- What such a point leaves in accumulator 5. -/
def soutL5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) : Vec F S1x256 .f32 :=
  VS5.read (Elt F) (VS5.writes (Elt F) VS5.junk (runLast c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5).2.2.2.2.2.2.2.2.1)

/-! ## What is held after each point -/

/-- The three results' buffers and the six accumulators. -/
structure Held (F : FTy → Type) [FloatOps F] where
  o2 : Vec F S1x1x4 .f32
  o3 : Vec F S1x1x256 .f32
  o4 : Vec F S1x1x256 .f32
  s0 : Vec F S1x1 .f32
  s1 : Vec F S1x1 .f32
  s2 : Vec F S1x1 .f32
  s3 : Vec F S1x1 .f32
  s4 : Vec F S1x256 .f32
  s5 : Vec F S1x256 .f32

theorem notLast_of (t : Fin cfg0.N) (h : t.val % 2 = 0) : ¬condLast (grid0.coords t) :=
  fun h' => by have := (hcondLast t).mp h'; omega
theorem notFirst_of (t : Fin cfg0.N) (h : t.val % 2 = 1) : ¬condFirst (grid0.coords t) :=
  fun h' => by have := (hcondFirst t).mp h'; omega

/-- After a point with inner coordinate 0: the accumulators at that case's values; the results' buffers are not
    stored into there (a placeholder stands for them, which nothing reads). -/
def heldFirst (c : Dev nD) (t : Fin cfg0.N) (h : t.val % 2 = 0) : Held F where
  o2 := VO2.read (Elt F) (VO2.writes (Elt F) VO2.junk [])
  o3 := VO3.read (Elt F) (VO3.writes (Elt F) VO3.junk [])
  o4 := VO4.read (Elt F) (VO4.writes (Elt F) VO4.junk [])
  s0 := soutF0 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) ((hcondFirst t).mpr h) (notLast_of t h) (iblk m c 0 t) (iblk m c 1 t)
  s1 := soutF1 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) ((hcondFirst t).mpr h) (notLast_of t h) (iblk m c 0 t) (iblk m c 1 t)
  s2 := soutF2 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) ((hcondFirst t).mpr h) (notLast_of t h) (iblk m c 0 t) (iblk m c 1 t)
  s3 := soutF3 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) ((hcondFirst t).mpr h) (notLast_of t h) (iblk m c 0 t) (iblk m c 1 t)
  s4 := soutF4 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) ((hcondFirst t).mpr h) (notLast_of t h) (iblk m c 0 t) (iblk m c 1 t)
  s5 := soutF5 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) ((hcondFirst t).mpr h) (notLast_of t h) (iblk m c 0 t) (iblk m c 1 t)

/-- After a point with inner coordinate 1, over what the point before left in the accumulators. -/
def heldLast (c : Dev nD) (t : Fin cfg0.N) (h : t.val % 2 = 1) (p : Held F) : Held F where
  o2 := outL2 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) (notFirst_of t h) ((hcondLast t).mpr h) (iblk m c 0 t) (iblk m c 1 t) p.s0 p.s1 p.s2 p.s3 p.s4 p.s5
  o3 := outL3 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) (notFirst_of t h) ((hcondLast t).mpr h) (iblk m c 0 t) (iblk m c 1 t) p.s0 p.s1 p.s2 p.s3 p.s4 p.s5
  o4 := outL4 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) (notFirst_of t h) ((hcondLast t).mpr h) (iblk m c 0 t) (iblk m c 1 t) p.s0 p.s1 p.s2 p.s3 p.s4 p.s5
  s0 := soutL0 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) (notFirst_of t h) ((hcondLast t).mpr h) (iblk m c 0 t) (iblk m c 1 t) p.s0 p.s1 p.s2 p.s3 p.s4 p.s5
  s1 := soutL1 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) (notFirst_of t h) ((hcondLast t).mpr h) (iblk m c 0 t) (iblk m c 1 t) p.s0 p.s1 p.s2 p.s3 p.s4 p.s5
  s2 := soutL2 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) (notFirst_of t h) ((hcondLast t).mpr h) (iblk m c 0 t) (iblk m c 1 t) p.s0 p.s1 p.s2 p.s3 p.s4 p.s5
  s3 := soutL3 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) (notFirst_of t h) ((hcondLast t).mpr h) (iblk m c 0 t) (iblk m c 1 t) p.s0 p.s1 p.s2 p.s3 p.s4 p.s5
  s4 := soutL4 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) (notFirst_of t h) ((hcondLast t).mpr h) (iblk m c 0 t) (iblk m c 1 t) p.s0 p.s1 p.s2 p.s3 p.s4 p.s5
  s5 := soutL5 c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) (notFirst_of t h) ((hcondLast t).mpr h) (iblk m c 0 t) (iblk m c 1 t) p.s0 p.s1 p.s2 p.s3 p.s4 p.s5

/-- The recursion on the point. -/
def heldAt (c : Dev nD) : (n : ℕ) → n < cfg0.N → Held F
  | 0, hn => heldFirst m c ⟨0, hn⟩ (Nat.zero_mod _)
  | n + 1, hn =>
    if h : (n + 1) % 2 = 0 then heldFirst m c ⟨n + 1, hn⟩ h
    else heldLast m c ⟨n + 1, hn⟩ (Nat.mod_two_ne_zero.mp h) (heldAt c n (Nat.lt_of_succ_lt hn))

theorem heldAt_first (c : Dev nD) (t : Fin cfg0.N) (h : t.val % 2 = 0) :
    heldAt m c t.val t.isLt = heldFirst m c t h := by
  obtain ⟨n, hn⟩ := t
  cases n with
  | zero => exact rfl
  | succ n => exact (dif_pos h).trans rfl

theorem heldAt_last (c : Dev nD) (t : Fin cfg0.N) (h : t.val % 2 = 1) :
    heldAt m c t.val t.isLt = heldLast m c t h (heldAt m c (t.val - 1) (Nat.lt_of_le_of_lt (Nat.sub_le _ _) t.isLt)) := by
  obtain ⟨n, hn⟩ := t
  cases n with
  | zero => exact absurd (show (0 : ℕ) % 2 = 1 from h) (by decide)
  | succ n => exact (dif_neg (fun h0 => by have h1 : (n + 1) % 2 = 1 := h; omega)).trans rfl

end Cert.KernelIdeal.Fr

end
-- ==== Proof.KI.Frame.lean ====
/-
  The frame of the reduction kernel, last part. After the body at point t each result's buffer and each accumulator
  holds a value determined by the blocks read so far: at a point with inner coordinate 0 the accumulators hold the
  block's own maximum, minimum, sums of squares and column sums (combined with the neutral values), and the
  results' buffers are whatever they were; at a point with inner coordinate 1 the accumulators hold those of the
  point before combined with the block's, and the results' buffers hold copies of them. This is a recursion on
  the point; the invariant between points is the six accumulators at those values. From it: the proof data, the
  body's obligation at every point, the run of @main (the region and then the ninety host operations), and that
  the two inputs end unchanged.
-/
import proofs.«119928_j66408784331046_2_alg».proof.Proof.KI.Held

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before position `n`: before the first point every accumulator at anything; afterwards each at
    what the point before left in it. -/
def PhiS (c : Dev nD) : (n : ℕ) → n ≤ cfg0.N → sProp 𝕄
  | 0, _ => Pipeline.ΦA spec0 c
  | n + 1, hn => iprop(iprop(owns (c : Thread nD τ) scM0 fullShare ((heldAt m c n hn).s0) ∗ owns (c : Thread nD τ) scM1 fullShare ((heldAt m c n hn).s1) ∗ owns (c : Thread nD τ) scM2 fullShare ((heldAt m c n hn).s2) ∗ owns (c : Thread nD τ) scM3 fullShare ((heldAt m c n hn).s3) ∗ owns (c : Thread nD τ) scM4 fullShare ((heldAt m c n hn).s4) ∗ owns (c : Thread nD τ) scM5 fullShare ((heldAt m c n hn).s5)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((heldAt m c n hn).s0) ∗ owns (c : Thread nD τ) scM1 fullShare ((heldAt m c n hn).s1) ∗ owns (c : Thread nD τ) scM2 fullShare ((heldAt m c n hn).s2) ∗ owns (c : Thread nD τ) scM3 fullShare ((heldAt m c n hn).s3) ∗ owns (c : Thread nD τ) scM4 fullShare ((heldAt m c n hn).s4) ∗ owns (c : Thread nD τ) scM5 fullShare ((heldAt m c n hn).s5)) ∗ (∃ r, prngReg c r)) := rfl

theorem PhiS_pos (c : Dev nD) (n : ℕ) (h : n ≤ cfg0.N) (hz : n ≠ 0) :
    PhiS m c n h = iprop(iprop(owns (c : Thread nD τ) scM0 fullShare ((heldAt m c (n - 1) (by omega)).s0) ∗ owns (c : Thread nD τ) scM1 fullShare ((heldAt m c (n - 1) (by omega)).s1) ∗ owns (c : Thread nD τ) scM2 fullShare ((heldAt m c (n - 1) (by omega)).s2) ∗ owns (c : Thread nD τ) scM3 fullShare ((heldAt m c (n - 1) (by omega)).s3) ∗ owns (c : Thread nD τ) scM4 fullShare ((heldAt m c (n - 1) (by omega)).s4) ∗ owns (c : Thread nD τ) scM5 fullShare ((heldAt m c (n - 1) (by omega)).s5)) ∗ (∃ r, prngReg c r)) := by
  cases n with
  | zero => exact absurd rfl hz
  | succ n => rfl

/-! ## The proof data -/

/-- The arrays as the region finds them; after the body at point `t` each input's buffer at its block and each
    result's at what is held; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (heldAt m c t.val t.isLt).o2
    | ⟨3, _⟩ => (heldAt m c t.val t.isLt).o3
    | ⟨4, _⟩ => (heldAt m c t.val t.isLt).o4
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (heldAt m c t.val t.isLt).o2 := by dsimp only [dats]
theorem after_3 (c : Dev nD) (t : Fin cfg0.N) : (dats m 0 c).after 3 t = (heldAt m c t.val t.isLt).o3 := by dsimp only [dats]
theorem after_4 (c : Dev nD) (t : Fin cfg0.N) : (dats m 0 c).after 4 t = (heldAt m c t.val t.isLt).o4 := by dsimp only [dats]

theorem before_in0 (c : Dev nD) (t : Fin cfg0.N) (d) : (dats m 0 c).before 0 t d = iblk m c 0 t :=
  before_in0_of m (dats m 0 c) (A_eq m c 0) (after_0 m c) t d
theorem before_in1 (c : Dev nD) (t : Fin cfg0.N) (d) : (dats m 0 c).before 1 t d = iblk m c 1 t :=
  before_in1_of m (dats m 0 c) (A_eq m c 1) (after_1 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: the inputs' buffers hold their blocks; the parity of the point says which case it is in;
    the invariant hands the body the accumulators at what the point before left (at anything before the first point)
    and takes them back at this point's values. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).owesAt () t.succ = (dats m 0 c).owesAt () t.castSucc from rfl]
  rw [show (dats m 0 c).Φ t.succ = PhiS m c (t.val + 1) t.isLt from rfl, PhiS_succ]
  have hN : t.val < 4 := lt_of_lt_of_eq t.isLt (show cfg0.N = 4 from N_0)
  rw [show (dats m 0 c).leavesExact 0 t = owns (c : Thread nD τ) (ms0 t) fullShare ((dats m 0 c).after 0 t) from by
    unfold Dat.leavesExact; rw [live_in0 t], after_0]
  rw [show (dats m 0 c).leavesExact 1 t = owns (c : Thread nD τ) (ms1 t) fullShare ((dats m 0 c).after 1 t) from by
    unfold Dat.leavesExact; rw [live_in1 t], after_1]
  by_cases h0 : t.val % 2 = 0
  · rw [Dat.leavesExact_idle (dats m 0 c) 2 t (idle_out2 t h0) (noflush_out2 t h0)]
    rw [Dat.leavesExact_idle (dats m 0 c) 3 t (idle_out3 t h0) (noflush_out3 t h0)]
    rw [Dat.leavesExact_idle (dats m 0 c) 4 t (idle_out4 t h0) (noflush_out4 t h0)]
    by_cases hz : t.val = 0
    ·
      rw [PhiS_castSucc m c t, PhiS_zero m c _ _ hz, PhiA_eq]
      rw [heldAt_first m c t h0]
      iintro ⟨⟨⟨HS0, HS1, HS2, HS3, HS4, HS5⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ _ _ _ _ _ _ ((hcondFirst t).mpr h0) (notLast_of t h0) (iblk m c 0 t) (iblk m c 1 t)).2.2.2.2.2.2 Set.univ _)
      isplitl [H0]; · iexact H0
      isplitl [H1]; · iexact H1
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, ⟨%e0, HS0⟩, ⟨%e1, HS1⟩, ⟨%e2, HS2⟩, ⟨%e3, HS3⟩, ⟨%e4, HS4⟩, ⟨%e5, HS5⟩⟩
      isplitl [HS0 HS1 HS2 HS3 HS4 HS5 Hg]
      · isplitl [HS0 HS1 HS2 HS3 HS4 HS5]
        · isplitl [HS0]
          · unfold heldFirst soutF0 owns; (try dsimp only)
            iexists _; isplitr
            swap; · iexact HS0
            ipureintro; exact View.read_writes_of_cover _ _ _ _ _ (scoverF0 c _ _ _ _ _ _ _ _ _ _ _ _ _ _ _ _ _ _ _ _ _ _ _ _ _ _ _)
          isplitl [HS1]
          · unfold heldFirst soutF1 owns; (try dsimp only)
            iexists _; isplitr
            swap; · iexact HS1
            ipureintro; exact View.read_writes_of_cover _ _ _ _ _ (scoverF1 c _ _ _ _ _ _ _ _ _ _ _ _ _ _ _ _ _ _ _ _ _ _ _ _ _ _ _)
          isplitl [HS2]
          · unfold heldFirst soutF2 owns; (try dsimp only)
            iexists _; isplitr
            swap; · iexact HS2
            ipureintro; exact View.read_writes_of_cover _ _ _ _ _ (scoverF2 c _ _ _ _ _ _ _ _ _ _ _ _ _ _ _ _ _ _ _ _ _ _ _ _ _ _ _)
          isplitl [HS3]
          · unfold heldFirst soutF3 owns; (try dsimp only)
            iexists _; isplitr
            swap; · iexact HS3
            ipureintro; exact View.read_writes_of_cover _ _ _ _ _ (scoverF3 c _ _ _ _ _ _ _ _ _ _ _ _ _ _ _ _ _ _ _ _ _ _ _ _ _ _ _)
          isplitl [HS4]
          · unfold heldFirst soutF4 owns; (try dsimp only)
            iexists _; isplitr
            swap; · iexact HS4
            ipureintro; exact View.read_writes_of_cover _ _ _ _ _ (scoverF4 c _ _ _ _ _ _ _ _ _ _ _ _ _ _ _ _ _ _ _ _ _ _ _ _ _ _ _)
          unfold heldFirst soutF5 owns; (try dsimp only)
          iexists _; isplitr
          swap; · iexact HS5
          ipureintro; exact View.read_writes_of_cover _ _ _ _ _ (scoverF5 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexists _; iexact H2
      isplitl [H3]; · iexists _; iexact H3
      iexists _; iexact H4
    ·
      rw [PhiS_castSucc m c t, PhiS_pos m c _ _ hz]
      rw [heldAt_first m c t h0]
      iintro ⟨⟨⟨HS0, HS1, HS2, HS3, HS4, HS5⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ _ _ _ _ _ _ ((hcondFirst t).mpr h0) (notLast_of t h0) (iblk m c 0 t) (iblk m c 1 t)).2.2.2.2.2.2 Set.univ _)
      isplitl [H0]; · iexact H0
      isplitl [H1]; · iexact H1
      isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iintro ⟨H0, H1, ⟨%e0, HS0⟩, ⟨%e1, HS1⟩, ⟨%e2, HS2⟩, ⟨%e3, HS3⟩, ⟨%e4, HS4⟩, ⟨%e5, HS5⟩⟩
      isplitl [HS0 HS1 HS2 HS3 HS4 HS5 Hg]
      · isplitl [HS0 HS1 HS2 HS3 HS4 HS5]
        · isplitl [HS0]
          · unfold heldFirst soutF0 owns; (try dsimp only)
            iexists _; isplitr
            swap; · iexact HS0
            ipureintro; exact View.read_writes_of_cover _ _ _ _ _ (scoverF0 c _ _ _ _ _ _ _ _ _ _ _ _ _ _ _ _ _ _ _ _ _ _ _ _ _ _ _)
          isplitl [HS1]
          · unfold heldFirst soutF1 owns; (try dsimp only)
            iexists _; isplitr
            swap; · iexact HS1
            ipureintro; exact View.read_writes_of_cover _ _ _ _ _ (scoverF1 c _ _ _ _ _ _ _ _ _ _ _ _ _ _ _ _ _ _ _ _ _ _ _ _ _ _ _)
          isplitl [HS2]
          · unfold heldFirst soutF2 owns; (try dsimp only)
            iexists _; isplitr
            swap; · iexact HS2
            ipureintro; exact View.read_writes_of_cover _ _ _ _ _ (scoverF2 c _ _ _ _ _ _ _ _ _ _ _ _ _ _ _ _ _ _ _ _ _ _ _ _ _ _ _)
          isplitl [HS3]
          · unfold heldFirst soutF3 owns; (try dsimp only)
            iexists _; isplitr
            swap; · iexact HS3
            ipureintro; exact View.read_writes_of_cover _ _ _ _ _ (scoverF3 c _ _ _ _ _ _ _ _ _ _ _ _ _ _ _ _ _ _ _ _ _ _ _ _ _ _ _)
          isplitl [HS4]
          · unfold heldFirst soutF4 owns; (try dsimp only)
            iexists _; isplitr
            swap; · iexact HS4
            ipureintro; exact View.read_writes_of_cover _ _ _ _ _ (scoverF4 c _ _ _ _ _ _ _ _ _ _ _ _ _ _ _ _ _ _ _ _ _ _ _ _ _ _ _)
          unfold heldFirst soutF5 owns; (try dsimp only)
          iexists _; isplitr
          swap; · iexact HS5
          ipureintro; exact View.read_writes_of_cover _ _ _ _ _ (scoverF5 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexists _; iexact H2
      isplitl [H3]; · iexists _; iexact H3
      iexists _; iexact H4
  · have h1 : t.val % 2 = 1 := Nat.mod_two_ne_zero.mp h0
    have hz : t.val ≠ 0 := by omega
    rw [show (dats m 0 c).leavesExact 2 t = owns (c : Thread nD τ) (ms2 t) fullShare ((dats m 0 c).after 2 t) from by
      unfold Dat.leavesExact; rw [live_out2 t h1], after_2]
    rw [show (dats m 0 c).leavesExact 3 t = owns (c : Thread nD τ) (ms3 t) fullShare ((dats m 0 c).after 3 t) from by
      unfold Dat.leavesExact; rw [live_out3 t h1], after_3]
    rw [show (dats m 0 c).leavesExact 4 t = owns (c : Thread nD τ) (ms4 t) fullShare ((dats m 0 c).after 4 t) from by
      unfold Dat.leavesExact; rw [live_out4 t h1], after_4]
    rw [PhiS_castSucc m c t, PhiS_pos m c _ _ hz]
    rw [heldAt_last m c t h1]
    iintro ⟨⟨⟨HS0, HS1, HS2, HS3, HS4, HS5⟩, Hg⟩, Ho, ⟨%d0, H0⟩, ⟨%d1, H1⟩, ⟨%d2, H2⟩, ⟨%d3, H3⟩, ⟨%d4, H4⟩⟩
    iapply ((runLast c (grid0.coords t) _ _ _ _ _ _ _ _ _ _ _ _ _ _ _ _ _ _ _ _ _ _ (notFirst_of t h1) ((hcondLast t).mpr h1) (iblk m c 0 t) (iblk m c 1 t) _ _ _ _ _ _).2.2.2.2.2.2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, ⟨%e2, H2⟩, ⟨%e3, H3⟩, ⟨%e4, H4⟩, ⟨%es0, HS0⟩, ⟨%es1, HS1⟩, ⟨%es2, HS2⟩, ⟨%es3, HS3⟩, ⟨%es4, HS4⟩, ⟨%es5, HS5⟩⟩
    isplitl [HS0 HS1 HS2 HS3 HS4 HS5 Hg]
    · isplitl [HS0 HS1 HS2 HS3 HS4 HS5]
      · isplitl [HS0]
        · unfold heldLast soutL0 owns; (try dsimp only)
          iexists _; isplitr
          swap; · iexact HS0
          ipureintro; exact View.read_writes_of_cover _ _ _ _ _ (scoverL0 c _ _ _ _ _ _ _ _ _ _ _ _ _ _ _ _ _ _ _ _ _ _ _ _ _ _ _ _ _ _ _ _ _)
        isplitl [HS1]
        · unfold heldLast soutL1 owns; (try dsimp only)
          iexists _; isplitr
          swap; · iexact HS1
          ipureintro; exact View.read_writes_of_cover _ _ _ _ _ (scoverL1 c _ _ _ _ _ _ _ _ _ _ _ _ _ _ _ _ _ _ _ _ _ _ _ _ _ _ _ _ _ _ _ _ _)
        isplitl [HS2]
        · unfold heldLast soutL2 owns; (try dsimp only)
          iexists _; isplitr
          swap; · iexact HS2
          ipureintro; exact View.read_writes_of_cover _ _ _ _ _ (scoverL2 c _ _ _ _ _ _ _ _ _ _ _ _ _ _ _ _ _ _ _ _ _ _ _ _ _ _ _ _ _ _ _ _ _)
        isplitl [HS3]
        · unfold heldLast soutL3 owns; (try dsimp only)
          iexists _; isplitr
          swap; · iexact HS3
          ipureintro; exact View.read_writes_of_cover _ _ _ _ _ (scoverL3 c _ _ _ _ _ _ _ _ _ _ _ _ _ _ _ _ _ _ _ _ _ _ _ _ _ _ _ _ _ _ _ _ _)
        isplitl [HS4]
        · unfold heldLast soutL4 owns; (try dsimp only)
          iexists _; isplitr
          swap; · iexact HS4
          ipureintro; exact View.read_writes_of_cover _ _ _ _ _ (scoverL4 c _ _ _ _ _ _ _ _ _ _ _ _ _ _ _ _ _ _ _ _ _ _ _ _ _ _ _ _ _ _ _ _ _)
        unfold heldLast soutL5 owns; (try dsimp only)
        iexists _; isplitr
        swap; · iexact HS5
        ipureintro; exact View.read_writes_of_cover _ _ _ _ _ (scoverL5 c _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]
    · unfold heldLast outL2 owns; (try dsimp only)
      iexists _; isplitr
      swap; · iexact H2
      ipureintro; exact View.read_writes_of_cover _ _ _ _ _ (coverL2 c _ _ _ _ _ _ _ _ _ _ _ _ _ _ _ _ _ _ _ _ _ _ _ _ _ _ _ _ _ _ _ _ _)
    isplitl [H3]
    · unfold heldLast outL3 owns; (try dsimp only)
      iexists _; isplitr
      swap; · iexact H3
      ipureintro; exact View.read_writes_of_cover _ _ _ _ _ (coverL3 c _ _ _ _ _ _ _ _ _ _ _ _ _ _ _ _ _ _ _ _ _ _ _ _ _ _ _ _ _ _ _ _ _)
    unfold heldLast outL4 owns; (try dsimp only)
    iexists _; isplitr
    swap; · iexact H4
    ipureintro; exact View.read_writes_of_cover _ _ _ _ _ (coverL4 c _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the accumulators back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

theorem hout (c : Dev nD) : (dats m 0 c).Φ (Fin.last cfg0.N) ⊢ Pipeline.ΦA spec0 c :=
  Phi_out m c _ (by rw [Fin.val_last]; have : cfg0.N = 4 := N_0; omega)

/-! ## The run and the frame -/

set_option backward.isDefEq.respectTransparency.types false in
/-- Every weakly fair execution of @main terminates; afterwards every array of the region holds what the library
    computes from the proof data, and every other unscoped buffer what the later host operations leave. -/
theorem run_main : θ_run defs (onTc (τ := τ) (main (F := F))) (s₀ m ρ) (Pipeline.FramePost cfgs (dats m) 0 (Pipeline.afterTail₀ cfgs (dats m) 0 (V0 m) tail)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := tail_sub) (hfresh := tail_fresh) (hkeep := tail_keeps)
    (hmain := hmain m Variants.none) (hA := A_eq m) (hin := hin m) (hout := hout m)

/-- The two inputs end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans ((((dats m) 0 c).arrAt_in 0 rfl _).trans ((A_eq m c 0).trans (V_main_arg0 m c))),
     ((h c).1 1).trans ((((dats m) 0 c).arrAt_in 1 rfl _).trans ((A_eq m c 1).trans (V_main_arg1 m c)))⟩) (run_main m ρ)

end Cert.KernelIdeal.Fr

end
-- ==== Proof.KI.Arrays.lean ====
/-
  The three result arrays after the region. Each is [2, 1, n] and is written back twice, one row at a time: row c by
  the point with index 2c + 1, from the window's buffer as that point's body left it. The two rows cover the array,
  so it ends holding, row by row, what those two points left.
-/
import proofs.«119928_j66408784331046_2_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Result window 2 -/

/-- The position of an index of the [2, 1, 4] array inside its row's [1, 1, 4] block. -/
def inRow2 (i : S2x1x4.Idx) : S1x1x4.Idx := fun a => match a with
  | ⟨0, _⟩ => ⟨0, by show 0 < 1; omega⟩
  | ⟨1, _⟩ => ⟨(i 1).val, (i 1).isLt⟩
  | ⟨2, _⟩ => ⟨(i 2).val, (i 2).isLt⟩

/-- What the array ends holding: row 0 is what the point with index 1 left in the window's buffer, row 1 what the point
    with index 3 left. -/
def G2 (c : Dev nD) : Buf (Elt F) ((c : Thread nD τ).loc main_v0_0) := fun (i : S2x1x4.Idx) =>
  if (i 0).val = 0 then (heldAt m c t0_1.val t0_1.isLt).o2 (inRow2 i) else (heldAt m c t0_3.val t0_3.isLt).o2 (inRow2 i)

theorem idx2_1 : win0_2.index t0_1 (0 : Fin 3) = 0 ∧ win0_2.index t0_1 (1 : Fin 3) = 0 ∧ win0_2.index t0_1 (2 : Fin 3) = 0 := by decide +kernel
theorem idx2_3 : win0_2.index t0_3 (0 : Fin 3) = 1 ∧ win0_2.index t0_3 (1 : Fin 3) = 0 ∧ win0_2.index t0_3 (2 : Fin 3) = 0 := by decide +kernel

/-- A write-back of window 2 writes its row of `G2`. -/
theorem flushed2_eq (c : Dev nD) (t : Fin cfg0.N) (hf : (cfg0.win 2).flush t = true) :
    (dats m 0 c).flushed 2 t = ((cfg0.win 2).blk t).view.read (Elt F) (G2 m c) := by
  have ht : t.val % 2 = 1 := (flush0_2 t).mp hf
  rcases fin_N0 t with rfl | rfl | rfl | rfl
  · exact absurd ht (by decide)
  · show (cfg0.win 2).cut (grid0.coords t0_1) ((dats m 0 c).after 2 t0_1) = _
    rw [after_2]
    obtain ⟨i0, i1, i2⟩ := idx2_1
    funext y
    rw [View.read_apply]
    have hy0 : (y 0).val < 1 := (y 0).isLt
    have e0 : ((((cfg0.win 2).blk t0_1).view.emb y) 0).val = 0 := by
      show win0_2.index t0_1 (0 : Fin 3) * 1 + 1 * (y 0).val = 0
      omega
    unfold G2
    rw [if_pos e0]
    refine congrArg _ (funext fun a => Fin.ext ?_)
    match a with
    | ⟨0, _⟩ => show (y 0).val = 0; omega
    | ⟨1, _⟩ => show (y 1).val = win0_2.index t0_1 (1 : Fin 3) * 1 + 1 * (y 1).val; omega
    | ⟨2, _⟩ => show (y 2).val = win0_2.index t0_1 (2 : Fin 3) * 4 + 1 * (y 2).val; omega
  · exact absurd ht (by decide)
  · show (cfg0.win 2).cut (grid0.coords t0_3) ((dats m 0 c).after 2 t0_3) = _
    rw [after_2]
    obtain ⟨i0, i1, i2⟩ := idx2_3
    funext y
    rw [View.read_apply]
    have hy0 : (y 0).val < 1 := (y 0).isLt
    have e0 : ¬((((cfg0.win 2).blk t0_3).view.emb y) 0).val = 0 := by
      show ¬(win0_2.index t0_3 (0 : Fin 3) * 1 + 1 * (y 0).val = 0)
      omega
    unfold G2
    rw [if_neg e0]
    refine congrArg _ (funext fun a => Fin.ext ?_)
    match a with
    | ⟨0, _⟩ => show (y 0).val = 0; omega
    | ⟨1, _⟩ => show (y 1).val = win0_2.index t0_3 (1 : Fin 3) * 1 + 1 * (y 1).val; omega
    | ⟨2, _⟩ => show (y 2).val = win0_2.index t0_3 (2 : Fin 3) * 4 + 1 * (y 2).val; omega

/-- An index of the array is in point `t`'s block iff each coordinate is in the block's range on its axis. -/
theorem mem_blk2 (t : Fin cfg0.N) (i : S2x1x4.Idx) :
    i ∈ ((cfg0.win 2).blk t).view.set ↔ ∀ a : Fin 3, win0_2.index t a * S1x1x4.size a ≤ (i a).val ∧ (i a).val < win0_2.index t a * S1x1x4.size a + S1x1x4.size a := by
  show i ∈ ((View.whole main_v0_0).slice (win0_2.rect t)).set ↔ _
  rw [View.set_slice_whole, Rect.mem_set_unit]
  exact Iff.rfl

/-- The two write-backs cover the array, so it ends holding `G2`. -/
theorem final2 (c : Dev nD) : (dats m 0 c).arrAt 2 cfg0.N = G2 m c :=
  (dats m 0 c).arrAt_eq_of_cover 2 (G2 m c) (flushed2_eq m c) fun (i : S2x1x4.Idx) => by
    have h0 : (i 0).val < 2 := (i 0).isLt
    have h1 : (i 1).val < 1 := (i 1).isLt
    have h2 : (i 2).val < 4 := (i 2).isLt
    by_cases hr : (i 0).val = 0
    · obtain ⟨i0, i1, i2⟩ := idx2_1
      refine ⟨t0_1, (flush0_2 t0_1).mpr (by decide), ?_⟩
      rw [mem_blk2]
      intro a
      match a with
      | ⟨0, _⟩ => show win0_2.index t0_1 (0 : Fin 3) * 1 ≤ (i 0).val ∧ (i 0).val < win0_2.index t0_1 (0 : Fin 3) * 1 + 1; omega
      | ⟨1, _⟩ => show win0_2.index t0_1 (1 : Fin 3) * 1 ≤ (i 1).val ∧ (i 1).val < win0_2.index t0_1 (1 : Fin 3) * 1 + 1; omega
      | ⟨2, _⟩ => show win0_2.index t0_1 (2 : Fin 3) * 4 ≤ (i 2).val ∧ (i 2).val < win0_2.index t0_1 (2 : Fin 3) * 4 + 4; omega
    · obtain ⟨i0, i1, i2⟩ := idx2_3
      refine ⟨t0_3, (flush0_2 t0_3).mpr (by decide), ?_⟩
      rw [mem_blk2]
      intro a
      match a with
      | ⟨0, _⟩ => show win0_2.index t0_3 (0 : Fin 3) * 1 ≤ (i 0).val ∧ (i 0).val < win0_2.index t0_3 (0 : Fin 3) * 1 + 1; omega
      | ⟨1, _⟩ => show win0_2.index t0_3 (1 : Fin 3) * 1 ≤ (i 1).val ∧ (i 1).val < win0_2.index t0_3 (1 : Fin 3) * 1 + 1; omega
      | ⟨2, _⟩ => show win0_2.index t0_3 (2 : Fin 3) * 4 ≤ (i 2).val ∧ (i 2).val < win0_2.index t0_3 (2 : Fin 3) * 4 + 4; omega

/-! ## Result window 3 -/

/-- The position of an index of the [2, 1, 256] array inside its row's [1, 1, 256] block. -/
def inRow3 (i : S2x1x256.Idx) : S1x1x256.Idx := fun a => match a with
  | ⟨0, _⟩ => ⟨0, by show 0 < 1; omega⟩
  | ⟨1, _⟩ => ⟨(i 1).val, (i 1).isLt⟩
  | ⟨2, _⟩ => ⟨(i 2).val, (i 2).isLt⟩

/-- What the array ends holding: row 0 is what the point with index 1 left in the window's buffer, row 1 what the point
    with index 3 left. -/
def G3 (c : Dev nD) : Buf (Elt F) ((c : Thread nD τ).loc main_v0_1) := fun (i : S2x1x256.Idx) =>
  if (i 0).val = 0 then (heldAt m c t0_1.val t0_1.isLt).o3 (inRow3 i) else (heldAt m c t0_3.val t0_3.isLt).o3 (inRow3 i)

theorem idx3_1 : win0_3.index t0_1 (0 : Fin 3) = 0 ∧ win0_3.index t0_1 (1 : Fin 3) = 0 ∧ win0_3.index t0_1 (2 : Fin 3) = 0 := by decide +kernel
theorem idx3_3 : win0_3.index t0_3 (0 : Fin 3) = 1 ∧ win0_3.index t0_3 (1 : Fin 3) = 0 ∧ win0_3.index t0_3 (2 : Fin 3) = 0 := by decide +kernel

/-- A write-back of window 3 writes its row of `G3`. -/
theorem flushed3_eq (c : Dev nD) (t : Fin cfg0.N) (hf : (cfg0.win 3).flush t = true) :
    (dats m 0 c).flushed 3 t = ((cfg0.win 3).blk t).view.read (Elt F) (G3 m c) := by
  have ht : t.val % 2 = 1 := (flush0_3 t).mp hf
  rcases fin_N0 t with rfl | rfl | rfl | rfl
  · exact absurd ht (by decide)
  · show (cfg0.win 3).cut (grid0.coords t0_1) ((dats m 0 c).after 3 t0_1) = _
    rw [after_3]
    obtain ⟨i0, i1, i2⟩ := idx3_1
    funext y
    rw [View.read_apply]
    have hy0 : (y 0).val < 1 := (y 0).isLt
    have e0 : ((((cfg0.win 3).blk t0_1).view.emb y) 0).val = 0 := by
      show win0_3.index t0_1 (0 : Fin 3) * 1 + 1 * (y 0).val = 0
      omega
    unfold G3
    rw [if_pos e0]
    refine congrArg _ (funext fun a => Fin.ext ?_)
    match a with
    | ⟨0, _⟩ => show (y 0).val = 0; omega
    | ⟨1, _⟩ => show (y 1).val = win0_3.index t0_1 (1 : Fin 3) * 1 + 1 * (y 1).val; omega
    | ⟨2, _⟩ => show (y 2).val = win0_3.index t0_1 (2 : Fin 3) * 256 + 1 * (y 2).val; omega
  · exact absurd ht (by decide)
  · show (cfg0.win 3).cut (grid0.coords t0_3) ((dats m 0 c).after 3 t0_3) = _
    rw [after_3]
    obtain ⟨i0, i1, i2⟩ := idx3_3
    funext y
    rw [View.read_apply]
    have hy0 : (y 0).val < 1 := (y 0).isLt
    have e0 : ¬((((cfg0.win 3).blk t0_3).view.emb y) 0).val = 0 := by
      show ¬(win0_3.index t0_3 (0 : Fin 3) * 1 + 1 * (y 0).val = 0)
      omega
    unfold G3
    rw [if_neg e0]
    refine congrArg _ (funext fun a => Fin.ext ?_)
    match a with
    | ⟨0, _⟩ => show (y 0).val = 0; omega
    | ⟨1, _⟩ => show (y 1).val = win0_3.index t0_3 (1 : Fin 3) * 1 + 1 * (y 1).val; omega
    | ⟨2, _⟩ => show (y 2).val = win0_3.index t0_3 (2 : Fin 3) * 256 + 1 * (y 2).val; omega

/-- An index of the array is in point `t`'s block iff each coordinate is in the block's range on its axis. -/
theorem mem_blk3 (t : Fin cfg0.N) (i : S2x1x256.Idx) :
    i ∈ ((cfg0.win 3).blk t).view.set ↔ ∀ a : Fin 3, win0_3.index t a * S1x1x256.size a ≤ (i a).val ∧ (i a).val < win0_3.index t a * S1x1x256.size a + S1x1x256.size a := by
  show i ∈ ((View.whole main_v0_1).slice (win0_3.rect t)).set ↔ _
  rw [View.set_slice_whole, Rect.mem_set_unit]
  exact Iff.rfl

/-- The two write-backs cover the array, so it ends holding `G3`. -/
theorem final3 (c : Dev nD) : (dats m 0 c).arrAt 3 cfg0.N = G3 m c :=
  (dats m 0 c).arrAt_eq_of_cover 3 (G3 m c) (flushed3_eq m c) fun (i : S2x1x256.Idx) => by
    have h0 : (i 0).val < 2 := (i 0).isLt
    have h1 : (i 1).val < 1 := (i 1).isLt
    have h2 : (i 2).val < 256 := (i 2).isLt
    by_cases hr : (i 0).val = 0
    · obtain ⟨i0, i1, i2⟩ := idx3_1
      refine ⟨t0_1, (flush0_3 t0_1).mpr (by decide), ?_⟩
      rw [mem_blk3]
      intro a
      match a with
      | ⟨0, _⟩ => show win0_3.index t0_1 (0 : Fin 3) * 1 ≤ (i 0).val ∧ (i 0).val < win0_3.index t0_1 (0 : Fin 3) * 1 + 1; omega
      | ⟨1, _⟩ => show win0_3.index t0_1 (1 : Fin 3) * 1 ≤ (i 1).val ∧ (i 1).val < win0_3.index t0_1 (1 : Fin 3) * 1 + 1; omega
      | ⟨2, _⟩ => show win0_3.index t0_1 (2 : Fin 3) * 256 ≤ (i 2).val ∧ (i 2).val < win0_3.index t0_1 (2 : Fin 3) * 256 + 256; omega
    · obtain ⟨i0, i1, i2⟩ := idx3_3
      refine ⟨t0_3, (flush0_3 t0_3).mpr (by decide), ?_⟩
      rw [mem_blk3]
      intro a
      match a with
      | ⟨0, _⟩ => show win0_3.index t0_3 (0 : Fin 3) * 1 ≤ (i 0).val ∧ (i 0).val < win0_3.index t0_3 (0 : Fin 3) * 1 + 1; omega
      | ⟨1, _⟩ => show win0_3.index t0_3 (1 : Fin 3) * 1 ≤ (i 1).val ∧ (i 1).val < win0_3.index t0_3 (1 : Fin 3) * 1 + 1; omega
      | ⟨2, _⟩ => show win0_3.index t0_3 (2 : Fin 3) * 256 ≤ (i 2).val ∧ (i 2).val < win0_3.index t0_3 (2 : Fin 3) * 256 + 256; omega

/-! ## Result window 4 -/

/-- The position of an index of the [2, 1, 256] array inside its row's [1, 1, 256] block. -/
def inRow4 (i : S2x1x256.Idx) : S1x1x256.Idx := fun a => match a with
  | ⟨0, _⟩ => ⟨0, by show 0 < 1; omega⟩
  | ⟨1, _⟩ => ⟨(i 1).val, (i 1).isLt⟩
  | ⟨2, _⟩ => ⟨(i 2).val, (i 2).isLt⟩

/-- What the array ends holding: row 0 is what the point with index 1 left in the window's buffer, row 1 what the point
    with index 3 left. -/
def G4 (c : Dev nD) : Buf (Elt F) ((c : Thread nD τ).loc main_v0_2) := fun (i : S2x1x256.Idx) =>
  if (i 0).val = 0 then (heldAt m c t0_1.val t0_1.isLt).o4 (inRow4 i) else (heldAt m c t0_3.val t0_3.isLt).o4 (inRow4 i)

theorem idx4_1 : win0_4.index t0_1 (0 : Fin 3) = 0 ∧ win0_4.index t0_1 (1 : Fin 3) = 0 ∧ win0_4.index t0_1 (2 : Fin 3) = 0 := by decide +kernel
theorem idx4_3 : win0_4.index t0_3 (0 : Fin 3) = 1 ∧ win0_4.index t0_3 (1 : Fin 3) = 0 ∧ win0_4.index t0_3 (2 : Fin 3) = 0 := by decide +kernel

/-- A write-back of window 4 writes its row of `G4`. -/
theorem flushed4_eq (c : Dev nD) (t : Fin cfg0.N) (hf : (cfg0.win 4).flush t = true) :
    (dats m 0 c).flushed 4 t = ((cfg0.win 4).blk t).view.read (Elt F) (G4 m c) := by
  have ht : t.val % 2 = 1 := (flush0_4 t).mp hf
  rcases fin_N0 t with rfl | rfl | rfl | rfl
  · exact absurd ht (by decide)
  · show (cfg0.win 4).cut (grid0.coords t0_1) ((dats m 0 c).after 4 t0_1) = _
    rw [after_4]
    obtain ⟨i0, i1, i2⟩ := idx4_1
    funext y
    rw [View.read_apply]
    have hy0 : (y 0).val < 1 := (y 0).isLt
    have e0 : ((((cfg0.win 4).blk t0_1).view.emb y) 0).val = 0 := by
      show win0_4.index t0_1 (0 : Fin 3) * 1 + 1 * (y 0).val = 0
      omega
    unfold G4
    rw [if_pos e0]
    refine congrArg _ (funext fun a => Fin.ext ?_)
    match a with
    | ⟨0, _⟩ => show (y 0).val = 0; omega
    | ⟨1, _⟩ => show (y 1).val = win0_4.index t0_1 (1 : Fin 3) * 1 + 1 * (y 1).val; omega
    | ⟨2, _⟩ => show (y 2).val = win0_4.index t0_1 (2 : Fin 3) * 256 + 1 * (y 2).val; omega
  · exact absurd ht (by decide)
  · show (cfg0.win 4).cut (grid0.coords t0_3) ((dats m 0 c).after 4 t0_3) = _
    rw [after_4]
    obtain ⟨i0, i1, i2⟩ := idx4_3
    funext y
    rw [View.read_apply]
    have hy0 : (y 0).val < 1 := (y 0).isLt
    have e0 : ¬((((cfg0.win 4).blk t0_3).view.emb y) 0).val = 0 := by
      show ¬(win0_4.index t0_3 (0 : Fin 3) * 1 + 1 * (y 0).val = 0)
      omega
    unfold G4
    rw [if_neg e0]
    refine congrArg _ (funext fun a => Fin.ext ?_)
    match a with
    | ⟨0, _⟩ => show (y 0).val = 0; omega
    | ⟨1, _⟩ => show (y 1).val = win0_4.index t0_3 (1 : Fin 3) * 1 + 1 * (y 1).val; omega
    | ⟨2, _⟩ => show (y 2).val = win0_4.index t0_3 (2 : Fin 3) * 256 + 1 * (y 2).val; omega

/-- An index of the array is in point `t`'s block iff each coordinate is in the block's range on its axis. -/
theorem mem_blk4 (t : Fin cfg0.N) (i : S2x1x256.Idx) :
    i ∈ ((cfg0.win 4).blk t).view.set ↔ ∀ a : Fin 3, win0_4.index t a * S1x1x256.size a ≤ (i a).val ∧ (i a).val < win0_4.index t a * S1x1x256.size a + S1x1x256.size a := by
  show i ∈ ((View.whole main_v0_2).slice (win0_4.rect t)).set ↔ _
  rw [View.set_slice_whole, Rect.mem_set_unit]
  exact Iff.rfl

/-- The two write-backs cover the array, so it ends holding `G4`. -/
theorem final4 (c : Dev nD) : (dats m 0 c).arrAt 4 cfg0.N = G4 m c :=
  (dats m 0 c).arrAt_eq_of_cover 4 (G4 m c) (flushed4_eq m c) fun (i : S2x1x256.Idx) => by
    have h0 : (i 0).val < 2 := (i 0).isLt
    have h1 : (i 1).val < 1 := (i 1).isLt
    have h2 : (i 2).val < 256 := (i 2).isLt
    by_cases hr : (i 0).val = 0
    · obtain ⟨i0, i1, i2⟩ := idx4_1
      refine ⟨t0_1, (flush0_4 t0_1).mpr (by decide), ?_⟩
      rw [mem_blk4]
      intro a
      match a with
      | ⟨0, _⟩ => show win0_4.index t0_1 (0 : Fin 3) * 1 ≤ (i 0).val ∧ (i 0).val < win0_4.index t0_1 (0 : Fin 3) * 1 + 1; omega
      | ⟨1, _⟩ => show win0_4.index t0_1 (1 : Fin 3) * 1 ≤ (i 1).val ∧ (i 1).val < win0_4.index t0_1 (1 : Fin 3) * 1 + 1; omega
      | ⟨2, _⟩ => show win0_4.index t0_1 (2 : Fin 3) * 256 ≤ (i 2).val ∧ (i 2).val < win0_4.index t0_1 (2 : Fin 3) * 256 + 256; omega
    · obtain ⟨i0, i1, i2⟩ := idx4_3
      refine ⟨t0_3, (flush0_4 t0_3).mpr (by decide), ?_⟩
      rw [mem_blk4]
      intro a
      match a with
      | ⟨0, _⟩ => show win0_4.index t0_3 (0 : Fin 3) * 1 ≤ (i 0).val ∧ (i 0).val < win0_4.index t0_3 (0 : Fin 3) * 1 + 1; omega
      | ⟨1, _⟩ => show win0_4.index t0_3 (1 : Fin 3) * 1 ≤ (i 1).val ∧ (i 1).val < win0_4.index t0_3 (1 : Fin 3) * 1 + 1; omega
      | ⟨2, _⟩ => show win0_4.index t0_3 (2 : Fin 3) * 256 ≤ (i 2).val ∧ (i 2).val < win0_4.index t0_3 (2 : Fin 3) * 256 + 256; omega

end Cert.KernelIdeal.Fr

end
-- ==== Proof.KI.Pieces.lean ====
/-
  The values behind the stores. Read back, the stores of a point are the body's arithmetic applied to the two
  blocks and to what the accumulators held: the running maximum is the larger of the old one and the block's, the
  running minimum the smaller, each running sum the old one plus the block's; a point with inner coordinate 0
  starts them from minus infinity, plus infinity and zero; a point with inner coordinate 1 also copies the four
  scalars side by side, and the two vectors, into the results' buffers. Stated with the body's own named terms, at
  any float instance.
-/
import proofs.«119928_j66408784331046_2_alg».proof.Proof.KI.Held
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## A point with inner coordinate 0 -/

theorem soutF0_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) :
    soutF0 c i arg2 harg2 arg3 harg3 arg4 harg4 arg5 harg5 arg6 harg6 arg7 harg7 arg8 harg8 arg9 harg9 arg10 harg10 arg11 harg11 arg12 harg12 hc0 hc1 x0 x1 = k0_pay19 x0 (k0_pay9 (F := F)) := by
  unfold soutF0
  rw [View.read_writes_eq_canon _ _ _ (scoverF0 c i arg2 harg2 arg3 harg3 arg4 harg4 arg5 harg5 arg6 harg6 arg7 harg7 arg8 harg8 arg9 harg9 arg10 harg10 arg11 harg11 arg12 harg12 hc0 hc1 x0 x1)]
  unfold runFirst
  dsimp only
  sl_unfold_words
  simp only [View.canon_cons_unit_zero (S := S1x1) hz2, View.canon_cons_unit_zero (S := S1x256) hz2, View.canon_unit_zero (S := S1x1) hz2, View.canon_unit_zero (S := S1x256) hz2, View.canon_unit_zero (S := S1x1x4) hz3, View.canon_unit_zero (S := S1x1x256) hz3, View.readCov_unit_zero (S := S1x1) _ hz2, View.readCov_unit_zero (S := S1x256) _ hz2, View.readAt_eq_ld, harg2.read_unread, harg3.read_unread, harg7.read_unread, harg8.read_unread, harg9.read_unread, harg10.read_unread, harg11.read_unread, harg12.read_unread, View.ld_unit_zero (S := S1024x256) hz2, View.ld_unit_zero (S := S1x1) hz2, View.ld_unit_zero (S := S1x256) hz2]

theorem soutF1_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) :
    soutF1 c i arg2 harg2 arg3 harg3 arg4 harg4 arg5 harg5 arg6 harg6 arg7 harg7 arg8 harg8 arg9 harg9 arg10 harg10 arg11 harg11 arg12 harg12 hc0 hc1 x0 x1 = k0_pay1 (k0_pay20 x0 (k0_pay10 (F := F))) := by
  unfold soutF1
  rw [View.read_writes_eq_canon _ _ _ (scoverF1 c i arg2 harg2 arg3 harg3 arg4 harg4 arg5 harg5 arg6 harg6 arg7 harg7 arg8 harg8 arg9 harg9 arg10 harg10 arg11 harg11 arg12 harg12 hc0 hc1 x0 x1)]
  unfold runFirst
  dsimp only
  sl_unfold_words
  simp only [View.canon_cons_unit_zero (S := S1x1) hz2, View.canon_cons_unit_zero (S := S1x256) hz2, View.canon_unit_zero (S := S1x1) hz2, View.canon_unit_zero (S := S1x256) hz2, View.canon_unit_zero (S := S1x1x4) hz3, View.canon_unit_zero (S := S1x1x256) hz3, View.readCov_unit_zero (S := S1x1) _ hz2, View.readCov_unit_zero (S := S1x256) _ hz2, View.readAt_eq_ld, harg2.read_unread, harg3.read_unread, harg7.read_unread, harg8.read_unread, harg9.read_unread, harg10.read_unread, harg11.read_unread, harg12.read_unread, View.ld_unit_zero (S := S1024x256) hz2, View.ld_unit_zero (S := S1x1) hz2, View.ld_unit_zero (S := S1x256) hz2]

theorem soutF2_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) :
    soutF2 c i arg2 harg2 arg3 harg3 arg4 harg4 arg5 harg5 arg6 harg6 arg7 harg7 arg8 harg8 arg9 harg9 arg10 harg10 arg11 harg11 arg12 harg12 hc0 hc1 x0 x1 = k0_pay2 (k0_pay15 x0) (k0_pay11 (F := F)) := by
  unfold soutF2
  rw [View.read_writes_eq_canon _ _ _ (scoverF2 c i arg2 harg2 arg3 harg3 arg4 harg4 arg5 harg5 arg6 harg6 arg7 harg7 arg8 harg8 arg9 harg9 arg10 harg10 arg11 harg11 arg12 harg12 hc0 hc1 x0 x1)]
  unfold runFirst
  dsimp only
  sl_unfold_words
  simp only [View.canon_cons_unit_zero (S := S1x1) hz2, View.canon_cons_unit_zero (S := S1x256) hz2, View.canon_unit_zero (S := S1x1) hz2, View.canon_unit_zero (S := S1x256) hz2, View.canon_unit_zero (S := S1x1x4) hz3, View.canon_unit_zero (S := S1x1x256) hz3, View.readCov_unit_zero (S := S1x1) _ hz2, View.readCov_unit_zero (S := S1x256) _ hz2, View.readAt_eq_ld, harg2.read_unread, harg3.read_unread, harg7.read_unread, harg8.read_unread, harg9.read_unread, harg10.read_unread, harg11.read_unread, harg12.read_unread, View.ld_unit_zero (S := S1024x256) hz2, View.ld_unit_zero (S := S1x1) hz2, View.ld_unit_zero (S := S1x256) hz2]

theorem soutF3_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) :
    soutF3 c i arg2 harg2 arg3 harg3 arg4 harg4 arg5 harg5 arg6 harg6 arg7 harg7 arg8 harg8 arg9 harg9 arg10 harg10 arg11 harg11 arg12 harg12 hc0 hc1 x0 x1 = k0_pay3 (k0_pay16 x1) (k0_pay12 (F := F)) := by
  unfold soutF3
  rw [View.read_writes_eq_canon _ _ _ (scoverF3 c i arg2 harg2 arg3 harg3 arg4 harg4 arg5 harg5 arg6 harg6 arg7 harg7 arg8 harg8 arg9 harg9 arg10 harg10 arg11 harg11 arg12 harg12 hc0 hc1 x0 x1)]
  unfold runFirst
  dsimp only
  sl_unfold_words
  simp only [View.canon_cons_unit_zero (S := S1x1) hz2, View.canon_cons_unit_zero (S := S1x256) hz2, View.canon_unit_zero (S := S1x1) hz2, View.canon_unit_zero (S := S1x256) hz2, View.canon_unit_zero (S := S1x1x4) hz3, View.canon_unit_zero (S := S1x1x256) hz3, View.readCov_unit_zero (S := S1x1) _ hz2, View.readCov_unit_zero (S := S1x256) _ hz2, View.readAt_eq_ld, harg2.read_unread, harg3.read_unread, harg7.read_unread, harg8.read_unread, harg9.read_unread, harg10.read_unread, harg11.read_unread, harg12.read_unread, View.ld_unit_zero (S := S1024x256) hz2, View.ld_unit_zero (S := S1x1) hz2, View.ld_unit_zero (S := S1x256) hz2]

theorem soutF4_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) :
    soutF4 c i arg2 harg2 arg3 harg3 arg4 harg4 arg5 harg5 arg6 harg6 arg7 harg7 arg8 harg8 arg9 harg9 arg10 harg10 arg11 harg11 arg12 harg12 hc0 hc1 x0 x1 = k0_pay4 (k0_pay17 x0) (k0_pay13 (F := F)) := by
  unfold soutF4
  rw [View.read_writes_eq_canon _ _ _ (scoverF4 c i arg2 harg2 arg3 harg3 arg4 harg4 arg5 harg5 arg6 harg6 arg7 harg7 arg8 harg8 arg9 harg9 arg10 harg10 arg11 harg11 arg12 harg12 hc0 hc1 x0 x1)]
  unfold runFirst
  dsimp only
  sl_unfold_words
  simp only [View.canon_cons_unit_zero (S := S1x1) hz2, View.canon_cons_unit_zero (S := S1x256) hz2, View.canon_unit_zero (S := S1x1) hz2, View.canon_unit_zero (S := S1x256) hz2, View.canon_unit_zero (S := S1x1x4) hz3, View.canon_unit_zero (S := S1x1x256) hz3, View.readCov_unit_zero (S := S1x1) _ hz2, View.readCov_unit_zero (S := S1x256) _ hz2, View.readAt_eq_ld, harg2.read_unread, harg3.read_unread, harg7.read_unread, harg8.read_unread, harg9.read_unread, harg10.read_unread, harg11.read_unread, harg12.read_unread, View.ld_unit_zero (S := S1024x256) hz2, View.ld_unit_zero (S := S1x1) hz2, View.ld_unit_zero (S := S1x256) hz2]

theorem soutF5_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : condFirst i) (hc1 : ¬condLast i) (x0 x1 : Vec F S1024x256 .f32) :
    soutF5 c i arg2 harg2 arg3 harg3 arg4 harg4 arg5 harg5 arg6 harg6 arg7 harg7 arg8 harg8 arg9 harg9 arg10 harg10 arg11 harg11 arg12 harg12 hc0 hc1 x0 x1 = k0_pay5 (k0_pay18 x1) (k0_pay14 (F := F)) := by
  unfold soutF5
  rw [View.read_writes_eq_canon _ _ _ (scoverF5 c i arg2 harg2 arg3 harg3 arg4 harg4 arg5 harg5 arg6 harg6 arg7 harg7 arg8 harg8 arg9 harg9 arg10 harg10 arg11 harg11 arg12 harg12 hc0 hc1 x0 x1)]
  unfold runFirst
  dsimp only
  sl_unfold_words
  simp only [View.canon_cons_unit_zero (S := S1x1) hz2, View.canon_cons_unit_zero (S := S1x256) hz2, View.canon_unit_zero (S := S1x1) hz2, View.canon_unit_zero (S := S1x256) hz2, View.canon_unit_zero (S := S1x1x4) hz3, View.canon_unit_zero (S := S1x1x256) hz3, View.readCov_unit_zero (S := S1x1) _ hz2, View.readCov_unit_zero (S := S1x256) _ hz2, View.readAt_eq_ld, harg2.read_unread, harg3.read_unread, harg7.read_unread, harg8.read_unread, harg9.read_unread, harg10.read_unread, harg11.read_unread, harg12.read_unread, View.ld_unit_zero (S := S1024x256) hz2, View.ld_unit_zero (S := S1x1) hz2, View.ld_unit_zero (S := S1x256) hz2]

/-! ## A point with inner coordinate 1 -/

theorem soutL0_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) :
    soutL0 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 = k0_pay19 x0 xs0 := by
  unfold soutL0
  rw [View.read_writes_eq_canon _ _ _ (scoverL0 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5)]
  unfold runLast
  dsimp only
  sl_unfold_words
  simp only [View.canon_cons_unit_zero (S := S1x1) hz2, View.canon_cons_unit_zero (S := S1x256) hz2, View.canon_unit_zero (S := S1x1) hz2, View.canon_unit_zero (S := S1x256) hz2, View.canon_unit_zero (S := S1x1x4) hz3, View.canon_unit_zero (S := S1x1x256) hz3, View.readCov_unit_zero (S := S1x1) _ hz2, View.readCov_unit_zero (S := S1x256) _ hz2, View.readAt_eq_ld, harg2.read_unread, harg3.read_unread, harg7.read_unread, harg8.read_unread, harg9.read_unread, harg10.read_unread, harg11.read_unread, harg12.read_unread, View.ld_unit_zero (S := S1024x256) hz2, View.ld_unit_zero (S := S1x1) hz2, View.ld_unit_zero (S := S1x256) hz2]

theorem soutL1_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) :
    soutL1 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 = k0_pay1 (k0_pay20 x0 xs1) := by
  unfold soutL1
  rw [View.read_writes_eq_canon _ _ _ (scoverL1 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5)]
  unfold runLast
  dsimp only
  sl_unfold_words
  simp only [View.canon_cons_unit_zero (S := S1x1) hz2, View.canon_cons_unit_zero (S := S1x256) hz2, View.canon_unit_zero (S := S1x1) hz2, View.canon_unit_zero (S := S1x256) hz2, View.canon_unit_zero (S := S1x1x4) hz3, View.canon_unit_zero (S := S1x1x256) hz3, View.readCov_unit_zero (S := S1x1) _ hz2, View.readCov_unit_zero (S := S1x256) _ hz2, View.readAt_eq_ld, harg2.read_unread, harg3.read_unread, harg7.read_unread, harg8.read_unread, harg9.read_unread, harg10.read_unread, harg11.read_unread, harg12.read_unread, View.ld_unit_zero (S := S1024x256) hz2, View.ld_unit_zero (S := S1x1) hz2, View.ld_unit_zero (S := S1x256) hz2]

theorem soutL2_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) :
    soutL2 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 = k0_pay2 (k0_pay15 x0) xs2 := by
  unfold soutL2
  rw [View.read_writes_eq_canon _ _ _ (scoverL2 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5)]
  unfold runLast
  dsimp only
  sl_unfold_words
  simp only [View.canon_cons_unit_zero (S := S1x1) hz2, View.canon_cons_unit_zero (S := S1x256) hz2, View.canon_unit_zero (S := S1x1) hz2, View.canon_unit_zero (S := S1x256) hz2, View.canon_unit_zero (S := S1x1x4) hz3, View.canon_unit_zero (S := S1x1x256) hz3, View.readCov_unit_zero (S := S1x1) _ hz2, View.readCov_unit_zero (S := S1x256) _ hz2, View.readAt_eq_ld, harg2.read_unread, harg3.read_unread, harg7.read_unread, harg8.read_unread, harg9.read_unread, harg10.read_unread, harg11.read_unread, harg12.read_unread, View.ld_unit_zero (S := S1024x256) hz2, View.ld_unit_zero (S := S1x1) hz2, View.ld_unit_zero (S := S1x256) hz2]

theorem soutL3_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) :
    soutL3 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 = k0_pay3 (k0_pay16 x1) xs3 := by
  unfold soutL3
  rw [View.read_writes_eq_canon _ _ _ (scoverL3 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5)]
  unfold runLast
  dsimp only
  sl_unfold_words
  simp only [View.canon_cons_unit_zero (S := S1x1) hz2, View.canon_cons_unit_zero (S := S1x256) hz2, View.canon_unit_zero (S := S1x1) hz2, View.canon_unit_zero (S := S1x256) hz2, View.canon_unit_zero (S := S1x1x4) hz3, View.canon_unit_zero (S := S1x1x256) hz3, View.readCov_unit_zero (S := S1x1) _ hz2, View.readCov_unit_zero (S := S1x256) _ hz2, View.readAt_eq_ld, harg2.read_unread, harg3.read_unread, harg7.read_unread, harg8.read_unread, harg9.read_unread, harg10.read_unread, harg11.read_unread, harg12.read_unread, View.ld_unit_zero (S := S1024x256) hz2, View.ld_unit_zero (S := S1x1) hz2, View.ld_unit_zero (S := S1x256) hz2]

theorem soutL4_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) :
    soutL4 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 = k0_pay4 (k0_pay17 x0) xs4 := by
  unfold soutL4
  rw [View.read_writes_eq_canon _ _ _ (scoverL4 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5)]
  unfold runLast
  dsimp only
  sl_unfold_words
  simp only [View.canon_cons_unit_zero (S := S1x1) hz2, View.canon_cons_unit_zero (S := S1x256) hz2, View.canon_unit_zero (S := S1x1) hz2, View.canon_unit_zero (S := S1x256) hz2, View.canon_unit_zero (S := S1x1x4) hz3, View.canon_unit_zero (S := S1x1x256) hz3, View.readCov_unit_zero (S := S1x1) _ hz2, View.readCov_unit_zero (S := S1x256) _ hz2, View.readAt_eq_ld, harg2.read_unread, harg3.read_unread, harg7.read_unread, harg8.read_unread, harg9.read_unread, harg10.read_unread, harg11.read_unread, harg12.read_unread, View.ld_unit_zero (S := S1024x256) hz2, View.ld_unit_zero (S := S1x1) hz2, View.ld_unit_zero (S := S1x256) hz2]

theorem soutL5_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) :
    soutL5 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 = k0_pay5 (k0_pay18 x1) xs5 := by
  unfold soutL5
  rw [View.read_writes_eq_canon _ _ _ (scoverL5 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5)]
  unfold runLast
  dsimp only
  sl_unfold_words
  simp only [View.canon_cons_unit_zero (S := S1x1) hz2, View.canon_cons_unit_zero (S := S1x256) hz2, View.canon_unit_zero (S := S1x1) hz2, View.canon_unit_zero (S := S1x256) hz2, View.canon_unit_zero (S := S1x1x4) hz3, View.canon_unit_zero (S := S1x1x256) hz3, View.readCov_unit_zero (S := S1x1) _ hz2, View.readCov_unit_zero (S := S1x256) _ hz2, View.readAt_eq_ld, harg2.read_unread, harg3.read_unread, harg7.read_unread, harg8.read_unread, harg9.read_unread, harg10.read_unread, harg11.read_unread, harg12.read_unread, View.ld_unit_zero (S := S1024x256) hz2, View.ld_unit_zero (S := S1x1) hz2, View.ld_unit_zero (S := S1x256) hz2]

theorem outL2_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) :
    outL2 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 = k0_pay6 (k0_pay19 x0 xs0) (k0_pay1 (k0_pay20 x0 xs1)) (k0_pay2 (k0_pay15 x0) xs2) (k0_pay3 (k0_pay16 x1) xs3) := by
  unfold outL2
  rw [View.read_writes_eq_canon _ _ _ (coverL2 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5)]
  unfold runLast
  dsimp only
  sl_unfold_words
  simp only [View.canon_cons_unit_zero (S := S1x1) hz2, View.canon_cons_unit_zero (S := S1x256) hz2, View.canon_unit_zero (S := S1x1) hz2, View.canon_unit_zero (S := S1x256) hz2, View.canon_unit_zero (S := S1x1x4) hz3, View.canon_unit_zero (S := S1x1x256) hz3, View.readCov_unit_zero (S := S1x1) _ hz2, View.readCov_unit_zero (S := S1x256) _ hz2, View.readAt_eq_ld, harg2.read_unread, harg3.read_unread, harg7.read_unread, harg8.read_unread, harg9.read_unread, harg10.read_unread, harg11.read_unread, harg12.read_unread, View.ld_unit_zero (S := S1024x256) hz2, View.ld_unit_zero (S := S1x1) hz2, View.ld_unit_zero (S := S1x256) hz2]

theorem outL3_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) :
    outL3 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 = k0_pay7 (k0_pay4 (k0_pay17 x0) xs4) := by
  unfold outL3
  rw [View.read_writes_eq_canon _ _ _ (coverL3 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5)]
  unfold runLast
  dsimp only
  sl_unfold_words
  simp only [View.canon_cons_unit_zero (S := S1x1) hz2, View.canon_cons_unit_zero (S := S1x256) hz2, View.canon_unit_zero (S := S1x1) hz2, View.canon_unit_zero (S := S1x256) hz2, View.canon_unit_zero (S := S1x1x4) hz3, View.canon_unit_zero (S := S1x1x256) hz3, View.readCov_unit_zero (S := S1x1) _ hz2, View.readCov_unit_zero (S := S1x256) _ hz2, View.readAt_eq_ld, harg2.read_unread, harg3.read_unread, harg7.read_unread, harg8.read_unread, harg9.read_unread, harg10.read_unread, harg11.read_unread, harg12.read_unread, View.ld_unit_zero (S := S1024x256) hz2, View.ld_unit_zero (S := S1x1) hz2, View.ld_unit_zero (S := S1x256) hz2]

theorem outL4_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1x1x4 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x256 .f32) (harg11 : arg11.IsWhole) (arg12 : Memref sig .tc .vmem S1x256 .f32) (harg12 : arg12.IsWhole) (hc0 : ¬condFirst i) (hc1 : condLast i) (x0 x1 : Vec F S1024x256 .f32) (xs0 xs1 xs2 xs3 : Vec F S1x1 .f32) (xs4 xs5 : Vec F S1x256 .f32) :
    outL4 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 = k0_pay8 (k0_pay5 (k0_pay18 x1) xs5) := by
  unfold outL4
  rw [View.read_writes_eq_canon _ _ _ (coverL4 c i arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5)]
  unfold runLast
  dsimp only
  sl_unfold_words
  simp only [View.canon_cons_unit_zero (S := S1x1) hz2, View.canon_cons_unit_zero (S := S1x256) hz2, View.canon_unit_zero (S := S1x1) hz2, View.canon_unit_zero (S := S1x256) hz2, View.canon_unit_zero (S := S1x1x4) hz3, View.canon_unit_zero (S := S1x1x256) hz3, View.readCov_unit_zero (S := S1x1) _ hz2, View.readCov_unit_zero (S := S1x256) _ hz2, View.readAt_eq_ld, harg2.read_unread, harg3.read_unread, harg7.read_unread, harg8.read_unread, harg9.read_unread, harg10.read_unread, harg11.read_unread, harg12.read_unread, View.ld_unit_zero (S := S1024x256) hz2, View.ld_unit_zero (S := S1x1) hz2, View.ld_unit_zero (S := S1x256) hz2]

end Cert.KernelIdeal.Fr

end
-- ==== Proof.KI.HeldValue.lean ====
/-
  The results' buffers at a point with inner coordinate 1, in terms of the two blocks of each input that its core
  reads: with X the blocks at the core's first point and Y those at its second, the first result holds, side by
  side, max (max -inf X) Y, min (min +inf X) Y and the two sums (0 + X) + Y of squares, and the other two the column
  sums (0 + X) + Y — written with the body's own named terms, at any float instance.
-/
import proofs.«119928_j66408784331046_2_alg».proof.Proof.KI.Pieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point before. -/
def prev (t : Fin cfg0.N) : Fin cfg0.N := ⟨t.val - 1, Nat.lt_of_le_of_lt (Nat.sub_le _ _) t.isLt⟩

theorem prev_even (t : Fin cfg0.N) (h1 : t.val % 2 = 1) : (prev t).val % 2 = 0 := by
  show (t.val - 1) % 2 = 0
  omega

theorem heldAt_prev (c : Dev nD) (t : Fin cfg0.N) (h1 : t.val % 2 = 1) :
    heldAt m c (t.val - 1) (Nat.lt_of_le_of_lt (Nat.sub_le _ _) t.isLt) = heldFirst m c (prev t) (prev_even t h1) :=
  heldAt_first m c (prev t) (prev_even t h1)

theorem held_o2 (c : Dev nD) (t : Fin cfg0.N) (h1 : t.val % 2 = 1) :
    (heldAt m c t.val t.isLt).o2
      = k0_pay6 (k0_pay19 (iblk m c 0 t) (k0_pay19 (iblk m c 0 (prev t)) (k0_pay9 (F := F))))
          (k0_pay1 (k0_pay20 (iblk m c 0 t) (k0_pay1 (k0_pay20 (iblk m c 0 (prev t)) (k0_pay10 (F := F))))))
          (k0_pay2 (k0_pay15 (iblk m c 0 t)) (k0_pay2 (k0_pay15 (iblk m c 0 (prev t))) (k0_pay11 (F := F))))
          (k0_pay3 (k0_pay16 (iblk m c 1 t)) (k0_pay3 (k0_pay16 (iblk m c 1 (prev t))) (k0_pay12 (F := F)))) := by
  rw [heldAt_last m c t h1]
  unfold heldLast; dsimp only
  rw [outL2_eq, heldAt_prev m c t h1]
  unfold heldFirst; dsimp only
  rw [soutF0_eq, soutF1_eq, soutF2_eq, soutF3_eq]

theorem held_o3 (c : Dev nD) (t : Fin cfg0.N) (h1 : t.val % 2 = 1) :
    (heldAt m c t.val t.isLt).o3
      = k0_pay7 (k0_pay4 (k0_pay17 (iblk m c 0 t)) (k0_pay4 (k0_pay17 (iblk m c 0 (prev t))) (k0_pay13 (F := F)))) := by
  rw [heldAt_last m c t h1]
  unfold heldLast; dsimp only
  rw [outL3_eq, heldAt_prev m c t h1]
  unfold heldFirst; dsimp only
  rw [soutF4_eq]

theorem held_o4 (c : Dev nD) (t : Fin cfg0.N) (h1 : t.val % 2 = 1) :
    (heldAt m c t.val t.isLt).o4
      = k0_pay8 (k0_pay5 (k0_pay18 (iblk m c 1 t)) (k0_pay5 (k0_pay18 (iblk m c 1 (prev t))) (k0_pay14 (F := F)))) := by
  rw [heldAt_last m c t h1]
  unfold heldLast; dsimp only
  rw [outL4_eq, heldAt_prev m c t h1]
  unfold heldFirst; dsimp only
  rw [soutF5_eq]

end Cert.KernelIdeal.Fr

end
-- ==== Proof.KI.Blocks.lean ====
/-
  The block an input window reads at point t is rows 1024 t … 1024 t + 1023 of the input: entry (r, d) of the block
  is entry (1024 t + r, d) of the array (the window's index map sends the point (c, i) to block 2c + i = t).
-/
import proofs.«119928_j66408784331046_2_alg».proof.Proof.KI.Runs
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem idxIn0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idxIn1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Row `r` of block `t`, as a row of the array. -/
def rowOf (t : Fin cfg0.N) (r : Fin 1024) : Fin 4096 :=
  ⟨1024 * t.val + r.val, by have h1 := t.isLt; have h2 : cfg0.N = 4 := N_0; have h3 := r.isLt; omega⟩

theorem iblk0_apply (c : Dev nD) (t : Fin cfg0.N) (r : Fin 1024) (d : Fin 256) :
    (iblk m c 0 t : Vec F S1024x256 .f32) (ix2 r d)
      = (m ((c : Thread nD τ).loc main_arg0) : S4096x256.Idx → Elt F .f32) (ix2 (rowOf t r) d) := by
  obtain ⟨e0, e1⟩ := idxIn0 t
  unfold iblk
  rw [View.read_apply]
  show V m c main_arg0 _ = m ((c : Thread nD τ).loc main_arg0) _
  rw [V_main_arg0]
  refine congrArg _ (funext fun a => Fin.ext ?_)
  match a with
  | ⟨0, _⟩ => show win0_0.index t (0 : Fin 2) * 1024 + 1 * r.val = 1024 * t.val + r.val; omega
  | ⟨1, _⟩ => show win0_0.index t (1 : Fin 2) * 256 + 1 * d.val = d.val; omega

theorem iblk1_apply (c : Dev nD) (t : Fin cfg0.N) (r : Fin 1024) (d : Fin 256) :
    (iblk m c 1 t : Vec F S1024x256 .f32) (ix2 r d)
      = (m ((c : Thread nD τ).loc main_arg1) : S4096x256.Idx → Elt F .f32) (ix2 (rowOf t r) d) := by
  obtain ⟨e0, e1⟩ := idxIn1 t
  unfold iblk
  rw [View.read_apply]
  show V m c main_arg1 _ = m ((c : Thread nD τ).loc main_arg1) _
  rw [V_main_arg1]
  refine congrArg _ (funext fun a => Fin.ext ?_)
  match a with
  | ⟨0, _⟩ => show win0_1.index t (0 : Fin 2) * 1024 + 1 * r.val = 1024 * t.val + r.val; omega
  | ⟨1, _⟩ => show win0_1.index t (1 : Fin 2) * 256 + 1 * d.val = d.val; omega

end Cert.KernelIdeal.Fr

end
-- ==== Proof.LibTileOps.lean ====
/-
  Vector operations of a tile read at an index, at the ideal instance, generic in the extents.

  * a shape cast between two shapes of one element, and a broadcast from a shape whose axes all have extent one,
    read the operand's only element;
  * a vector of length `a` cast to the column `[a, 1]` reads the vector at the row;
  * the sum of a `[a, b]` tile taken in two steps — along the lanes, then, after the cast to a column, along the
    rows — is the double sum over the rows and the lanes.
-/
import Idealize.ShloMosaic.Lib.Pipeline.Value
import Idealize.ShloMosaic.Lib.ValueIdx
import Idealize.ShloMosaic.PureOps.Ideal.Laws

noncomputable section

namespace Cert.LibTileOps

open Idealize.ShloMosaic Idealize.ShloMosaic.ValueIdx

variable {α : Type}

/-- A cast out of a shape with one element reads that element, whatever the two indices are called. -/
theorem shapeCast_one {s t : Shape} (x : s.Idx → α) (h : s.ShapeCasts t) (hs : s.numel = 1) (j : t.Idx) (k : s.Idx) :
    shapeCast t x h j = x k :=
  shapeCast_apply x h j k (by
    have h1 := (s.rowMajor k).isLt
    have h2 := (t.rowMajor j).isLt
    have h3 : t.numel = s.numel := h
    omega)

/-- A broadcast out of a shape whose axes all have extent one reads its one element everywhere. -/
theorem broadcastTo_one {s t : Shape} (x : s.Idx → α) (h : s.Broadcasts t) (hs : ∀ a, s.size a = 1) (j : t.Idx) (k : s.Idx) :
    broadcastTo t x h j = x k :=
  broadcastTo_apply x h j k (fun a => by
    rw [if_pos (hs a)]
    have h1 := (k a).isLt
    have h2 := hs a
    omega)

/-- A length-`a` vector cast to the column `[a, 1]`, read at row `i`. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

/-- The two-step sum of a tile: lanes first, then rows. -/
theorem tile_sum_apply {a b : ℕ} (x : FVec Ideal ⟨2, ![a, b]⟩ .f32)
    (h1 : (⟨2, ![a, b]⟩ : Shape).Reduces [1] ⟨1, ![a]⟩) (hφ1 : FKind.Formats .f32)
    (hacc1 : (0x00000000#32 : BitVec 32) = FKind.add.neutral .f32 hφ1)
    (hc : (⟨1, ![a]⟩ : Shape).ShapeCasts ⟨2, ![a, 1]⟩)
    (h0 : (⟨2, ![a, 1]⟩ : Shape).Reduces [0] ⟨1, ![1]⟩) (hφ0 : FKind.Formats .f32)
    (hacc0 : (0x00000000#32 : BitVec 32) = FKind.add.neutral .f32 hφ0)
    (j : (⟨1, ![1]⟩ : Shape).Idx) :
    multiReduction .add [0] ⟨1, ![1]⟩
        (shapeCast ⟨2, ![a, 1]⟩ (multiReduction .add [1] ⟨1, ![a]⟩ x 0x00000000#32 h1 hφ1 hacc1) hc)
        0x00000000#32 h0 hφ0 hacc0 j
      = ∑ r : Fin a, ∑ k : Fin b, x (ix2 r k) := by
  refine (Ideal.multiReduction_add_single _ _ h0 hφ0 hacc0 j).trans ?_
  show ∑ r : Fin a, _ = _
  refine Finset.sum_congr rfl fun r _ => ?_
  have e0 : h0.lift j r = ix2 r (0 : Fin 1) := funext fun c => Fin.ext (by
    match c with
    | ⟨0, _⟩ => rfl
    | ⟨1, _⟩ => show (j ⟨0, _⟩).val = 0; have hj : (j ⟨0, Nat.one_pos⟩).val < 1 := (j ⟨0, Nat.one_pos⟩).isLt; omega)
  rw [e0, shapeCast_col_apply]
  refine (Ideal.multiReduction_add_single x _ h1 hφ1 hacc1 (ix1 r)).trans ?_
  show ∑ k : Fin b, _ = _
  refine Finset.sum_congr rfl fun k _ => ?_
  exact congrArg x (funext fun c => Fin.ext (by
    match c with
    | ⟨0, _⟩ => rfl
    | ⟨1, _⟩ => rfl))

end Cert.LibTileOps

end
-- ==== Proof.LibReduceRead.lean ====
/-
  Reductions of a matrix along one axis, read at an index, at the ideal instance and generic in the extents.

  * the sum of an [a, b] matrix along the rows (axis 0) at column e is the sum over the rows of the entries of column e;
  * the sum along the lanes (axis 1) at row r is the sum over the lanes of the entries of row r;
  * the sum, and the maximum started from the bottom element, of an [a, 1] column along its rows: the sum over the
    rows, and the fold of max over the rows.
  Each is the library's reading of a one-axis reduction (the reduced index with the coordinate put back on the dropped
  axis) with that index written by its coordinates.
-/
import Idealize.ShloMosaic.Lib.ValueIdx
import Idealize.ShloMosaic.PureOps.Ideal.Laws

noncomputable section

open scoped BigOperators

namespace Cert.LibReduceRead

open Idealize.ShloMosaic Idealize.ShloMosaic.ValueIdx

/-- Column sums: the sum along the rows, read at column e. -/
theorem colSum_apply {a b : ℕ} (X : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (e : Fin b) :
    multiReduction .add [0] ⟨1, ![b]⟩ X 0x00000000#32 h hφ hacc (ix1 e) = ∑ s : Fin a, X (ix2 s e) := by
  refine (Ideal.multiReduction_add_single X _ h hφ hacc (ix1 e)).trans ?_
  show ∑ s : Fin a, _ = _
  exact Finset.sum_congr rfl fun s _ => congrArg X (funext fun c => Fin.ext (by
    match c with
    | ⟨0, _⟩ => rfl
    | ⟨1, _⟩ => rfl))

/-- Row sums: the sum along the lanes, read at row r. -/
theorem rowSum_apply {a b : ℕ} (X : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ X 0x00000000#32 h hφ hacc (ix1 r) = ∑ k : Fin b, X (ix2 r k) := by
  refine (Ideal.multiReduction_add_single X _ h hφ hacc (ix1 r)).trans ?_
  show ∑ k : Fin b, _ = _
  exact Finset.sum_congr rfl fun k _ => congrArg X (funext fun c => Fin.ext (by
    match c with
    | ⟨0, _⟩ => rfl
    | ⟨1, _⟩ => rfl))

/-- The row index a one-entry result puts back under a column: (s, 0). -/
theorem lift_col {a : ℕ} (h : (⟨2, ![a, 1]⟩ : Shape).Reduces [0] ⟨1, ![1]⟩) (j : (⟨1, ![1]⟩ : Shape).Idx) (s : Fin a) :
    h.lift j s = ix2 s (0 : Fin 1) :=
  funext fun c => Fin.ext (by
    match c with
    | ⟨0, _⟩ => rfl
    | ⟨1, _⟩ =>
      show (j ⟨0, _⟩).val = 0
      have hj : (j ⟨0, Nat.one_pos⟩).val < 1 := (j ⟨0, Nat.one_pos⟩).isLt
      omega)

/-- The sum of a column along its rows. -/
theorem colSum1_apply {a : ℕ} (X : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ)
    (j : (⟨1, ![1]⟩ : Shape).Idx) :
    multiReduction .add [0] ⟨1, ![1]⟩ X 0x00000000#32 h hφ hacc j = ∑ s : Fin a, X (ix2 s (0 : Fin 1)) := by
  refine (Ideal.multiReduction_add_single X _ h hφ hacc j).trans ?_
  show ∑ s : Fin a, _ = _
  exact Finset.sum_congr rfl fun s _ => congrArg X (lift_col h j s)

/-- The maximum of a column along its rows, started from the bottom element's word: the fold of max over the rows. -/
theorem colMax1_apply {a : ℕ} (X : FVec Ideal ⟨2, ![a, 1]⟩ .f32) (h : (⟨2, ![a, 1]⟩ : Shape).Reduces [0] ⟨1, ![1]⟩)
    (hφ : FKind.Formats .f32) (hacc : (0xFF800000#32 : BitVec 32) = FKind.maximumf.neutral .f32 hφ)
    (j : (⟨1, ![1]⟩ : Shape).Idx) :
    multiReduction .maximumf [0] ⟨1, ![1]⟩ X 0xFF800000#32 h hφ hacc j
      = (Finset.univ : Finset (Fin a)).fold max (Ideal.ofBits .f32 0xFF800000#32) (fun s => X (ix2 s (0 : Fin 1))) := by
  refine (Ideal.multiReduction_maximumf_single X _ h hφ hacc j).trans ?_
  show (Finset.univ : Finset (Fin a)).fold max (Ideal.ofBits .f32 0xFF800000#32) _ = _
  exact congrArg (fun f => (Finset.univ : Finset (Fin a)).fold max (Ideal.ofBits .f32 0xFF800000#32) f)
    (funext fun s => congrArg X (lift_col h j s))

end Cert.LibReduceRead

end
-- ==== Proof.LibColumnRead.lean ====
/-
  Two reads of a vector laid into a matrix, generic in the extents.

  A length-N vector broadcast to the column [N,1] and then along the lanes to [N,M] reads, at (p, k), the vector's
  entry p (the host's spelling of a per-row factor).  A length-N vector cast to the one row [1,N] reads, at (0, q),
  its entry q (the reshape under which a kernel receives a bias row).
-/
import Idealize.ShloMosaic.Lib.Pipeline.Value
import Idealize.ShloMosaic.Lib.ValueIdx

namespace Cert.LibColumnRead

open Idealize.ShloMosaic Idealize.ShloMosaic.ValueIdx

/-- A vector broadcast to a column and then along the lanes reads, at (p, k), the vector's entry p. -/
theorem col_bcast_apply {α : Type} {N M : ℕ} (n : (⟨1, ![N]⟩ : Shape).Idx → α)
    (h1 : (⟨1, ![N]⟩ : Shape).BroadcastsInDim ⟨2, ![N, 1]⟩ ![0])
    (h2 : (⟨2, ![N, 1]⟩ : Shape).BroadcastsInDim ⟨2, ![N, M]⟩ ![0, 1]) (p : Fin N) (k : Fin M) :
    broadcastInDim ⟨2, ![N, M]⟩ ![0, 1] h2 (broadcastInDim ⟨2, ![N, 1]⟩ ![0] h1 n) (ix2 p k) = n (ix1 p) := by
  refine (broadcastInDim_apply ![0, 1] h2 _ (ix2 p k) (ix2 p (0 : Fin 1)) ?_).trans ?_
  · intro a
    match a with
    | ⟨0, _⟩ =>
      show p.val = if N = 1 then 0 else p.val
      split
      · have := p.isLt; omega
      · rfl
    | ⟨1, _⟩ => rfl
  · refine broadcastInDim_apply ![0] h1 n (ix2 p (0 : Fin 1)) (ix1 p) ?_
    intro a
    match a with
    | ⟨0, _⟩ =>
      show p.val = if N = 1 then 0 else p.val
      split
      · have := p.isLt; omega
      · rfl

/-- A vector cast to one row reads, at (0, q), its entry q. -/
theorem row_cast_apply {α : Type} {N : ℕ} (b : (⟨1, ![N]⟩ : Shape).Idx → α)
    (h : (⟨1, ![N]⟩ : Shape).ShapeCasts ⟨2, ![1, N]⟩) (u : Fin 1) (q : Fin N) :
    shapeCast ⟨2, ![1, N]⟩ b h (ix2 u q) = b (ix1 q) :=
  shapeCast_apply b h (ix2 u q) (ix1 q) (by
    have hu : u.val = 0 := by omega
    rw [Shape.rowMajor_val_two, Shape.rowMajor_val_one]
    show q.val = u.val * N + q.val
    rw [hu]; omega)

end Cert.LibColumnRead
-- ==== Proof.RefConsts.lean ====
/-
  The float constants the two programs spell, as the extended reals their bit patterns denote at exact arithmetic:
  the small powers of two that scale the bandwidth, the counts 256, 16384, 16777216, 67100672 and 2^32, zero, and
  the two infinities that start the maximum and the minimum of the first input.
-/
import Idealize.ShloMosaic.PureOps.Ideal

noncomputable section

namespace Cert.Mmd

open Idealize.ShloMosaic

/-- `+0.0` denotes `0`. -/
theorem ofBits_zero : Ideal.ofBits .f32 0x00000000#32 = 0 := by
  simp [Ideal.ofBits, Ideal.ieee]

/-- `+0.0` as the real `0`. -/
theorem ofBits_zero_coe : Ideal.ofBits .f32 0x00000000#32 = ((0 : ℝ) : EReal) := by
  rw [ofBits_zero, EReal.coe_zero]

/-- `1.0` denotes the real `1`. -/
theorem ofBits_1 : Ideal.ofBits .f32 0x3F800000#32 = ((1 : ℝ) : EReal) := by
  simp [Ideal.ofBits, Ideal.ieee, -EReal.coe_mul]; norm_num

/-- `2.0` denotes the real `2`. -/
theorem ofBits_2 : Ideal.ofBits .f32 0x40000000#32 = ((2 : ℝ) : EReal) := by
  simp [Ideal.ofBits, Ideal.ieee, -EReal.coe_mul]; norm_num

/-- `4.0` denotes the real `4`. -/
theorem ofBits_4 : Ideal.ofBits .f32 0x40800000#32 = ((4 : ℝ) : EReal) := by
  simp [Ideal.ofBits, Ideal.ieee, -EReal.coe_mul]; norm_num

/-- `8.0` denotes the real `8`. -/
theorem ofBits_8 : Ideal.ofBits .f32 0x41000000#32 = ((8 : ℝ) : EReal) := by
  simp [Ideal.ofBits, Ideal.ieee, -EReal.coe_mul]; norm_num

/-- `16.0` denotes the real `16`. -/
theorem ofBits_16 : Ideal.ofBits .f32 0x41800000#32 = ((16 : ℝ) : EReal) := by
  simp [Ideal.ofBits, Ideal.ieee, -EReal.coe_mul]; norm_num

/-- `256.0`, the number of features denotes the real `256`. -/
theorem ofBits_256 : Ideal.ofBits .f32 0x43800000#32 = ((256 : ℝ) : EReal) := by
  simp [Ideal.ofBits, Ideal.ieee, -EReal.coe_mul]; norm_num

/-- `16384.0`, twice the number of stacked rows denotes the real `16384`. -/
theorem ofBits_16384 : Ideal.ofBits .f32 0x46800000#32 = ((16384 : ℝ) : EReal) := by
  simp [Ideal.ofBits, Ideal.ieee, -EReal.coe_mul]; norm_num

/-- `16777216.0`, the square of the number of rows of one input denotes the real `16777216`. -/
theorem ofBits_16777216 : Ideal.ofBits .f32 0x4B800000#32 = ((16777216 : ℝ) : EReal) := by
  simp [Ideal.ofBits, Ideal.ieee, -EReal.coe_mul]; norm_num

/-- `67100672.0`, n^2 - n at n = 8192 stacked rows denotes the real `67100672`. -/
theorem ofBits_67100672 : Ideal.ofBits .f32 0x4C7FF800#32 = ((67100672 : ℝ) : EReal) := by
  simp [Ideal.ofBits, Ideal.ieee, -EReal.coe_mul]; norm_num

/-- `4294967296.0`, 2^32 denotes the real `4294967296`. -/
theorem ofBits_4294967296 : Ideal.ofBits .f32 0x4F800000#32 = ((4294967296 : ℝ) : EReal) := by
  simp [Ideal.ofBits, Ideal.ieee, -EReal.coe_mul]; norm_num

/-- `1.0` as the extended reals' own `1`. -/
theorem ofBits_one : Ideal.ofBits .f32 0x3F800000#32 = 1 := by
  rw [ofBits_1, EReal.coe_one]

/-- The pattern of `-inf` denotes the bottom element. -/
theorem ofBits_neg_inf : Ideal.ofBits .f32 0xFF800000#32 = ⊥ := by
  simp [Ideal.ofBits, Ideal.ieee]

/-- The pattern of `+inf` denotes the top element. -/
theorem ofBits_pos_inf : Ideal.ofBits .f32 0x7F800000#32 = ⊤ := by
  simp [Ideal.ofBits, Ideal.ieee]

end Cert.Mmd

end
-- ==== Proof.KI.PayVal.lean ====
/-
  The kernel body's arithmetic read at an index, at the exact extended-real values.

  Each named value of the body is a short chain of vector operations on a [1024,256] tile X and on carried
  one-entry or one-row values.  Read entry by entry:

  * the initial values are the constants minus infinity, plus infinity and zero;
  * the running maximum and minimum join the carried value to the tile's largest and smallest entry, each taken
    in two steps — along the lanes of every row, then, as a column, along the rows — starting from the
    operation's neutral element;
  * the running sum of squares adds the tile's sum of squares, taken in the same two steps; the running column
    sums add, lane by lane, the sum of the tile's column;
  * the values written out are a row under one more leading unit axis, and four scalars laid side by side.

  Every sum stays a sum and every maximum or minimum a fold over the rows and the lanes; nothing is enumerated.
-/
import proofs.«119928_j66408784331046_2_alg».proof.Proof.Gen.KernelIdeal.Skeleton
import proofs.«119928_j66408784331046_2_alg».proof.Proof.LibTileOps
import proofs.«119928_j66408784331046_2_alg».proof.Proof.LibReduceRead
import proofs.«119928_j66408784331046_2_alg».proof.Proof.LibColumnRead
import proofs.«119928_j66408784331046_2_alg».proof.Proof.RefConsts
import Idealize.ShloMosaic.Lib.ValueIdx
import Idealize.ShloMosaic.Lib.Pipeline.Value
import Idealize.ShloMosaic.PureOps.Ideal.Laws

noncomputable section

namespace Cert.KernelIdeal.PayVal

open Cert.KernelIdeal Cert.KernelIdeal.Gen Idealize.ShloMosaic Idealize.ShloMosaic.ValueIdx

/-! ## The four functions of a tile the body's values are stated in -/

/-- The largest entry of a tile: the maximum over the rows of each row's maximum. -/
def tileMax (X : FVec Ideal S1024x256 .f32) : EReal := (Finset.univ : Finset (Fin 1024)).fold max ⊥ (fun r => (Finset.univ : Finset (Fin 256)).fold max ⊥ (fun d => X (ix2 r d)))

/-- The smallest entry of a tile: the minimum over the rows of each row's minimum. -/
def tileMin (X : FVec Ideal S1024x256 .f32) : EReal := (Finset.univ : Finset (Fin 1024)).fold min ⊤ (fun r => (Finset.univ : Finset (Fin 256)).fold min ⊤ (fun d => X (ix2 r d)))

/-- The sum of the squares of a tile's entries. -/
def tileSq  (X : FVec Ideal S1024x256 .f32) : EReal := ∑ r : Fin 1024, ∑ d : Fin 256, X (ix2 r d) * X (ix2 r d)

/-- The sum of one column of a tile. -/
def tileCol (X : FVec Ideal S1024x256 .f32) (d : Fin 256) : EReal := ∑ r : Fin 1024, X (ix2 r d)

/-! ## The initial values: a constant broadcast, then a cast of a shape to itself -/

theorem pay9_apply (j : S1x1.Idx) : k0_pay9 (F := Ideal) j = ⊥ := by
  unfold k0_pay9
  rw [shapeCast_self]
  exact Cert.Mmd.ofBits_neg_inf

theorem pay10_apply (j : S1x1.Idx) : k0_pay10 (F := Ideal) j = ⊤ := by
  unfold k0_pay10
  rw [shapeCast_self]
  exact Cert.Mmd.ofBits_pos_inf

theorem pay11_apply (j : S1x1.Idx) : k0_pay11 (F := Ideal) j = 0 := by
  unfold k0_pay11
  rw [shapeCast_self]
  exact Ideal.ofBits_zero_f32

theorem pay12_apply (j : S1x1.Idx) : k0_pay12 (F := Ideal) j = 0 := by
  unfold k0_pay12
  rw [shapeCast_self]
  exact Ideal.ofBits_zero_f32

theorem pay13_apply (j : S1x256.Idx) : k0_pay13 (F := Ideal) j = 0 := by
  unfold k0_pay13
  rw [shapeCast_self]
  exact Ideal.ofBits_zero_f32

theorem pay14_apply (j : S1x256.Idx) : k0_pay14 (F := Ideal) j = 0 := by
  unfold k0_pay14
  rw [shapeCast_self]
  exact Ideal.ofBits_zero_f32

/-! ## The values stored back unchanged, and the running sums: a pointwise sum under a cast of a shape to itself -/

theorem pay1_apply (v : FVec Ideal S1x1 .f32) (j : S1x1.Idx) : k0_pay1 v j = v j := by
  unfold k0_pay1
  rw [shapeCast_self]

theorem pay2_apply (v17 v37 : FVec Ideal S1x1 .f32) (j : S1x1.Idx) : k0_pay2 v17 v37 j = v37 j + v17 j := by
  unfold k0_pay2
  rw [shapeCast_self]
  rfl

theorem pay3_apply (v22 v42 : FVec Ideal S1x1 .f32) (j : S1x1.Idx) : k0_pay3 v22 v42 j = v42 j + v22 j := by
  unfold k0_pay3
  rw [shapeCast_self]
  rfl

theorem pay4_apply (v24 v47 : FVec Ideal S1x256 .f32) (j : S1x256.Idx) : k0_pay4 v24 v47 j = v47 j + v24 j := by
  unfold k0_pay4
  rw [shapeCast_self]
  rfl

theorem pay5_apply (v26 v52 : FVec Ideal S1x256 .f32) (j : S1x256.Idx) : k0_pay5 v26 v52 j = v52 j + v26 j := by
  unfold k0_pay5
  rw [shapeCast_self]
  rfl

/-! ## One-axis maximum and minimum reductions of a matrix read at an index, generic in the extents -/

/-- A minimum reduction over one axis is the fold of `min` from the accumulator's value over that axis's coordinates
    (the twin of the maximum's reading). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The index a row's result puts back under lane k: (r, k). -/
theorem lift_row {a b : ℕ} (h : (⟨2, ![a, b]⟩ : Shape).Reduces [1] ⟨1, ![a]⟩) (r : Fin a) (k : Fin b) :
    h.lift (ix1 r) k = ix2 r k :=
  funext fun c => Fin.ext (by
    match c with
    | ⟨0, _⟩ => rfl
    | ⟨1, _⟩ => rfl)

/-- Row maxima: the maximum along the lanes from minus infinity's word, read at row r. -/
theorem rowMax_apply {a b : ℕ} (X : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction .maximumf [1] ⟨1, ![a]⟩ X 0xFF800000#32 h hφ hacc (ix1 r)
      = (Finset.univ : Finset (Fin b)).fold max (Ideal.ofBits .f32 0xFF800000#32) (fun k => X (ix2 r k)) := by
  refine (Ideal.multiReduction_maximumf_single X _ h hφ hacc (ix1 r)).trans ?_
  show (Finset.univ : Finset (Fin b)).fold max (Ideal.ofBits .f32 0xFF800000#32) _ = _
  exact congrArg (fun f => (Finset.univ : Finset (Fin b)).fold max (Ideal.ofBits .f32 0xFF800000#32) f)
    (funext fun k => congrArg X (lift_row h r k))

/-- Row minima: the minimum along the lanes from plus infinity's word, read at row r. -/
theorem rowMin_apply {a b : ℕ} (X : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (r : Fin a) :
    multiReduction .minimumf [1] ⟨1, ![a]⟩ X 0x7F800000#32 h hφ hacc (ix1 r)
      = (Finset.univ : Finset (Fin b)).fold min (Ideal.ofBits .f32 0x7F800000#32) (fun k => X (ix2 r k)) := by
  refine (multiReduction_minimumf_single X _ h hφ hacc (ix1 r)).trans ?_
  show (Finset.univ : Finset (Fin b)).fold min (Ideal.ofBits .f32 0x7F800000#32) _ = _
  exact congrArg (fun f => (Finset.univ : Finset (Fin b)).fold min (Ideal.ofBits .f32 0x7F800000#32) f)
    (funext fun k => congrArg X (lift_row h r k))

/-- The minimum of a column along its rows, from plus infinity's word: the fold of min over the rows. -/
theorem colMin1_apply {a : ℕ} (X : FVec Ideal ⟨2, ![a, 1]⟩ .f32) (h : (⟨2, ![a, 1]⟩ : Shape).Reduces [0] ⟨1, ![1]⟩)
    (hφ : FKind.Formats .f32) (hacc : (0x7F800000#32 : BitVec 32) = FKind.minimumf.neutral .f32 hφ)
    (j : (⟨1, ![1]⟩ : Shape).Idx) :
    multiReduction .minimumf [0] ⟨1, ![1]⟩ X 0x7F800000#32 h hφ hacc j
      = (Finset.univ : Finset (Fin a)).fold min (Ideal.ofBits .f32 0x7F800000#32) (fun s => X (ix2 s (0 : Fin 1))) := by
  refine (multiReduction_minimumf_single X _ h hφ hacc j).trans ?_
  show (Finset.univ : Finset (Fin a)).fold min (Ideal.ofBits .f32 0x7F800000#32) _ = _
  exact congrArg (fun f => (Finset.univ : Finset (Fin a)).fold min (Ideal.ofBits .f32 0x7F800000#32) f)
    (funext fun s => congrArg X (LibReduceRead.lift_col h j s))

/-! ## A tile's sum of squares, column sums, maximum and minimum -/

/-- The sum of squares: the square taken entry by entry, summed along the lanes, then, as a column, along the rows;
    the one-entry result is then cast to [1,1]. -/
theorem pay15_apply (X : FVec Ideal S1024x256 .f32) (j : S1x1.Idx) : k0_pay15 (F := Ideal) X j = tileSq X := by
  unfold k0_pay15
  refine (LibTileOps.shapeCast_one _ shapeCasts_S1_S1x1 rfl j (ix1 (0 : Fin 1))).trans ?_
  exact LibTileOps.tile_sum_apply (mulf X X) _ _ _ _ _ _ _ (ix1 0)

theorem pay16_apply (X : FVec Ideal S1024x256 .f32) (j : S1x1.Idx) : k0_pay16 (F := Ideal) X j = tileSq X := by
  unfold k0_pay16
  refine (LibTileOps.shapeCast_one _ shapeCasts_S1_S1x1 rfl j (ix1 (0 : Fin 1))).trans ?_
  exact LibTileOps.tile_sum_apply (mulf X X) _ _ _ _ _ _ _ (ix1 0)

/-- The column sums: the sum along the rows, then the [256] result cast to the row [1,256]. -/
theorem pay17_apply (X : FVec Ideal S1024x256 .f32) (u : Fin 1) (d : Fin 256) : k0_pay17 (F := Ideal) X (ix2 u d) = tileCol X d := by
  unfold k0_pay17
  refine (LibColumnRead.row_cast_apply _ shapeCasts_S256_S1x256 u d).trans ?_
  exact LibReduceRead.colSum_apply X _ _ _ d

theorem pay18_apply (X : FVec Ideal S1024x256 .f32) (u : Fin 1) (d : Fin 256) : k0_pay18 (F := Ideal) X (ix2 u d) = tileCol X d := by
  unfold k0_pay18
  refine (LibColumnRead.row_cast_apply _ shapeCasts_S256_S1x256 u d).trans ?_
  exact LibReduceRead.colSum_apply X _ _ _ d

/-- The running maximum: the tile's maximum — along the lanes, then, as a column, along the rows, both from minus
    infinity — joined to the carried value. -/
theorem pay19_apply (X : FVec Ideal S1024x256 .f32) (acc : FVec Ideal S1x1 .f32) (j : S1x1.Idx) :
    k0_pay19 (F := Ideal) X acc j = max (acc j) (tileMax X) := by
  unfold k0_pay19
  rw [shapeCast_self]
  refine congrArg (max (acc j)) ?_
  refine (LibTileOps.shapeCast_one _ shapeCasts_S1_S1x1 rfl j (ix1 (0 : Fin 1))).trans ?_
  refine (LibReduceRead.colMax1_apply _ reduces_S1024x1_S1 _ _ (ix1 0)).trans ?_
  rw [Cert.Mmd.ofBits_neg_inf]
  unfold tileMax
  refine congrArg (fun f => (Finset.univ : Finset (Fin 1024)).fold max ⊥ f) (funext fun r => ?_)
  refine (LibTileOps.shapeCast_col_apply _ shapeCasts_S1024_S1024x1 r 0).trans ?_
  refine (rowMax_apply X reduces_S1024x256_S1024 _ _ r).trans ?_
  rw [Cert.Mmd.ofBits_neg_inf]

/-- The running minimum, likewise from plus infinity. -/
theorem pay20_apply (X : FVec Ideal S1024x256 .f32) (acc : FVec Ideal S1x1 .f32) (j : S1x1.Idx) :
    k0_pay20 (F := Ideal) X acc j = min (acc j) (tileMin X) := by
  unfold k0_pay20
  refine congrArg (min (acc j)) ?_
  refine (LibTileOps.shapeCast_one _ shapeCasts_S1_S1x1 rfl j (ix1 (0 : Fin 1))).trans ?_
  refine (colMin1_apply _ reduces_S1024x1_S1 _ _ (ix1 0)).trans ?_
  rw [Cert.Mmd.ofBits_pos_inf]
  unfold tileMin
  refine congrArg (fun f => (Finset.univ : Finset (Fin 1024)).fold min ⊤ f) (funext fun r => ?_)
  refine (LibTileOps.shapeCast_col_apply _ shapeCasts_S1024_S1024x1 r 0).trans ?_
  refine (rowMin_apply X reduces_S1024x256_S1024 _ _ r).trans ?_
  rw [Cert.Mmd.ofBits_pos_inf]

/-! ## The results written out: a row cast under one more leading unit axis, and the four scalars laid side by side -/

/-- A row [1,n] cast to [1,1,n] reads, at (u, v, d), the row's entry d. -/
theorem row_cast3_apply {α : Type} {n : ℕ} (x : (⟨2, ![1, n]⟩ : Shape).Idx → α)
    (h : (⟨2, ![1, n]⟩ : Shape).ShapeCasts ⟨3, ![1, 1, n]⟩) (u v : Fin 1) (d : Fin n) :
    shapeCast ⟨3, ![1, 1, n]⟩ x h (ix3 u v d) = x (ix2 (0 : Fin 1) d) :=
  shapeCast_apply x h (ix3 u v d) (ix2 (0 : Fin 1) d) (by
    have hu : u.val = 0 := by omega
    have hv : v.val = 0 := by omega
    rw [Shape.rowMajor_val_two, Shape.rowMajor_val_three]
    show (0 : Fin 1).val * n + d.val = (u.val * 1 + v.val) * n + d.val
    rw [hu, hv]; simp)

theorem pay7_apply (v68 : FVec Ideal S1x256 .f32) (u v : Fin 1) (d : Fin 256) :
    k0_pay7 (F := Ideal) v68 (ix3 u v d) = v68 (ix2 0 d) := by
  unfold k0_pay7
  exact row_cast3_apply v68 shapeCasts_S1x256_S1x1x256 u v d

theorem pay8_apply (v72 : FVec Ideal S1x256 .f32) (u v : Fin 1) (d : Fin 256) :
    k0_pay8 (F := Ideal) v72 (ix3 u v d) = v72 (ix2 0 d) := by
  unfold k0_pay8
  exact row_cast3_apply v72 shapeCasts_S1x256_S1x1x256 u v d

/-- The four scalars laid side by side along the lanes into [1,4], then cast to [1,1,4]: lane k reads the k-th scalar
    (piece k spans exactly lane k, each piece having one lane). -/
theorem pay6_apply0 (v60 v61 v62 v63 : FVec Ideal S1x1 .f32) (u v : Fin 1) :
    k0_pay6 (F := Ideal) v60 v61 v62 v63 (ix3 u v (0 : Fin 4)) = v60 (ix2 0 0) := by
  unfold k0_pay6
  refine (row_cast3_apply _ shapeCasts_S1x4_S1x1x4 u v (0 : Fin 4)).trans ?_
  refine concatenate_apply_piece (t := S1x4) (1 : Fin 2)
    ([⟨S1x1, v60⟩, ⟨S1x1, v61⟩, ⟨S1x1, v62⟩, ⟨S1x1, v63⟩] : List ((s : Shape) × (s.Idx → Ideal .f32)))
    concatenates_S1x1_S1x1_S1x1_S1x1_S1x4_d1 (ix2 (0 : Fin 1) (0 : Fin 4))
    0 (by simp) S1x1 v60 rfl rfl 0 rfl (ix2 (0 : Fin 1) (0 : Fin 1)) ?_ rfl
  intro b hb
  match b with
  | ⟨0, _⟩ => rfl
  | ⟨1, _⟩ => exact absurd rfl hb

theorem pay6_apply1 (v60 v61 v62 v63 : FVec Ideal S1x1 .f32) (u v : Fin 1) :
    k0_pay6 (F := Ideal) v60 v61 v62 v63 (ix3 u v (1 : Fin 4)) = v61 (ix2 0 0) := by
  unfold k0_pay6
  refine (row_cast3_apply _ shapeCasts_S1x4_S1x1x4 u v (1 : Fin 4)).trans ?_
  refine concatenate_apply_piece (t := S1x4) (1 : Fin 2)
    ([⟨S1x1, v60⟩, ⟨S1x1, v61⟩, ⟨S1x1, v62⟩, ⟨S1x1, v63⟩] : List ((s : Shape) × (s.Idx → Ideal .f32)))
    concatenates_S1x1_S1x1_S1x1_S1x1_S1x4_d1 (ix2 (0 : Fin 1) (1 : Fin 4))
    1 (by simp) S1x1 v61 rfl rfl 1 rfl (ix2 (0 : Fin 1) (0 : Fin 1)) ?_ rfl
  intro b hb
  match b with
  | ⟨0, _⟩ => rfl
  | ⟨1, _⟩ => exact absurd rfl hb

theorem pay6_apply2 (v60 v61 v62 v63 : FVec Ideal S1x1 .f32) (u v : Fin 1) :
    k0_pay6 (F := Ideal) v60 v61 v62 v63 (ix3 u v (2 : Fin 4)) = v62 (ix2 0 0) := by
  unfold k0_pay6
  refine (row_cast3_apply _ shapeCasts_S1x4_S1x1x4 u v (2 : Fin 4)).trans ?_
  refine concatenate_apply_piece (t := S1x4) (1 : Fin 2)
    ([⟨S1x1, v60⟩, ⟨S1x1, v61⟩, ⟨S1x1, v62⟩, ⟨S1x1, v63⟩] : List ((s : Shape) × (s.Idx → Ideal .f32)))
    concatenates_S1x1_S1x1_S1x1_S1x1_S1x4_d1 (ix2 (0 : Fin 1) (2 : Fin 4))
    2 (by simp) S1x1 v62 rfl rfl 2 rfl (ix2 (0 : Fin 1) (0 : Fin 1)) ?_ rfl
  intro b hb
  match b with
  | ⟨0, _⟩ => rfl
  | ⟨1, _⟩ => exact absurd rfl hb

theorem pay6_apply3 (v60 v61 v62 v63 : FVec Ideal S1x1 .f32) (u v : Fin 1) :
    k0_pay6 (F := Ideal) v60 v61 v62 v63 (ix3 u v (3 : Fin 4)) = v63 (ix2 0 0) := by
  unfold k0_pay6
  refine (row_cast3_apply _ shapeCasts_S1x4_S1x1x4 u v (3 : Fin 4)).trans ?_
  refine concatenate_apply_piece (t := S1x4) (1 : Fin 2)
    ([⟨S1x1, v60⟩, ⟨S1x1, v61⟩, ⟨S1x1, v62⟩, ⟨S1x1, v63⟩] : List ((s : Shape) × (s.Idx → Ideal .f32)))
    concatenates_S1x1_S1x1_S1x1_S1x1_S1x4_d1 (ix2 (0 : Fin 1) (3 : Fin 4))
    3 (by simp) S1x1 v63 rfl rfl 3 rfl (ix2 (0 : Fin 1) (0 : Fin 1)) ?_ rfl
  intro b hb
  match b with
  | ⟨0, _⟩ => rfl
  | ⟨1, _⟩ => exact absurd rfl hb

end Cert.KernelIdeal.PayVal

end
-- ==== Proof.Spec.lean ====
/-
  The two programs' results as plain functions on the extended reals, written in the order the programs
  compute them, over the rows of the two inputs after nothing but their division by the range of the first.

  Notation: B = 4096 rows, D = 256 features, n = 2B = 8192 stacked rows. With sigma the range
  (maximum minus minimum) of the first input, the stacked matrix T has rows a_i / sigma (i < B) followed by
  b_i / sigma. The reference forms every squared distance L2(i,j) = (|T_i|^2 + |T_j|^2 - 2 T_i.T_j) / D,
  the bandwidth w = (sum_ij L2(i,j)) / (n^2 - n) / 4, the weight s(w) = sum_{k<5} 1 / (w 2^k), and
  returns the mean over i, j < B of k(i,j) + k(B+i,B+j) - k(i,B+j) - k(B+i,j) with k = (-L2) s(w).
  The kernel forms only the column sums and the sums of squares of the two inputs: with S = colsum(a)/sigma,
  S' = colsum(b)/sigma, Q = sumsq(a)/sigma^2 + sumsq(b)/sigma^2 it takes
  w = ((2n Q - 2 |S + S'|^2) / D) / (n^2 - n) / 4 and returns (s(w) 2 / (D B^2)) |S - S'|^2.
  Division is the extended reals' `Ideal.div` (a quotient by zero is an infinity by the sign of the
  dividend), so both are total functions; that they agree is proved elsewhere.
-/
import Idealize.ShloMosaic.PureOps.Ideal

noncomputable section

namespace Cert.Mmd

open Idealize.ShloMosaic

/-- The weight s(w) = 1/(w 1) + 1/(w 2) + 1/(w 4) + 1/(w 8) + 1/(w 16), summed from zero in that order. -/
def invBwSum (w : EReal) : EReal :=
  ((((0 + Ideal.div 1 (w * ((1 : ℝ) : EReal))) + Ideal.div 1 (w * ((2 : ℝ) : EReal)))
      + Ideal.div 1 (w * ((4 : ℝ) : EReal))) + Ideal.div 1 (w * ((8 : ℝ) : EReal)))
    + Ideal.div 1 (w * ((16 : ℝ) : EReal))

/-- The bandwidth of a total squared distance: divided by n^2 - n = 67100672, then by 2^(5/2 rounded down) = 4. -/
def bandwidth (total : EReal) : EReal :=
  Ideal.div (Ideal.div total ((67100672 : ℝ) : EReal)) ((4 : ℝ) : EReal)

/-! ## The reference -/

/-- Row i of the stacked matrix: the first input's row i over sigma for i < 4096, else the second's row i - 4096. -/
def stacked (σ : EReal) (a b : Fin 4096 → Fin 256 → EReal) (i : Fin 8192) (d : Fin 256) : EReal :=
  if h : i.val < 4096 then Ideal.div (a ⟨i.val, h⟩ d) σ
  else Ideal.div (b ⟨i.val - 4096, by have := i.isLt; omega⟩ d) σ

/-- The squared norm of row i. -/
def sqNorm (T : Fin 8192 → Fin 256 → EReal) (i : Fin 8192) : EReal := 0 + ∑ d : Fin 256, T i d * T i d

/-- The inner product of rows i and j. -/
def gram (T : Fin 8192 → Fin 256 → EReal) (i j : Fin 8192) : EReal := 0 + ∑ d : Fin 256, T i d * T j d

/-- The squared distance of rows i and j over the number of features. -/
def l2 (T : Fin 8192 → Fin 256 → EReal) (i j : Fin 8192) : EReal :=
  Ideal.div ((sqNorm T i + sqNorm T j) - ((2 : ℝ) : EReal) * gram T i j) ((256 : ℝ) : EReal)

/-- The total of all squared distances. -/
def sumL2 (T : Fin 8192 → Fin 256 → EReal) : EReal := 0 + ∑ i : Fin 8192, ∑ j : Fin 8192, l2 T i j

/-- The kernel value of rows i and j: minus their squared distance times the weight of the bandwidth. -/
def kern (T : Fin 8192 → Fin 256 → EReal) (i j : Fin 8192) : EReal :=
  (- l2 T i j) * invBwSum (bandwidth (sumL2 T))

/-- Row i of the first half, and of the second half, of the stacked matrix. -/
def lower (i : Fin 4096) : Fin 8192 := ⟨i.val, by have := i.isLt; omega⟩
def upper (i : Fin 4096) : Fin 8192 := ⟨i.val + 4096, by have := i.isLt; omega⟩

/-- The reference's result: the mean over i, j < 4096 of k(i,j) + k(B+i,B+j) - k(i,B+j) - k(B+i,j). -/
def refVal (σ : EReal) (a b : Fin 4096 → Fin 256 → EReal) : EReal :=
  Ideal.div
    (0 + ∑ i : Fin 4096, ∑ j : Fin 4096,
      (((kern (stacked σ a b) (lower i) (lower j) + kern (stacked σ a b) (upper i) (upper j))
          - kern (stacked σ a b) (lower i) (upper j)) - kern (stacked σ a b) (upper i) (lower j)))
    ((16777216 : ℝ) : EReal)

/-! ## The kernel -/

/-- The kernel's result from the column sums `cs`, `ct` and the sums of squares `qs`, `qt` of the two inputs. -/
def kerVal (σ : EReal) (cs ct : Fin 256 → EReal) (qs qt : EReal) : EReal :=
  (Ideal.div
      (invBwSum (bandwidth (Ideal.div
        ((((16384 : ℝ) : EReal) * (Ideal.div qs (σ * σ) + Ideal.div qt (σ * σ)))
          - ((2 : ℝ) : EReal) * (0 + ∑ d : Fin 256,
              (Ideal.div (cs d) σ + Ideal.div (ct d) σ) * (Ideal.div (cs d) σ + Ideal.div (ct d) σ)))
        ((256 : ℝ) : EReal))) * ((2 : ℝ) : EReal))
      ((4294967296 : ℝ) : EReal))
    * (0 + ∑ d : Fin 256, (Ideal.div (cs d) σ - Ideal.div (ct d) σ) * (Ideal.div (cs d) σ - Ideal.div (ct d) σ))

/-! ## The range of an input -/

/-- The largest and the smallest entry of an input, and its range. -/
def hiOf (a : Fin 4096 → Fin 256 → EReal) : EReal := ⨆ i : Fin 4096, ⨆ d : Fin 256, a i d
def loOf (a : Fin 4096 → Fin 256 → EReal) : EReal := ⨅ i : Fin 4096, ⨅ d : Fin 256, a i d
def rangeOf (a : Fin 4096 → Fin 256 → EReal) : EReal := hiOf a - loOf a

end Cert.Mmd

end
-- ==== Proof.KI.TailValue.lean ====
/-
  The ninety host operations after the region, read as one function of the region's three results.

  The region leaves, per core c, the row [max, min, sum of squares of the first input, of the second] in a
  [2,1,4] array and the two inputs' column sums in two [2,1,256] arrays. The host operations take each entry
  as a one-element slice viewed as a scalar and each row as a slice viewed as a vector, combine the two cores
  (maximum, minimum, sums), and then compute, operation by operation, exactly the closed form
  Cert.Mmd.kerVal of the range, the two column-sum vectors and the two sums of squares. The layout operations
  read one entry of their operand; a sum over the one axis of a vector of 256 from the zero constant is
  0 + ∑ d; every other operation is pointwise on the extended reals; the constants are the real numbers their
  patterns denote.
-/
import proofs.«119928_j66408784331046_2_alg».proof.Proof.KI.Runs
import proofs.«119928_j66408784331046_2_alg».proof.Proof.RefConsts
import proofs.«119928_j66408784331046_2_alg».proof.Proof.Spec
import Idealize.ShloMosaic.PureOps.Ideal.Laws
import Idealize.ShloMosaic.Lib.ValueIdx
import Idealize.ShloMosaic.Lib.Pipeline.Value
import Idealize.ShloMosaic.Lib.IdealHost
import Idealize.ShloMosaic.Lib.StableHlo.Run

set_option maxRecDepth 16384

noncomputable section

namespace Cert.KernelIdeal.TailValue

open Cert.KernelIdeal Cert.KernelIdeal.Gen
open Idealize.ShloMosaic Idealize.ShloMosaic.ValueIdx Idealize.ShloMosaic.StableHlo
open Cert.Mmd (ofBits_zero ofBits_1 ofBits_2 ofBits_4 ofBits_8 ofBits_16 ofBits_256 ofBits_16384 ofBits_67100672
  ofBits_4294967296)

/-! ## Reading the layout operations -/

/-- A sum over the indices of a one-axis shape is the sum over the axis. -/
theorem sum_idx1 {M : Type} [AddCommMonoid M] {n : Nat} (f : (⟨1, ![n]⟩ : Shape).Idx → M) :
    ∑ i, f i = ∑ d : Fin n, f (ix1 d) := by
  refine (Fintype.sum_bijective (fun d : Fin n => (ix1 d : (⟨1, ![n]⟩ : Shape).Idx)) ⟨?_, ?_⟩
    (fun d => f (ix1 d)) f (fun _ => rfl)).symm
  · intro d d' h
    exact congrFun h 0
  · intro j
    exact ⟨j 0, (eq_ix1 j).symm⟩

/-- Entry (c, 0, k) of a [2,1,4] array, taken as the one-element slice at (c, 0, k) viewed as a scalar. -/
def scal (s0 : FVec Ideal S2x1x4 .f32) (c : Fin 2) (k : Fin 4)
    (hs : S2x1x4.Slices ![c.val, 0, k.val] S1x1x1) (hc : S1x1x1.ShapeCasts S_) : FVec Ideal S_ .f32 :=
  shapeCast S_ (extractStridedSlice S1x1x1 ![c.val, 0, k.val] s0 hs) hc

/-- It is that entry. -/
theorem scal_apply (s0 : FVec Ideal S2x1x4 .f32) (c : Fin 2) (k : Fin 4)
    (hs : S2x1x4.Slices ![c.val, 0, k.val] S1x1x1) (hc : S1x1x1.ShapeCasts S_) (j : S_.Idx) :
    scal s0 c k hs hc j = s0 (ix3 c 0 k) := by
  unfold scal
  refine (shapeCast_apply _ hc j (ix3 0 0 0) ?_).trans ?_
  · have h1 := (S1x1x1.rowMajor (ix3 (0 : Fin 1) (0 : Fin 1) (0 : Fin 1))).isLt
    have h2 := (S_.rowMajor j).isLt
    have e1 : S1x1x1.numel = 1 := by decide
    have e2 : S_.numel = 1 := by decide
    omega
  · exact extractStridedSlice_apply _ s0 hs (ix3 0 0 0) (ix3 c 0 k)
      (fun a => match a with | ⟨0, _⟩ => rfl | ⟨1, _⟩ => rfl | ⟨2, _⟩ => rfl)

/-- Row (c, 0, ·) of a [2,1,256] array, taken as the slice at (c, 0, 0) viewed as a vector of 256. -/
def row (a : FVec Ideal S2x1x256 .f32) (c : Fin 2)
    (hs : S2x1x256.Slices ![c.val, 0, 0] S1x1x256) (hc : S1x1x256.ShapeCasts S256) : FVec Ideal S256 .f32 :=
  shapeCast S256 (extractStridedSlice S1x1x256 ![c.val, 0, 0] a hs) hc

/-- Its entry d is the array's entry (c, 0, d). -/
theorem row_apply (a : FVec Ideal S2x1x256 .f32) (c : Fin 2)
    (hs : S2x1x256.Slices ![c.val, 0, 0] S1x1x256) (hc : S1x1x256.ShapeCasts S256) (d : Fin 256) :
    row a c hs hc (ix1 d) = a (ix3 c 0 d) := by
  unfold row
  refine (shapeCast_apply _ hc (ix1 d) (ix3 0 0 d) ?_).trans ?_
  · rw [Shape.rowMajor_val_three, Shape.rowMajor_val_one]
    show (0 * 1 + 0) * 256 + d.val = d.val
    omega
  · exact extractStridedSlice_apply _ a hs (ix3 0 0 d) (ix3 c 0 d)
      (fun x => match x with
        | ⟨0, _⟩ => rfl
        | ⟨1, _⟩ => rfl
        | ⟨2, _⟩ => by show d.val = 0 + d.val; omega)

/-- The host's sum of a vector of 256 from the zero constant is zero plus the sum of its entries. -/
theorem reduce_apply (x : FVec Ideal S256 .f32) (h : S256.ReducesTo [0] S_) (hu : 0 < S_.numel) (j : S_.Idx) :
    Host.reduceAdd (F := Ideal) x (constant (F := Ideal) S_ .f32 0x00000000#32) h hu j
      = 0 + ∑ d : Fin 256, x (ix1 d) := by
  rw [hostReduceAdd_apply, constant_apply, ofBits_zero, Ideal.hostReduceAdd_total h (fun b => b.elim0), sum_idx1]

/-! ## The scalars the closed form is made of -/

/-- The range: the larger of the two cores' maxima minus the smaller of their minima. -/
def scaleE (s0 : FVec Ideal S2x1x4 .f32) : EReal :=
  max (s0 (ix3 0 0 0)) (s0 (ix3 1 0 0)) - min (s0 (ix3 0 0 1)) (s0 (ix3 1 0 1))

/-- The two cores' values of statistic k added. -/
def sqE (s0 : FVec Ideal S2x1x4 .f32) (k : Fin 4) : EReal := s0 (ix3 0 0 k) + s0 (ix3 1 0 k)

/-- The two cores' column sums added. -/
def colE (a : FVec Ideal S2x1x256 .f32) (d : Fin 256) : EReal := a (ix3 0 0 d) + a (ix3 1 0 d)

/-! ## The host operations after the region, as functions of the region's three results

Each definition is one stretch of the operations, in their order and association. -/

/-- %31: the range. -/
def sigmaV (s0 : FVec Ideal S2x1x4 .f32) : FVec Ideal S_ .f32 :=
  subf
    (maximumf (scal s0 0 0 slices_S2x1x4_S1x1x1_0_0_0 shapeCasts_S1x1x1_S_)
      (scal s0 1 0 slices_S2x1x4_S1x1x1_1_0_0 shapeCasts_S1x1x1_S_))
    (minimumf (scal s0 0 1 slices_S2x1x4_S1x1x1_0_0_1 shapeCasts_S1x1x1_S_)
      (scal s0 1 1 slices_S2x1x4_S1x1x1_1_0_1 shapeCasts_S1x1x1_S_))

theorem sigmaV_apply (s0 : FVec Ideal S2x1x4 .f32) (j : S_.Idx) : sigmaV s0 j = scaleE s0 := by
  unfold sigmaV scaleE
  simp only [subf_apply, maximumf_apply, minimumf_apply, scal_apply]

/-- %15 and %20: the two sums of squares. -/
def qsV (s0 : FVec Ideal S2x1x4 .f32) : FVec Ideal S_ .f32 :=
  addf (scal s0 0 2 slices_S2x1x4_S1x1x1_0_0_2 shapeCasts_S1x1x1_S_)
    (scal s0 1 2 slices_S2x1x4_S1x1x1_1_0_2 shapeCasts_S1x1x1_S_)
def qtV (s0 : FVec Ideal S2x1x4 .f32) : FVec Ideal S_ .f32 :=
  addf (scal s0 0 3 slices_S2x1x4_S1x1x1_0_0_3 shapeCasts_S1x1x1_S_)
    (scal s0 1 3 slices_S2x1x4_S1x1x1_1_0_3 shapeCasts_S1x1x1_S_)

theorem qsV_apply (s0 : FVec Ideal S2x1x4 .f32) (j : S_.Idx) : qsV s0 j = sqE s0 2 := by
  unfold qsV sqE
  simp only [addf_apply, scal_apply]
theorem qtV_apply (s0 : FVec Ideal S2x1x4 .f32) (j : S_.Idx) : qtV s0 j = sqE s0 3 := by
  unfold qtV sqE
  simp only [addf_apply, scal_apply]

/-- %25 / %30: the column sums of one input. -/
def colV (a : FVec Ideal S2x1x256 .f32) : FVec Ideal S256 .f32 :=
  addf (row a 0 slices_S2x1x256_S1x1x256_0_0_0 shapeCasts_S1x1x256_S256)
    (row a 1 slices_S2x1x256_S1x1x256_1_0_0 shapeCasts_S1x1x256_S256)

/-- %33 / %35: the column sums over the range. -/
def csV (s0 : FVec Ideal S2x1x4 .f32) (a : FVec Ideal S2x1x256 .f32) : FVec Ideal S256 .f32 :=
  Host.divf (F := Ideal) (colV a) (broadcastInDim S256 ![] bcast_S_S256 (sigmaV s0))

theorem csV_apply (s0 : FVec Ideal S2x1x4 .f32) (a : FVec Ideal S2x1x256 .f32) (d : Fin 256) :
    csV s0 a (ix1 d) = Ideal.div (colE a d) (scaleE s0) := by
  have hb : broadcastInDim S256 ![] bcast_S_S256 (sigmaV s0) (ix1 d) = sigmaV s0 ix0 :=
    broadcastInDim_scalar_apply bcast_S_S256 (sigmaV s0) (ix1 d)
  unfold csV colV colE
  simp only [hostDivf_apply, addf_apply, row_apply, hb, sigmaV_apply]

/-- %40: the two sums of squares over the squared range, added. -/
def qV (s0 : FVec Ideal S2x1x4 .f32) : FVec Ideal S_ .f32 :=
  addf (Host.divf (F := Ideal) (qsV s0) (mulf (sigmaV s0) (sigmaV s0)))
    (Host.divf (F := Ideal) (qtV s0) (mulf (sigmaV s0) (sigmaV s0)))

/-- %43: the squared norm of the sum of the two scaled column-sum vectors. -/
def sumV (s0 : FVec Ideal S2x1x4 .f32) (a b : FVec Ideal S2x1x256 .f32) : FVec Ideal S_ .f32 :=
  Host.reduceAdd (F := Ideal) (mulf (addf (csV s0 a) (csV s0 b)) (addf (csV s0 a) (csV s0 b)))
    (constant (F := Ideal) S_ .f32 0x00000000#32) reducesTo_S256_S_d0 h_S_

/-- %49: the bandwidth. -/
def wV (s0 : FVec Ideal S2x1x4 .f32) (a b : FVec Ideal S2x1x256 .f32) : FVec Ideal S_ .f32 :=
  Host.divf (F := Ideal)
    (Host.divf (F := Ideal)
      (Host.divf (F := Ideal)
        (subf (mulf (constant (F := Ideal) S_ .f32 0x46800000#32) (qV s0))
          (mulf (constant (F := Ideal) S_ .f32 0x40000000#32) (sumV s0 a b)))
        (constant (F := Ideal) S_ .f32 0x43800000#32))
      (constant (F := Ideal) S_ .f32 0x4C7FF800#32))
    (constant (F := Ideal) S_ .f32 0x40800000#32)

/-- %51: one over the bandwidth times one. -/
def e51V (s0 : FVec Ideal S2x1x4 .f32) (a b : FVec Ideal S2x1x256 .f32) : FVec Ideal S_ .f32 :=
  Host.divf (F := Ideal) (constant (F := Ideal) S_ .f32 0x3F800000#32)
    (mulf (wV s0 a b) (constant (F := Ideal) S_ .f32 0x3F800000#32))

/-- %64: the weight, from the bandwidth w and the first quotient e. -/
def inv1 (w e : FVec Ideal S_ .f32) : FVec Ideal S_ .f32 :=
  addf
    (addf
      (addf
        (addf
          (addf (constant (F := Ideal) S_ .f32 0x00000000#32) e)
          (Host.divf (F := Ideal) (constant (F := Ideal) S_ .f32 0x3F800000#32)
            (mulf w (constant (F := Ideal) S_ .f32 0x40000000#32))))
        (Host.divf (F := Ideal) (constant (F := Ideal) S_ .f32 0x3F800000#32)
          (mulf w (constant (F := Ideal) S_ .f32 0x40800000#32))))
      (Host.divf (F := Ideal) (constant (F := Ideal) S_ .f32 0x3F800000#32)
        (mulf w (constant (F := Ideal) S_ .f32 0x41000000#32))))
    (Host.divf (F := Ideal) (constant (F := Ideal) S_ .f32 0x3F800000#32)
      (mulf w (constant (F := Ideal) S_ .f32 0x41800000#32)))

/-- %70: the result, from the bandwidth, the first quotient and the two scaled column-sum vectors. -/
def out1 (w e : FVec Ideal S_ .f32) (cs ct : FVec Ideal S256 .f32) : FVec Ideal S_ .f32 :=
  mulf
    (Host.divf (F := Ideal) (mulf (inv1 w e) (constant (F := Ideal) S_ .f32 0x40000000#32))
      (constant (F := Ideal) S_ .f32 0x4F800000#32))
    (Host.reduceAdd (F := Ideal) (mulf (subf cs ct) (subf cs ct))
      (constant (F := Ideal) S_ .f32 0x00000000#32) reducesTo_S256_S_d0 h_S_)

/-- The result as a function of the region's three results. -/
def outV (s0 : FVec Ideal S2x1x4 .f32) (a b : FVec Ideal S2x1x256 .f32) : FVec Ideal S_ .f32 :=
  out1 (wV s0 a b) (e51V s0 a b) (csV s0 a) (csV s0 b)

/-! ## The result as the closed form -/

/-- The operations' composed function is the closed form of the five scalars and vectors. -/
theorem outV_value (s0 : FVec Ideal S2x1x4 .f32) (a b : FVec Ideal S2x1x256 .f32) :
    outV s0 a b = fun _ => Cert.Mmd.kerVal (scaleE s0) (fun d => colE a d) (fun d => colE b d) (sqE s0 2) (sqE s0 3) := by
  funext j
  unfold outV out1 inv1 e51V wV sumV qV
  simp only [mulf_apply, addf_apply, subf_apply, hostDivf_apply, constant_apply, reduce_apply, csV_apply,
    sigmaV_apply, qsV_apply, qtV_apply,
    ofBits_zero, ofBits_1, ofBits_2, ofBits_4, ofBits_8, ofBits_16, ofBits_256, ofBits_16384, ofBits_67100672,
    ofBits_4294967296]
  unfold Cert.Mmd.kerVal Cert.Mmd.invBwSum Cert.Mmd.bandwidth
  rw [EReal.coe_one]

/-! ## The operations over the buffers -/

/-- The second stretch, over any contents: the result from four of the first stretch's values. -/
theorem part1_eq (W1 : Valuation τ sig (Elt Ideal)) :
    (StableHlo.after (main_part1_ops0 (F := Ideal)) W1 (Proc.devRef .tc main_v70) : FVec Ideal S_ .f32)
      = out1 (W1 (Proc.devRef .tc main_v49)) (W1 (Proc.devRef .tc main_v51))
          (W1 (Proc.devRef .tc main_v33)) (W1 (Proc.devRef .tc main_v35)) := by
  after_results_simp
  rfl

/-- The first stretch leaves the bandwidth in %49. -/
theorem part0_v49 (W : Valuation τ sig (Elt Ideal)) :
    (StableHlo.after (main_part0_ops0 (F := Ideal)) W (Proc.devRef .tc main_v49) : FVec Ideal S_ .f32)
      = wV (W (Proc.devRef .tc main_v0_0)) (W (Proc.devRef .tc main_v0_1)) (W (Proc.devRef .tc main_v0_2)) := by
  after_results_simp
  rfl

/-- The first stretch leaves the first quotient in %51. -/
theorem part0_v51 (W : Valuation τ sig (Elt Ideal)) :
    (StableHlo.after (main_part0_ops0 (F := Ideal)) W (Proc.devRef .tc main_v51) : FVec Ideal S_ .f32)
      = e51V (W (Proc.devRef .tc main_v0_0)) (W (Proc.devRef .tc main_v0_1)) (W (Proc.devRef .tc main_v0_2)) := by
  after_results_simp
  rfl

/-- The first stretch leaves the first input's scaled column sums in %33. -/
theorem part0_v33 (W : Valuation τ sig (Elt Ideal)) :
    (StableHlo.after (main_part0_ops0 (F := Ideal)) W (Proc.devRef .tc main_v33) : FVec Ideal S256 .f32)
      = csV (W (Proc.devRef .tc main_v0_0)) (W (Proc.devRef .tc main_v0_1)) := by
  after_results_simp
  rfl

/-- The first stretch leaves the second input's scaled column sums in %35. -/
theorem part0_v35 (W : Valuation τ sig (Elt Ideal)) :
    (StableHlo.after (main_part0_ops0 (F := Ideal)) W (Proc.devRef .tc main_v35) : FVec Ideal S256 .f32)
      = csV (W (Proc.devRef .tc main_v0_0)) (W (Proc.devRef .tc main_v0_2)) := by
  after_results_simp
  rfl

/-- What the ninety host operations leave in the result's buffer: the closed form of the region's results. -/
theorem tail_value_defs (W : Valuation τ sig (Elt Ideal)) :
    (StableHlo.after (Cert.KernelIdeal.Fr.tail (F := Ideal)).flatten W (Proc.devRef .tc main_v70) : FVec Ideal S_ .f32)
      = fun _ => Cert.Mmd.kerVal
          (scaleE (W (Proc.devRef .tc main_v0_0)))
          (fun d => colE (W (Proc.devRef .tc main_v0_1)) d) (fun d => colE (W (Proc.devRef .tc main_v0_2)) d)
          (sqE (W (Proc.devRef .tc main_v0_0)) 2) (sqE (W (Proc.devRef .tc main_v0_0)) 3) := by
  refine Eq.trans ?_ (outV_value _ _ _)
  simp only [Cert.KernelIdeal.Fr.tail, List.flatten_cons, List.flatten_nil, List.append_nil]
  rw [StableHlo.after_append, part1_eq, part0_v49, part0_v51, part0_v33, part0_v35]
  rfl

/-- Entry (c, 0, k) of the region's first result: per core c, its maximum, minimum and two sums of squares. -/
def statS (W : Valuation τ sig (Elt Ideal)) (c : Fin 2) (k : Fin 4) : EReal :=
  (W (Proc.devRef .tc main_v0_0) : FVec Ideal S2x1x4 .f32) (ix3 c 0 k)

/-- Entry (c, 0, d) of the region's second result: core c's sum of column d of the first input. -/
def colA (W : Valuation τ sig (Elt Ideal)) (c : Fin 2) (d : Fin 256) : EReal :=
  (W (Proc.devRef .tc main_v0_1) : FVec Ideal S2x1x256 .f32) (ix3 c 0 d)

/-- Entry (c, 0, d) of the region's third result: core c's sum of column d of the second input. -/
def colB (W : Valuation τ sig (Elt Ideal)) (c : Fin 2) (d : Fin 256) : EReal :=
  (W (Proc.devRef .tc main_v0_2) : FVec Ideal S2x1x256 .f32) (ix3 c 0 d)

/-- The same with the five arguments written out over the entries of the region's results: the range is
    max(S(0,0), S(1,0)) - min(S(0,1), S(1,1)), the column sums are A(0,d) + A(1,d) and B(0,d) + B(1,d), and the sums
    of squares are S(0,2) + S(1,2) and S(0,3) + S(1,3). -/
theorem tail_value (W : Valuation τ sig (Elt Ideal)) :
    (StableHlo.after (Cert.KernelIdeal.Fr.tail (F := Ideal)).flatten W (Proc.devRef .tc main_v70) : FVec Ideal S_ .f32)
      = fun _ => Cert.Mmd.kerVal
          (max (statS W 0 0) (statS W 1 0) - min (statS W 0 1) (statS W 1 1))
          (fun d => colA W 0 d + colA W 1 d) (fun d => colB W 0 d + colB W 1 d)
          (statS W 0 2 + statS W 1 2) (statS W 0 3 + statS W 1 3) :=
  tail_value_defs W

end Cert.KernelIdeal.TailValue

end
-- ==== Proof.BlockSums.lean ====
/-
  An array of 4096 rows read as four consecutive blocks of 1024 rows: the maximum, the minimum, the sum of
  squares and the column sums of the whole array are the combinations of the four blocks' values, two blocks
  accumulated from the neutral value on each side and the two sides combined. The entries are arbitrary
  extended reals. Every row index i < 4096 is 1024 k + r for exactly one block k < 4 and one r < 1024, so a
  supremum, an infimum or a sum over the rows is the one over the pairs (k, r).
-/
import proofs.«119928_j66408784331046_2_alg».proof.Proof.Spec

noncomputable section

namespace Cert.Mmd

open Idealize.ShloMosaic

/-- Row r of block k. -/
def blockRow (k : Fin 4) (r : Fin 1024) : Fin 4096 := ⟨1024 * k.val + r.val, by have := k.isLt; have := r.isLt; omega⟩

def bmax (a : Fin 4096 → Fin 256 → EReal) (k : Fin 4) : EReal :=
  (Finset.univ : Finset (Fin 1024)).fold max ⊥ (fun r => (Finset.univ : Finset (Fin 256)).fold max ⊥ (fun d => a (blockRow k r) d))

def bmin (a : Fin 4096 → Fin 256 → EReal) (k : Fin 4) : EReal :=
  (Finset.univ : Finset (Fin 1024)).fold min ⊤ (fun r => (Finset.univ : Finset (Fin 256)).fold min ⊤ (fun d => a (blockRow k r) d))

def bsq (a : Fin 4096 → Fin 256 → EReal) (k : Fin 4) : EReal := ∑ r : Fin 1024, ∑ d : Fin 256, a (blockRow k r) d * a (blockRow k r) d

def bcol (a : Fin 4096 → Fin 256 → EReal) (k : Fin 4) (d : Fin 256) : EReal := ∑ r : Fin 1024, a (blockRow k r) d

/-- Every row lies in a block: i = 1024 (i / 1024) + i mod 1024. -/
theorem blockRow_surj (i : Fin 4096) : ∃ k r, blockRow k r = i := by
  have hi := i.isLt
  refine ⟨⟨i.val / 1024, by omega⟩, ⟨i.val % 1024, Nat.mod_lt _ (by norm_num)⟩, Fin.ext ?_⟩
  exact Nat.div_add_mod i.val 1024

/-- The pairs (block, row in the block) correspond one to one to the rows. -/
theorem blockRow_bijective : Function.Bijective (fun p : Fin 4 × Fin 1024 => blockRow p.1 p.2) := by
  constructor
  · rintro ⟨k, r⟩ ⟨k', r'⟩ h
    have h' : 1024 * k.val + r.val = 1024 * k'.val + r'.val := congrArg Fin.val h
    have hr := r.isLt
    have hr' := r'.isLt
    have hk : k.val = k'.val := by omega
    have hrr : r.val = r'.val := by omega
    exact Prod.ext (Fin.ext hk) (Fin.ext hrr)
  · intro i
    obtain ⟨k, r, h⟩ := blockRow_surj i
    exact ⟨(k, r), h⟩

/-- A sum over the rows is the sum over the blocks of the sums over each block's rows. -/
theorem sum_blocks {M : Type} [AddCommMonoid M] (f : Fin 4096 → M) :
    ∑ i, f i = ∑ k : Fin 4, ∑ r : Fin 1024, f (blockRow k r) :=
  (Fintype.sum_bijective (fun p : Fin 4 × Fin 1024 => blockRow p.1 p.2) blockRow_bijective
    (fun p => f (blockRow p.1 p.2)) f (fun _ => rfl)).symm.trans
    (Fintype.sum_prod_type' (fun k r => f (blockRow k r)))

/-- The sum of four block values, two and two from zero, is the sum over the rows. -/
theorem sum_four_blocks {M : Type} [AddCommMonoid M] (f : Fin 4096 → M) :
    ((0 + ∑ r : Fin 1024, f (blockRow 0 r)) + ∑ r : Fin 1024, f (blockRow 1 r))
        + ((0 + ∑ r : Fin 1024, f (blockRow 2 r)) + ∑ r : Fin 1024, f (blockRow 3 r))
      = ∑ i, f i := by
  rw [sum_blocks, Fin.sum_univ_four, zero_add, zero_add]
  exact (add_assoc _ _ _).symm

theorem sq_blocks (a : Fin 4096 → Fin 256 → EReal) :
    ((0 + bsq a 0) + bsq a 1) + ((0 + bsq a 2) + bsq a 3) = ∑ i : Fin 4096, ∑ d : Fin 256, a i d * a i d :=
  sum_four_blocks (fun i => ∑ d : Fin 256, a i d * a i d)

theorem col_blocks (a : Fin 4096 → Fin 256 → EReal) (d : Fin 256) :
    ((0 + bcol a 0 d) + bcol a 1 d) + ((0 + bcol a 2 d) + bcol a 3 d) = ∑ i : Fin 4096, a i d :=
  sum_four_blocks (fun i => a i d)

/-- Folding the maximum from -∞ over all indices is the supremum. -/
theorem fold_max_univ {α : Type} [Fintype α] (f : α → EReal) :
    (Finset.univ : Finset α).fold max ⊥ f = ⨆ i, f i :=
  Finset.sup_univ_eq_iSup f

/-- Folding the minimum from +∞ over all indices is the infimum. -/
theorem fold_min_univ {α : Type} [Fintype α] (f : α → EReal) :
    (Finset.univ : Finset α).fold min ⊤ f = ⨅ i, f i :=
  Finset.inf_univ_eq_iInf f

/-- The maximum of a block is the supremum of its entries. -/
theorem bmax_eq (a : Fin 4096 → Fin 256 → EReal) (k : Fin 4) :
    bmax a k = ⨆ r : Fin 1024, ⨆ d : Fin 256, a (blockRow k r) d := by
  unfold bmax
  rw [fold_max_univ]
  exact iSup_congr (fun r => fold_max_univ _)

/-- The minimum of a block is the infimum of its entries. -/
theorem bmin_eq (a : Fin 4096 → Fin 256 → EReal) (k : Fin 4) :
    bmin a k = ⨅ r : Fin 1024, ⨅ d : Fin 256, a (blockRow k r) d := by
  unfold bmin
  rw [fold_min_univ]
  exact iInf_congr (fun r => fold_min_univ _)

/-- Each of four values is at most their maximum taken two and two from -∞. -/
theorem le_max_four (g : Fin 4 → EReal) (k : Fin 4) :
    g k ≤ max (max (max ⊥ (g 0)) (g 1)) (max (max ⊥ (g 2)) (g 3)) := by
  fin_cases k
  · exact le_max_of_le_left (le_max_of_le_left (le_max_right _ _))
  · exact le_max_of_le_left (le_max_right _ _)
  · exact le_max_of_le_right (le_max_of_le_left (le_max_right _ _))
  · exact le_max_of_le_right (le_max_right _ _)

/-- Each of four values is at least their minimum taken two and two from +∞. -/
theorem min_four_le (g : Fin 4 → EReal) (k : Fin 4) :
    min (min (min ⊤ (g 0)) (g 1)) (min (min ⊤ (g 2)) (g 3)) ≤ g k := by
  fin_cases k
  · exact min_le_of_left_le (min_le_of_left_le (min_le_right _ _))
  · exact min_le_of_left_le (min_le_right _ _)
  · exact min_le_of_right_le (min_le_of_left_le (min_le_right _ _))
  · exact min_le_of_right_le (min_le_right _ _)

theorem hi_blocks (a : Fin 4096 → Fin 256 → EReal) :
    max (max (max ⊥ (bmax a 0)) (bmax a 1)) (max (max ⊥ (bmax a 2)) (bmax a 3)) = hiOf a := by
  have hle : ∀ k, bmax a k ≤ hiOf a := fun k => by
    rw [bmax_eq]
    exact iSup_le (fun r => le_iSup (fun i => ⨆ d : Fin 256, a i d) (blockRow k r))
  apply le_antisymm
  · exact max_le (max_le (max_le bot_le (hle 0)) (hle 1)) (max_le (max_le bot_le (hle 2)) (hle 3))
  · unfold hiOf
    refine iSup_le (fun i => ?_)
    obtain ⟨k, r, rfl⟩ := blockRow_surj i
    refine le_trans ?_ (le_max_four (bmax a) k)
    rw [bmax_eq]
    exact le_iSup (fun r => ⨆ d : Fin 256, a (blockRow k r) d) r

theorem lo_blocks (a : Fin 4096 → Fin 256 → EReal) :
    min (min (min ⊤ (bmin a 0)) (bmin a 1)) (min (min ⊤ (bmin a 2)) (bmin a 3)) = loOf a := by
  have hle : ∀ k, loOf a ≤ bmin a k := fun k => by
    rw [bmin_eq]
    exact le_iInf (fun r => iInf_le (fun i => ⨅ d : Fin 256, a i d) (blockRow k r))
  apply le_antisymm
  · unfold loOf
    refine le_iInf (fun i => ?_)
    obtain ⟨k, r, rfl⟩ := blockRow_surj i
    refine le_trans (min_four_le (bmin a) k) ?_
    rw [bmin_eq]
    exact iInf_le (fun r => ⨅ d : Fin 256, a (blockRow k r) d) r
  · exact le_min (le_min (le_min le_top (hle 0)) (hle 1)) (le_min (le_min le_top (hle 2)) (hle 3))

end Cert.Mmd

end
-- ==== Proof.Entries.lean ====
/-
  Entry (i, d) of a 4096 x 256 array held as a function of its rank-2 index, and the same array back from its
  entries: how both programs' inputs are handed to the plain functions of the specification.
-/
import Idealize.ShloMosaic.PureOps.Ideal
import Idealize.ShloMosaic.Lib.ValueIdx

noncomputable section

namespace Cert.Mmd

open Idealize.ShloMosaic Idealize.ShloMosaic.ValueIdx

/-- The entries of an input: row `i`, feature `d`. -/
def entries (x : (⟨2, ![4096, 256]⟩ : Shape).Idx → EReal) : Fin 4096 → Fin 256 → EReal :=
  fun i d => x (ix2 i d)

theorem entries_apply (x : (⟨2, ![4096, 256]⟩ : Shape).Idx → EReal) (j : (⟨2, ![4096, 256]⟩ : Shape).Idx) :
    x j = entries x (j 0) (j 1) := by
  exact congrArg x (eq_ix2 j)

end Cert.Mmd

end
-- ==== Proof.MmdAlgebra.lean ====
/-
  The closed form of the linear-kernel MMD loss agrees with its definition through all squared distances,
  on the extended reals, for real inputs and any real scale.

  With n = 8192 stacked rows T (the rows of the first input over the scale, then those of the second),
  the definition forms L2(i,j) = (|T_i|² + |T_j|² - 2 T_i·T_j) / 256, the bandwidth from the total of the
  L2(i,j), the weight s of the bandwidth, and the mean of the signed block sum of -L2 · s. The closed form
  uses only the sums A, B of the rows of the two halves and the sums P, P' of their squared norms:
    ∑_{i,j} L2(i,j) = (2 n (P + P') - 2 |A + B|²) / 256,
    ∑_{i,j < n/2} (L2(i,j) + L2(n/2+i,n/2+j) - L2(i,n/2+j) - L2(n/2+i,j)) = -2 |A - B|² / 256.
  Three cases. Scale zero: every quotient is an infinity, the total is -∞ on both sides, the weight is 0, both
  results are 0. Scale nonzero and total zero: all rows are equal, every L2 is 0 and A = B; the weight is +∞,
  but it multiplies 0 on both sides. Scale nonzero and total nonzero: everything is a real number and the two
  identities above give the same value.
-/
import proofs.«119928_j66408784331046_2_alg».proof.Proof.Spec

noncomputable section

namespace Cert.Mmd

open Idealize.ShloMosaic

/-! ## Identities over the real numbers

The squared distance of two real vectors, and the two double sums the programs take of it, over arbitrary
finite index sets. -/

section RealIdentities

variable {ι ι' κ : Type} [Fintype ι] [Fintype ι'] [Fintype κ]

/-- The squared distance (|u|² + |v|² - 2 u·v) / 256 of two real vectors, as the programs associate it. -/
def distR (u v : κ → ℝ) : ℝ :=
  (((∑ d, u d * u d) + (∑ d, v d * v d)) - 2 * (∑ d, u d * v d)) * (1 / 256)

/-- A double sum of inner products is the inner product of the two sums. -/
theorem sum_sum_inner (U : ι → κ → ℝ) (V : ι' → κ → ℝ) :
    ∑ i, ∑ j, ∑ d, U i d * V j d = ∑ d, (∑ i, U i d) * (∑ j, V j d) := by
  calc ∑ i, ∑ j, ∑ d, U i d * V j d
      = ∑ i, ∑ d, ∑ j, U i d * V j d := Finset.sum_congr rfl (fun i _ => Finset.sum_comm)
    _ = ∑ d, ∑ i, ∑ j, U i d * V j d := Finset.sum_comm
    _ = ∑ d, (∑ i, U i d) * (∑ j, V j d) :=
        Finset.sum_congr rfl (fun d _ => (Finset.sum_mul_sum _ _ _ _).symm)

/-- The sum of all squared distances between two families of vectors. -/
theorem sum_distR (U : ι → κ → ℝ) (V : ι' → κ → ℝ) :
    ∑ i, ∑ j, distR (U i) (V j)
      = (((Fintype.card ι' : ℝ) * (∑ i, ∑ d, U i d * U i d)
            + (Fintype.card ι : ℝ) * (∑ j, ∑ d, V j d * V j d))
          - 2 * ∑ d, (∑ i, U i d) * (∑ j, V j d)) * (1 / 256) := by
  unfold distR
  simp only [← Finset.sum_mul]
  congr 1
  simp only [Finset.sum_sub_distrib, Finset.sum_add_distrib, ← Finset.mul_sum, Finset.sum_const,
    Finset.card_univ, nsmul_eq_mul]
  rw [sum_sum_inner, Finset.mul_sum]

/-- The square of a sum of two vectors, summed over the coordinates. -/
theorem sum_add_sq (A B : κ → ℝ) :
    ∑ d, (A d + B d) * (A d + B d)
      = ((∑ d, A d * A d) + 2 * (∑ d, A d * B d)) + ∑ d, B d * B d := by
  rw [Finset.mul_sum, ← Finset.sum_add_distrib, ← Finset.sum_add_distrib]
  exact Finset.sum_congr rfl (fun d _ => by ring)

/-- The square of a difference of two vectors, summed over the coordinates. -/
theorem sum_sub_sq (A B : κ → ℝ) :
    ∑ d, (A d - B d) * (A d - B d)
      = ((∑ d, A d * A d) - 2 * (∑ d, A d * B d)) + ∑ d, B d * B d := by
  rw [Finset.mul_sum, ← Finset.sum_sub_distrib, ← Finset.sum_add_distrib]
  exact Finset.sum_congr rfl (fun d _ => by ring)

/-- The inner product is symmetric. -/
theorem sum_mul_comm' (A B : κ → ℝ) : ∑ d, B d * A d = ∑ d, A d * B d :=
  Finset.sum_congr rfl (fun d _ => mul_comm _ _)

/-- The total of all squared distances among the rows of two stacked families X, Y of equally many vectors:
with P, P' the sums of the squared norms and A, B the sums of the vectors, it is
(4 n (P + P') - 2 |A + B|²) / 256. -/
theorem total_distR (X Y : ι → κ → ℝ) :
    ((∑ i, ∑ j, distR (X i) (X j)) + (∑ i, ∑ j, distR (X i) (Y j)))
        + ((∑ i, ∑ j, distR (Y i) (X j)) + (∑ i, ∑ j, distR (Y i) (Y j)))
      = ((4 * (Fintype.card ι : ℝ)) * ((∑ i, ∑ d, X i d * X i d) + (∑ i, ∑ d, Y i d * Y i d))
          - 2 * ∑ d, ((∑ i, X i d) + (∑ i, Y i d)) * ((∑ i, X i d) + (∑ i, Y i d))) * (1 / 256) := by
  rw [sum_distR, sum_distR, sum_distR, sum_distR, sum_add_sq,
    sum_mul_comm' (fun d => ∑ i, X i d) (fun d => ∑ i, Y i d)]
  ring

/-- The signed block sum of the squared distances: within the two families minus across them, it is
-2 |A - B|² / 256. -/
theorem block_distR (X Y : ι → κ → ℝ) :
    (((∑ i, ∑ j, distR (X i) (X j)) + (∑ i, ∑ j, distR (Y i) (Y j)))
        - (∑ i, ∑ j, distR (X i) (Y j))) - (∑ i, ∑ j, distR (Y i) (X j))
      = -(2 * ∑ d, ((∑ i, X i d) - (∑ i, Y i d)) * ((∑ i, X i d) - (∑ i, Y i d))) * (1 / 256) := by
  rw [sum_distR, sum_distR, sum_distR, sum_distR, sum_sub_sq,
    sum_mul_comm' (fun d => ∑ i, X i d) (fun d => ∑ i, Y i d)]
  ring

/-- A squared distance is not negative. -/
theorem distR_nonneg (u v : κ → ℝ) : 0 ≤ distR u v := by
  have h : distR u v = (∑ d, (u d - v d) * (u d - v d)) * (1 / 256) := by
    unfold distR
    rw [sum_sub_sq]
    ring
  rw [h]
  exact mul_nonneg (Finset.sum_nonneg (fun d _ => mul_self_nonneg _)) (by norm_num)

end RealIdentities

/-! ## Arithmetic of the extended reals used below -/

section Basics

/-- The coercion of a finite sum of reals is the sum of the coercions. -/
theorem coe_sum {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum one of whose terms is -∞ is -∞. -/
theorem sum_eq_bot {α : Type} (s : Finset α) (f : α → EReal) {a : α} (ha : a ∈ s) (h : f a = ⊥) :
    ∑ i ∈ s, f i = ⊥ := by
  classical
  rw [← Finset.add_sum_erase s f ha, h, EReal.bot_add]

/-- A nonempty finite sum all of whose terms are +∞ is +∞. -/
theorem sum_eq_top {α : Type} (s : Finset α) (hs : s.Nonempty) (f : α → EReal) (hf : ∀ i ∈ s, f i = ⊤) :
    ∑ i ∈ s, f i = ⊤ := by
  classical
  induction hs using Finset.Nonempty.cons_induction with
  | singleton a => rw [Finset.sum_singleton]; exact hf a (Finset.mem_singleton_self a)
  | cons a s ha hs ih =>
    rw [Finset.sum_cons, hf a (Finset.mem_cons_self a s),
      ih (fun i hi => hf i (Finset.mem_cons.2 (Or.inr hi)))]
    exact EReal.top_add_top

/-- A quotient by zero is an infinity. -/
theorem div_zero_inf (x : EReal) : Ideal.div x 0 = ⊤ ∨ Ideal.div x 0 = ⊥ := by
  unfold Ideal.div
  rw [if_pos rfl]
  by_cases h : 0 < x
  · left; rw [if_pos h]
  · right; rw [if_neg h]

/-- The square of an infinity is +∞. -/
theorem inf_mul_self {z : EReal} (h : z = ⊤ ∨ z = ⊥) : z * z = ⊤ := by
  rcases h with h | h
  · rw [h]; exact EReal.top_mul_top
  · rw [h]; exact EReal.bot_mul_bot

/-- The sum of two infinities is an infinity. -/
theorem inf_add_inf {z w : EReal} (hz : z = ⊤ ∨ z = ⊥) (hw : w = ⊤ ∨ w = ⊥) : z + w = ⊤ ∨ z + w = ⊥ := by
  rcases hz with hz | hz <;> rcases hw with hw | hw <;> rw [hz, hw]
  · left; exact EReal.top_add_top
  · right; exact EReal.add_bot _
  · right; exact EReal.bot_add _
  · right; exact EReal.bot_add _

/-- The quotient of two reals, the divisor not zero. -/
theorem div_coe_coe (a : ℝ) {b : ℝ} (hb : b ≠ 0) :
    Ideal.div (a : EReal) (b : EReal) = ((a * (1 / b) : ℝ) : EReal) := by
  rw [Ideal.div_coe hb, ← EReal.coe_mul]

/-- -∞ over a positive real is -∞. -/
theorem div_bot_pos {y : ℝ} (hy : 0 < y) : Ideal.div ⊥ (y : EReal) = ⊥ := by
  rw [Ideal.div_coe hy.ne', EReal.bot_mul_coe_of_pos (by positivity)]

/-- +∞ over a positive real is +∞. -/
theorem div_top_pos {y : ℝ} (hy : 0 < y) : Ideal.div ⊤ (y : EReal) = ⊤ := by
  rw [Ideal.div_coe hy.ne', EReal.top_mul_coe_of_pos (by positivity)]

/-- Zero over a nonzero real is zero. -/
theorem div_zero_coe {y : ℝ} (hy : y ≠ 0) : Ideal.div 0 (y : EReal) = 0 := by
  rw [Ideal.div_coe hy, zero_mul]

/-- One over -∞ is zero. -/
theorem div_one_bot : Ideal.div 1 ⊥ = 0 := by
  unfold Ideal.div
  rw [if_neg EReal.bot_ne_zero, EReal.inv_bot, mul_zero]

/-- One over zero is +∞. -/
theorem div_one_zero : Ideal.div 1 0 = ⊤ := by
  unfold Ideal.div
  rw [if_pos rfl, if_pos zero_lt_one]

/-- The bandwidth of -∞ is -∞. -/
theorem bandwidth_bot : bandwidth ⊥ = ⊥ := by
  unfold bandwidth
  rw [div_bot_pos (by norm_num), div_bot_pos (by norm_num)]

/-- The bandwidth of a real total is a real. -/
theorem bandwidth_coe (t : ℝ) :
    bandwidth (t : EReal) = ((t * (1 / 67100672) * (1 / 4) : ℝ) : EReal) := by
  unfold bandwidth
  rw [div_coe_coe _ (by norm_num), div_coe_coe _ (by norm_num)]

/-- The weight of the bandwidth -∞ is zero. -/
theorem invBwSum_bot : invBwSum ⊥ = 0 := by
  unfold invBwSum
  rw [EReal.bot_mul_coe_of_pos (by norm_num), EReal.bot_mul_coe_of_pos (by norm_num),
    EReal.bot_mul_coe_of_pos (by norm_num), EReal.bot_mul_coe_of_pos (by norm_num),
    EReal.bot_mul_coe_of_pos (by norm_num), div_one_bot]
  simp only [add_zero]

/-- The weight of the bandwidth zero is +∞. -/
theorem invBwSum_zero : invBwSum 0 = ⊤ := by
  unfold invBwSum
  simp only [zero_mul, div_one_zero, zero_add]
  exact EReal.top_add_top.symm ▸ EReal.top_add_top.symm ▸ EReal.top_add_top.symm ▸ EReal.top_add_top

/-- The weight of a nonzero real bandwidth, as a real number. -/
def invBwR (w : ℝ) : ℝ :=
  ((((1 / (w * 1)) + (1 / (w * 2))) + (1 / (w * 4))) + (1 / (w * 8))) + (1 / (w * 16))

/-- One over a nonzero real. -/
theorem div_one_coe {y : ℝ} (hy : y ≠ 0) : Ideal.div 1 (y : EReal) = ((1 / y : ℝ) : EReal) := by
  rw [Ideal.div_coe hy, one_mul]

/-- The weight of a nonzero real bandwidth is a real. -/
theorem invBwSum_coe {w : ℝ} (hw : w ≠ 0) : invBwSum (w : EReal) = ((invBwR w : ℝ) : EReal) := by
  unfold invBwSum invBwR
  rw [← EReal.coe_mul, ← EReal.coe_mul, ← EReal.coe_mul, ← EReal.coe_mul, ← EReal.coe_mul,
    div_one_coe (mul_ne_zero hw (by norm_num)), div_one_coe (mul_ne_zero hw (by norm_num)),
    div_one_coe (mul_ne_zero hw (by norm_num)), div_one_coe (mul_ne_zero hw (by norm_num)),
    div_one_coe (mul_ne_zero hw (by norm_num)), zero_add,
    ← EReal.coe_add, ← EReal.coe_add, ← EReal.coe_add, ← EReal.coe_add]

end Basics

/-! ## The scale zero: both programs return zero -/

section ScaleZero

/-- Over the scale zero every entry of the stacked matrix is an infinity. -/
theorem stacked_zero_inf (a b : Fin 4096 → Fin 256 → EReal) (i : Fin 8192) (d : Fin 256) :
    stacked 0 a b i d = ⊤ ∨ stacked 0 a b i d = ⊥ := by
  unfold stacked
  split
  · exact div_zero_inf _
  · exact div_zero_inf _

/-- The squared norm of a row of infinities is +∞. -/
theorem sqNorm_of_inf (T : Fin 8192 → Fin 256 → EReal) (hT : ∀ i d, T i d = ⊤ ∨ T i d = ⊥)
    (i : Fin 8192) : sqNorm T i = ⊤ := by
  unfold sqNorm
  rw [zero_add]
  exact sum_eq_top _ Finset.univ_nonempty _ (fun d _ => inf_mul_self (hT i d))

/-- The squared distance of a row of infinities to itself is (∞ + ∞) - 2 ∞ = -∞. -/
theorem l2_self_of_inf (T : Fin 8192 → Fin 256 → EReal) (hT : ∀ i d, T i d = ⊤ ∨ T i d = ⊥)
    (i : Fin 8192) : l2 T i i = ⊥ := by
  have hg : gram T i i = ⊤ := sqNorm_of_inf T hT i
  unfold l2
  rw [sqNorm_of_inf T hT i, hg, EReal.top_add_top, EReal.coe_mul_top_of_pos (by norm_num),
    sub_eq_add_neg, EReal.neg_top, EReal.add_bot, div_bot_pos (by norm_num)]

/-- The total of the squared distances of a matrix of infinities is -∞. -/
theorem sumL2_of_inf (T : Fin 8192 → Fin 256 → EReal) (hT : ∀ i d, T i d = ⊤ ∨ T i d = ⊥) :
    sumL2 T = ⊥ := by
  unfold sumL2
  rw [zero_add]
  exact sum_eq_bot _ _ (Finset.mem_univ (⟨0, by norm_num⟩ : Fin 8192))
    (sum_eq_bot _ _ (Finset.mem_univ (⟨0, by norm_num⟩ : Fin 8192)) (l2_self_of_inf T hT _))

/-- If every kernel value is zero, the reference returns zero. -/
theorem refVal_of_kern_zero (σ : EReal) (a b : Fin 4096 → Fin 256 → EReal)
    (h : ∀ u v, kern (stacked σ a b) u v = 0) : refVal σ a b = 0 := by
  unfold refVal
  simp only [h, add_zero, sub_zero, Finset.sum_const_zero]
  exact div_zero_coe (by norm_num)

/-- Over the scale zero the reference returns zero. -/
theorem refVal_zero (a b : Fin 4096 → Fin 256 → EReal) : refVal 0 a b = 0 := by
  apply refVal_of_kern_zero
  intro u v
  unfold kern
  rw [sumL2_of_inf _ (stacked_zero_inf a b), bandwidth_bot, invBwSum_bot, mul_zero]

/-- Over the scale zero the kernel returns zero. -/
theorem kerVal_zero (cs ct : Fin 256 → EReal) (qs qt : EReal) : kerVal 0 cs ct qs qt = 0 := by
  have hsq : (0 + ∑ d : Fin 256,
      (Ideal.div (cs d) 0 + Ideal.div (ct d) 0) * (Ideal.div (cs d) 0 + Ideal.div (ct d) 0)) = ⊤ := by
    rw [zero_add]
    exact sum_eq_top _ Finset.univ_nonempty _
      (fun d _ => inf_mul_self (inf_add_inf (div_zero_inf _) (div_zero_inf _)))
  unfold kerVal
  rw [hsq, EReal.coe_mul_top_of_pos (by norm_num), sub_eq_add_neg, EReal.neg_top, EReal.add_bot,
    div_bot_pos (by norm_num), bandwidth_bot, invBwSum_bot, zero_mul, div_zero_coe (by norm_num), zero_mul]

end ScaleZero

/-! ## The range of a real input -/

section Range

/-- The supremum of finitely many reals in the extended reals is one of them. -/
theorem iSup_coe_attained {α : Type} [Fintype α] [Nonempty α] (f : α → ℝ) :
    ∃ a, (⨆ i, ((f i : ℝ) : EReal)) = ((f a : ℝ) : EReal) := by
  obtain ⟨a, -, ha⟩ := Finset.exists_max_image Finset.univ f Finset.univ_nonempty
  exact ⟨a, le_antisymm (iSup_le (fun i => EReal.coe_le_coe_iff.2 (ha i (Finset.mem_univ i))))
    (le_iSup (fun i => ((f i : ℝ) : EReal)) a)⟩

/-- The infimum of finitely many reals in the extended reals is one of them. -/
theorem iInf_coe_attained {α : Type} [Fintype α] [Nonempty α] (f : α → ℝ) :
    ∃ a, (⨅ i, ((f i : ℝ) : EReal)) = ((f a : ℝ) : EReal) := by
  obtain ⟨a, -, ha⟩ := Finset.exists_min_image Finset.univ f Finset.univ_nonempty
  exact ⟨a, le_antisymm (iInf_le (fun i => ((f i : ℝ) : EReal)) a)
    (le_iInf (fun i => EReal.coe_le_coe_iff.2 (ha i (Finset.mem_univ i))))⟩

/-- The largest entry of a real input is a real. -/
theorem hiOf_coe (x : Fin 4096 → Fin 256 → ℝ) :
    ∃ r : ℝ, hiOf (fun i d => ((x i d : ℝ) : EReal)) = (r : EReal) := by
  unfold hiOf
  choose g hg using fun i => iSup_coe_attained (x i)
  obtain ⟨a, ha⟩ := iSup_coe_attained (fun i => x i (g i))
  exact ⟨x a (g a), by simp only [hg]; exact ha⟩

/-- The smallest entry of a real input is a real. -/
theorem loOf_coe (x : Fin 4096 → Fin 256 → ℝ) :
    ∃ r : ℝ, loOf (fun i d => ((x i d : ℝ) : EReal)) = (r : EReal) := by
  unfold loOf
  choose g hg using fun i => iInf_coe_attained (x i)
  obtain ⟨a, ha⟩ := iInf_coe_attained (fun i => x i (g i))
  exact ⟨x a (g a), by simp only [hg]; exact ha⟩

/-- For real inputs the range is a real number. -/
theorem rangeOf_coe (x : Fin 4096 → Fin 256 → ℝ) :
    ∃ r : ℝ, rangeOf (fun i d => ((x i d : ℝ) : EReal)) = (r : EReal) := by
  obtain ⟨M, hM⟩ := hiOf_coe x
  obtain ⟨m, hm⟩ := loOf_coe x
  exact ⟨M - m, by unfold rangeOf; rw [hM, hm, EReal.coe_sub]⟩

end Range

/-! ## A nonzero scale: every intermediate value is a real number -/

section RealScale

/-- The stacked matrix of two real families of rows. -/
def stackedR (X Y : Fin 4096 → Fin 256 → ℝ) (i : Fin 8192) (d : Fin 256) : ℝ :=
  if h : i.val < 4096 then X ⟨i.val, h⟩ d
  else Y ⟨i.val - 4096, by have := i.isLt; omega⟩ d

/-- The first half of the stacked matrix is the first family. -/
theorem stackedR_lower (X Y : Fin 4096 → Fin 256 → ℝ) (i : Fin 4096) :
    stackedR X Y (lower i) = X i := by
  funext d
  have h : (lower i).val < 4096 := i.isLt
  unfold stackedR
  rw [dif_pos h]
  rfl

/-- The second half of the stacked matrix is the second family. -/
theorem stackedR_upper (X Y : Fin 4096 → Fin 256 → ℝ) (i : Fin 4096) :
    stackedR X Y (upper i) = Y i := by
  funext d
  have h : ¬ (upper i).val < 4096 := by
    show ¬ (i.val + 4096 < 4096)
    omega
  unfold stackedR
  rw [dif_neg h]
  exact congrArg (fun k => Y k d) (Fin.ext (Nat.add_sub_cancel i.val 4096))

/-- A sum over the 8192 stacked rows is the sum over the first half plus the sum over the second half. -/
theorem sum_fin_halves {M : Type} [AddCommMonoid M] (f : Fin 8192 → M) :
    ∑ i, f i = (∑ i : Fin 4096, f (lower i)) + ∑ i : Fin 4096, f (upper i) := by
  have h := Fin.sum_univ_add (a := 4096) (b := 4096) f
  refine h.trans (congrArg₂ (· + ·) ?_ ?_)
  · exact Finset.sum_congr rfl (fun i _ => congrArg f (Fin.ext rfl))
  · exact Finset.sum_congr rfl (fun i _ => congrArg f (Fin.ext (Nat.add_comm _ _)))

/-- The total of the squared distances of the stacked matrix, by halves. -/
theorem total_stackedR (X Y : Fin 4096 → Fin 256 → ℝ) :
    ∑ i : Fin 8192, ∑ j : Fin 8192, distR (stackedR X Y i) (stackedR X Y j)
      = ((∑ i, ∑ j, distR (X i) (X j)) + (∑ i, ∑ j, distR (X i) (Y j)))
        + ((∑ i, ∑ j, distR (Y i) (X j)) + (∑ i, ∑ j, distR (Y i) (Y j))) := by
  rw [sum_fin_halves]
  simp only [sum_fin_halves (M := ℝ), stackedR_lower, stackedR_upper, Finset.sum_add_distrib]

/-- Over a nonzero real scale the stacked matrix of real inputs is real. -/
theorem stacked_coe {σ : ℝ} (hσ : σ ≠ 0) (x y : Fin 4096 → Fin 256 → ℝ) :
    stacked (σ : EReal) (fun i d => ((x i d : ℝ) : EReal)) (fun i d => ((y i d : ℝ) : EReal))
      = fun i d => ((stackedR (fun i d => x i d * (1 / σ)) (fun i d => y i d * (1 / σ)) i d : ℝ) : EReal) := by
  funext i d
  unfold stacked stackedR
  by_cases h : i.val < 4096
  · rw [dif_pos h, dif_pos h, div_coe_coe _ hσ]
  · rw [dif_neg h, dif_neg h, div_coe_coe _ hσ]

/-- The squared norm of a real row. -/
theorem sqNorm_coe (R : Fin 8192 → Fin 256 → ℝ) (i : Fin 8192) :
    sqNorm (fun i d => ((R i d : ℝ) : EReal)) i = ((∑ d, R i d * R i d : ℝ) : EReal) := by
  unfold sqNorm
  rw [zero_add, coe_sum]
  simp only [EReal.coe_mul]

/-- The inner product of two real rows. -/
theorem gram_coe (R : Fin 8192 → Fin 256 → ℝ) (i j : Fin 8192) :
    gram (fun i d => ((R i d : ℝ) : EReal)) i j = ((∑ d, R i d * R j d : ℝ) : EReal) := by
  unfold gram
  rw [zero_add, coe_sum]
  simp only [EReal.coe_mul]

/-- The squared distance of two real rows. -/
theorem l2_coe (R : Fin 8192 → Fin 256 → ℝ) (i j : Fin 8192) :
    l2 (fun i d => ((R i d : ℝ) : EReal)) i j = ((distR (R i) (R j) : ℝ) : EReal) := by
  unfold l2 distR
  rw [sqNorm_coe, sqNorm_coe, gram_coe, ← EReal.coe_add, ← EReal.coe_mul, ← EReal.coe_sub,
    div_coe_coe _ (by norm_num)]

/-- The total of the squared distances of a real matrix. -/
theorem sumL2_coe (R : Fin 8192 → Fin 256 → ℝ) :
    sumL2 (fun i d => ((R i d : ℝ) : EReal)) = ((∑ i, ∑ j, distR (R i) (R j) : ℝ) : EReal) := by
  unfold sumL2
  rw [zero_add, coe_sum]
  refine Finset.sum_congr rfl (fun i _ => ?_)
  rw [coe_sum]
  exact Finset.sum_congr rfl (fun j _ => l2_coe R i j)

/-- The kernel value of two real rows, the weight left as it is. -/
theorem kern_coe (R : Fin 8192 → Fin 256 → ℝ) (u v : Fin 8192) :
    kern (fun i d => ((R i d : ℝ) : EReal)) u v
      = (-((distR (R u) (R v) : ℝ) : EReal))
          * invBwSum (bandwidth ((∑ i, ∑ j, distR (R i) (R j) : ℝ) : EReal)) := by
  unfold kern
  rw [l2_coe, sumL2_coe]

/-- The kernel's result over a nonzero real scale: the weight of a real total, times a real. -/
theorem kerVal_coe {σ : ℝ} (hσ : σ ≠ 0) (x y : Fin 4096 → Fin 256 → ℝ) :
    kerVal (σ : EReal)
        (fun d => ∑ i : Fin 4096, ((x i d : ℝ) : EReal)) (fun d => ∑ i : Fin 4096, ((y i d : ℝ) : EReal))
        (∑ i : Fin 4096, ∑ d : Fin 256, ((x i d : ℝ) : EReal) * ((x i d : ℝ) : EReal))
        (∑ i : Fin 4096, ∑ d : Fin 256, ((y i d : ℝ) : EReal) * ((y i d : ℝ) : EReal))
      = Ideal.div
          (invBwSum (bandwidth
            (((((16384 : ℝ) * ((∑ i, ∑ d, (x i d * (1 / σ)) * (x i d * (1 / σ)))
                  + (∑ i, ∑ d, (y i d * (1 / σ)) * (y i d * (1 / σ)))))
                - 2 * ∑ d, ((∑ i, x i d * (1 / σ)) + (∑ i, y i d * (1 / σ)))
                    * ((∑ i, x i d * (1 / σ)) + (∑ i, y i d * (1 / σ)))) * (1 / 256) : ℝ) : EReal))
            * ((2 : ℝ) : EReal))
          ((4294967296 : ℝ) : EReal)
        * ((∑ d, ((∑ i, x i d * (1 / σ)) - (∑ i, y i d * (1 / σ)))
              * ((∑ i, x i d * (1 / σ)) - (∑ i, y i d * (1 / σ))) : ℝ) : EReal) := by
  have hc : ∀ (z : Fin 4096 → Fin 256 → ℝ) (d : Fin 256),
      Ideal.div (∑ i : Fin 4096, ((z i d : ℝ) : EReal)) (σ : EReal)
        = ((∑ i, z i d * (1 / σ) : ℝ) : EReal) := by
    intro z d
    rw [← coe_sum, div_coe_coe _ hσ, Finset.sum_mul]
  have hq : ∀ (z : Fin 4096 → Fin 256 → ℝ),
      Ideal.div (∑ i : Fin 4096, ∑ d : Fin 256, ((z i d : ℝ) : EReal) * ((z i d : ℝ) : EReal))
          ((σ : EReal) * (σ : EReal))
        = ((∑ i, ∑ d, (z i d * (1 / σ)) * (z i d * (1 / σ)) : ℝ) : EReal) := by
    intro z
    simp only [← EReal.coe_mul, ← coe_sum]
    rw [div_coe_coe _ (mul_ne_zero hσ hσ), Finset.sum_mul]
    congr 1
    refine Finset.sum_congr rfl (fun i _ => ?_)
    rw [Finset.sum_mul]
    refine Finset.sum_congr rfl (fun d _ => ?_)
    field_simp
  unfold kerVal
  simp only [hc, hq]
  simp only [zero_add, ← EReal.coe_mul, ← EReal.coe_add, ← EReal.coe_sub, ← coe_sum]
  rw [div_coe_coe _ (by norm_num)]

end RealScale

/-! ## The two programs agree -/

section Agreement

/-- If the total of the squared distances of a real matrix is zero, every squared distance is zero. -/
theorem dist_zero_of_total_zero (R : Fin 8192 → Fin 256 → ℝ)
    (h0 : ∑ i, ∑ j, distR (R i) (R j) = 0) (u v : Fin 8192) : distR (R u) (R v) = 0 := by
  have h1 := (Finset.sum_eq_zero_iff_of_nonneg
    (fun i _ => Finset.sum_nonneg (fun j _ => distR_nonneg (R i) (R j)))).1 h0 u (Finset.mem_univ u)
  exact (Finset.sum_eq_zero_iff_of_nonneg (fun j _ => distR_nonneg (R u) (R j))).1 h1 v (Finset.mem_univ v)

/-- The agreement of the two results for two real families of rows X, Y (the inputs over a nonzero scale).
If the total squared distance is zero, all rows are equal: every kernel value is 0 · ∞ = 0 and the two sums
of rows agree, so both results are zero. Otherwise the bandwidth is a nonzero real, the closed form of the
total makes both weights the same real c, and both results are the real number (2 c / 2^32) |A - B|². -/
theorem agree_real (X Y : Fin 4096 → Fin 256 → ℝ) :
    Ideal.div
        (invBwSum (bandwidth
          (((((16384 : ℝ) * ((∑ i, ∑ d, X i d * X i d) + (∑ i, ∑ d, Y i d * Y i d)))
              - 2 * ∑ d, ((∑ i, X i d) + (∑ i, Y i d)) * ((∑ i, X i d) + (∑ i, Y i d)))
            * (1 / 256) : ℝ) : EReal))
          * ((2 : ℝ) : EReal))
        ((4294967296 : ℝ) : EReal)
      * ((∑ d, ((∑ i, X i d) - (∑ i, Y i d)) * ((∑ i, X i d) - (∑ i, Y i d)) : ℝ) : EReal)
    = Ideal.div
        (0 + ∑ i : Fin 4096, ∑ j : Fin 4096,
          (((kern (fun i d => ((stackedR X Y i d : ℝ) : EReal)) (lower i) (lower j)
              + kern (fun i d => ((stackedR X Y i d : ℝ) : EReal)) (upper i) (upper j))
            - kern (fun i d => ((stackedR X Y i d : ℝ) : EReal)) (lower i) (upper j))
            - kern (fun i d => ((stackedR X Y i d : ℝ) : EReal)) (upper i) (lower j)))
        ((16777216 : ℝ) : EReal) := by
  have hI : ((((16384 : ℝ) * ((∑ i, ∑ d, X i d * X i d) + (∑ i, ∑ d, Y i d * Y i d)))
        - 2 * ∑ d, ((∑ i, X i d) + (∑ i, Y i d)) * ((∑ i, X i d) + (∑ i, Y i d))) * (1 / 256))
      = ∑ i : Fin 8192, ∑ j : Fin 8192, distR (stackedR X Y i) (stackedR X Y j) := by
    rw [total_stackedR, total_distR, Fintype.card_fin]
    norm_num
  simp only [kern_coe, stackedR_lower, stackedR_upper]
  rw [hI]
  by_cases h0 : (∑ i : Fin 8192, ∑ j : Fin 8192, distR (stackedR X Y i) (stackedR X Y j)) = 0
  · have hz := dist_zero_of_total_zero _ h0
    have hxx : ∀ i j, distR (X i) (X j) = 0 := fun i j => by
      simpa only [stackedR_lower] using hz (lower i) (lower j)
    have hyy : ∀ i j, distR (Y i) (Y j) = 0 := fun i j => by
      simpa only [stackedR_upper] using hz (upper i) (upper j)
    have hxy : ∀ i j, distR (X i) (Y j) = 0 := fun i j => by
      simpa only [stackedR_lower, stackedR_upper] using hz (lower i) (upper j)
    have hyx : ∀ i j, distR (Y i) (X j) = 0 := fun i j => by
      simpa only [stackedR_lower, stackedR_upper] using hz (upper i) (lower j)
    have hS : (∑ d, ((∑ i, X i d) - (∑ i, Y i d)) * ((∑ i, X i d) - (∑ i, Y i d))) = 0 := by
      have hb := block_distR X Y
      simp only [hxx, hyy, hxy, hyx, Finset.sum_const_zero, add_zero, sub_zero] at hb
      linarith
    rw [hS]
    simp only [hxx, hyy, hxy, hyx, EReal.coe_zero, neg_zero, zero_mul, add_zero, sub_zero,
      Finset.sum_const_zero, mul_zero]
    exact (div_zero_coe (by norm_num)).symm
  · have hw : (∑ i : Fin 8192, ∑ j : Fin 8192, distR (stackedR X Y i) (stackedR X Y j))
        * (1 / 67100672) * (1 / 4) ≠ 0 :=
      mul_ne_zero (mul_ne_zero h0 (by norm_num)) (by norm_num)
    rw [bandwidth_coe, invBwSum_coe hw]
    generalize invBwR ((∑ i : Fin 8192, ∑ j : Fin 8192, distR (stackedR X Y i) (stackedR X Y j))
        * (1 / 67100672) * (1 / 4)) = c
    simp only [zero_add, ← EReal.coe_neg, ← EReal.coe_mul, ← EReal.coe_add, ← EReal.coe_sub, ← coe_sum]
    rw [div_coe_coe _ (by norm_num), div_coe_coe _ (by norm_num), ← EReal.coe_mul]
    refine congrArg _ ?_
    simp only [Finset.sum_sub_distrib, Finset.sum_add_distrib, ← Finset.sum_mul, Finset.sum_neg_distrib]
    linear_combination (c * (1 / 16777216)) * block_distR X Y

/-- The agreement over a nonzero real scale. -/
theorem kerVal_eq_refVal_of_ne {σ : ℝ} (hσ : σ ≠ 0) (x y : Fin 4096 → Fin 256 → ℝ) :
    kerVal (σ : EReal)
        (fun d => ∑ i : Fin 4096, ((x i d : ℝ) : EReal)) (fun d => ∑ i : Fin 4096, ((y i d : ℝ) : EReal))
        (∑ i : Fin 4096, ∑ d : Fin 256, ((x i d : ℝ) : EReal) * ((x i d : ℝ) : EReal))
        (∑ i : Fin 4096, ∑ d : Fin 256, ((y i d : ℝ) : EReal) * ((y i d : ℝ) : EReal))
      = refVal (σ : EReal) (fun i d => ((x i d : ℝ) : EReal)) (fun i d => ((y i d : ℝ) : EReal)) := by
  rw [kerVal_coe hσ]
  unfold refVal
  rw [stacked_coe hσ]
  exact agree_real (fun i d => x i d * (1 / σ)) (fun i d => y i d * (1 / σ))

/-- The kernel's closed form is the reference's value, for real inputs and any real scale σ (σ = 0 included). -/
theorem kerVal_eq_refVal (x y : Fin 4096 → Fin 256 → ℝ) (σ : ℝ) :
    kerVal (σ : EReal)
        (fun d => ∑ i : Fin 4096, ((x i d : ℝ) : EReal)) (fun d => ∑ i : Fin 4096, ((y i d : ℝ) : EReal))
        (∑ i : Fin 4096, ∑ d : Fin 256, ((x i d : ℝ) : EReal) * ((x i d : ℝ) : EReal))
        (∑ i : Fin 4096, ∑ d : Fin 256, ((y i d : ℝ) : EReal) * ((y i d : ℝ) : EReal))
      = refVal (σ : EReal) (fun i d => ((x i d : ℝ) : EReal)) (fun i d => ((y i d : ℝ) : EReal)) := by
  by_cases hσ : σ = 0
  · subst hσ
    rw [EReal.coe_zero, kerVal_zero, refVal_zero]
  · exact kerVal_eq_refVal_of_ne hσ x y

end Agreement

end Cert.Mmd

end
-- ==== Proof.FiniteInputs.lean ====
/-
  The precondition "every entry of both inputs has absolute value below +∞", read back: it is the
  conjunction, over the two inputs, of the conjunction over all entries of the comparison |v| < +∞ on the
  extended reals, and an extended real whose absolute value max v (-v) is below +∞ is neither -∞ nor +∞:
  it is a real number.
-/
import proofs.«119928_j66408784331046_2_alg».proof.Pre_finite_inputs
import proofs.«119928_j66408784331046_2_alg».proof.Proof.Gen.Pre_finite_inputs
import proofs.«119928_j66408784331046_2_alg».proof.Proof.RefConsts
import Idealize.ShloMosaic.PureOps.Ideal.Laws
import Idealize.ShloMosaic.Lib.ValueIdx
import Idealize.ShloMosaic.Lib.ReduceAll

noncomputable section

namespace Cert.Mmd

open Idealize.ShloMosaic

/-- The shape of a scalar has one index. -/
instance subsingleton_scalarIdx : Subsingleton Cert.Pre_finite_inputs.S_.Idx :=
  ⟨fun a b => funext fun d => d.elim0⟩

/-- An extended real whose absolute value is below +∞ is a real. -/
theorem real_of_abs_lt_top (z : EReal) (h : max z (-z) < ⊤) : ∃ r : ℝ, z = (r : EReal) := by
  induction z using EReal.rec with
  | bot => exfalso; simp at h
  | coe r => exact ⟨r, rfl⟩
  | top => exfalso; simp at h

/-- A truth value whose one-bit word is 1 is true. -/
theorem eq_true_of_ofBool_eq_one {b : Bool} (h : BitVec.ofBool b = 1#1) : b = true := by
  cases b
  · exact absurd h (by decide)
  · rfl

/-- If the conjunction over all entries of |v| < +∞ holds, every entry of v is a real. -/
theorem real_of_all_abs_lt [hP : Cert.Pre_finite_inputs.Facts]
    (v : FVec Ideal Cert.Pre_finite_inputs.S4096x256 .f32)
    (e : Host.reduce IntOp.andi
        (cmpf CmpFPredicate.olt (Host.absf v)
          (broadcastInDim Cert.Pre_finite_inputs.S4096x256 ![] hP.bcast_S_S4096x256
            (constant Cert.Pre_finite_inputs.S_ FTy.f32 0x7F800000#32)))
        (constantI Cert.Pre_finite_inputs.S_ 1 1#1) hP.reducesTo_S4096x256_S_d0_1 hP.h_S_ ValueIdx.ix0 = 1#1)
    (j : Cert.Pre_finite_inputs.S4096x256.Idx) : ∃ r : ℝ, v j = (r : EReal) := by
  have e1 := Host.reduce_andi_all _ _ _ _ _ e j
  have e2 : BitVec.ofBool (decide (max (v j) (-(v j)) < Ideal.ofBits .f32 0x7F800000#32)) = 1#1 := e1
  rw [ofBits_pos_inf] at e2
  exact real_of_abs_lt_top (v j) (of_decide_eq_true (eq_true_of_ofBool_eq_one e2))

/-- Under the precondition every entry of both inputs is a real number. -/
theorem real_of_pre [hP : Cert.Pre_finite_inputs.Facts] (x y : FVec Ideal Cert.Pre_finite_inputs.S4096x256 .f32)
    (h : Cert.Pre_finite_inputs.fn (F := Ideal) x y = fun _ => 1#1) :
    (∀ j, ∃ r : ℝ, x j = (r : EReal)) ∧ (∀ j, ∃ r : ℝ, y j = (r : EReal)) := by
  have h0 := congrFun h ValueIdx.ix0
  dsimp only [Cert.Pre_finite_inputs.fn] at h0
  obtain ⟨hA, hB⟩ := IntOp.andi_eq_one.1 h0
  exact ⟨fun j => real_of_all_abs_lt x hA j, fun j => real_of_all_abs_lt y hB j⟩

end Cert.Mmd

end
-- ==== Proof.KI.Value.lean ====
/-
  The idealized kernel's result is the reference's value. After the run, the scalar result is the ninety host
  operations applied to the three result arrays; those arrays hold, per core, the maximum, the minimum and the sums
  over the core's two blocks; the two cores' four blocks are the whole input, so the range, the column sums and
  the sums of squares are those of the whole arrays, and the kernel's closed form of them is the reference's value
  when every entry is a real number.
-/
import proofs.«119928_j66408784331046_2_alg».proof.Proof.KI.Arrays
import proofs.«119928_j66408784331046_2_alg».proof.Proof.KI.HeldValue
import proofs.«119928_j66408784331046_2_alg».proof.Proof.KI.Blocks
import proofs.«119928_j66408784331046_2_alg».proof.Proof.KI.PayVal
import proofs.«119928_j66408784331046_2_alg».proof.Proof.KI.TailValue
import proofs.«119928_j66408784331046_2_alg».proof.Proof.BlockSums
import proofs.«119928_j66408784331046_2_alg».proof.Proof.Entries
import proofs.«119928_j66408784331046_2_alg».proof.Proof.MmdAlgebra
import proofs.«119928_j66408784331046_2_alg».proof.Proof.FiniteInputs

set_option maxRecDepth 16384

noncomputable section

namespace Cert.KernelIdeal.Val

open Cert.KernelIdeal Cert.KernelIdeal.Gen Cert.KernelIdeal.Fr Cert.KernelIdeal.PayVal Cert.KernelIdeal.TailValue
open Cert.Mmd
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The entries of the two inputs on core `c`. -/
def A (c : Dev nD) : Fin 4096 → Fin 256 → EReal := entries (m ((c : Thread nD τ).loc main_arg0))
def B (c : Dev nD) : Fin 4096 → Fin 256 → EReal := entries (m ((c : Thread nD τ).loc main_arg1))

/-- A grid point as a block number. -/
def kOf (t : Fin cfg0.N) : Fin 4 := ⟨t.val, lt_of_lt_of_eq t.isLt N_0⟩

/-! ## A block's maximum, minimum and sums are those of its rows of the input -/

theorem tileMax_iblk0 (c : Dev nD) (t : Fin cfg0.N) : tileMax (iblk m c 0 t) = bmax (A m c) (kOf t) := by
  unfold tileMax bmax
  refine congrArg (fun f => (Finset.univ : Finset (Fin 1024)).fold max ⊥ f) (funext fun r => ?_)
  refine congrArg (fun g => (Finset.univ : Finset (Fin 256)).fold max ⊥ g) (funext fun d => ?_)
  exact iblk0_apply m c t r d

theorem tileMin_iblk0 (c : Dev nD) (t : Fin cfg0.N) : tileMin (iblk m c 0 t) = bmin (A m c) (kOf t) := by
  unfold tileMin bmin
  refine congrArg (fun f => (Finset.univ : Finset (Fin 1024)).fold min ⊤ f) (funext fun r => ?_)
  refine congrArg (fun g => (Finset.univ : Finset (Fin 256)).fold min ⊤ g) (funext fun d => ?_)
  exact iblk0_apply m c t r d

theorem tileSq_iblk0 (c : Dev nD) (t : Fin cfg0.N) : tileSq (iblk m c 0 t) = bsq (A m c) (kOf t) := by
  unfold tileSq bsq
  refine Finset.sum_congr rfl fun r _ => Finset.sum_congr rfl fun d _ => ?_
  exact congrArg₂ (· * ·) (iblk0_apply m c t r d) (iblk0_apply m c t r d)

theorem tileSq_iblk1 (c : Dev nD) (t : Fin cfg0.N) : tileSq (iblk m c 1 t) = bsq (B m c) (kOf t) := by
  unfold tileSq bsq
  refine Finset.sum_congr rfl fun r _ => Finset.sum_congr rfl fun d _ => ?_
  exact congrArg₂ (· * ·) (iblk1_apply m c t r d) (iblk1_apply m c t r d)

theorem tileCol_iblk0 (c : Dev nD) (t : Fin cfg0.N) (d : Fin 256) : tileCol (iblk m c 0 t) d = bcol (A m c) (kOf t) d := by
  unfold tileCol bcol
  exact Finset.sum_congr rfl fun r _ => iblk0_apply m c t r d

theorem tileCol_iblk1 (c : Dev nD) (t : Fin cfg0.N) (d : Fin 256) : tileCol (iblk m c 1 t) d = bcol (B m c) (kOf t) d := by
  unfold tileCol bcol
  exact Finset.sum_congr rfl fun r _ => iblk1_apply m c t r d

/-! ## The three result arrays, entry by entry -/

theorem t1_odd : t0_1.val % 2 = 1 := by decide
theorem t3_odd : t0_3.val % 2 = 1 := by decide

theorem G2_row0 (c : Dev nD) (k : Fin 4) :
    (G2 m c : S2x1x4.Idx → EReal) (ix3 (0 : Fin 2) (0 : Fin 1) k) = (heldAt m c t0_1.val t0_1.isLt).o2 (ix3 (0 : Fin 1) (0 : Fin 1) k) := by
  unfold G2
  rw [if_pos (show ((ix3 (0 : Fin 2) (0 : Fin 1) k : S2x1x4.Idx) 0).val = 0 from rfl)]
  exact congrArg _ (funext fun a => Fin.ext (by
    match a with
    | ⟨0, _⟩ => rfl
    | ⟨1, _⟩ => rfl
    | ⟨2, _⟩ => rfl))

theorem G2_row1 (c : Dev nD) (k : Fin 4) :
    (G2 m c : S2x1x4.Idx → EReal) (ix3 (1 : Fin 2) (0 : Fin 1) k) = (heldAt m c t0_3.val t0_3.isLt).o2 (ix3 (0 : Fin 1) (0 : Fin 1) k) := by
  unfold G2
  rw [if_neg (show ¬((ix3 (1 : Fin 2) (0 : Fin 1) k : S2x1x4.Idx) 0).val = 0 from by show ¬((1 : ℕ) = 0); omega)]
  exact congrArg _ (funext fun a => Fin.ext (by
    match a with
    | ⟨0, _⟩ => rfl
    | ⟨1, _⟩ => rfl
    | ⟨2, _⟩ => rfl))

theorem G3_row0 (c : Dev nD) (k : Fin 256) :
    (G3 m c : S2x1x256.Idx → EReal) (ix3 (0 : Fin 2) (0 : Fin 1) k) = (heldAt m c t0_1.val t0_1.isLt).o3 (ix3 (0 : Fin 1) (0 : Fin 1) k) := by
  unfold G3
  rw [if_pos (show ((ix3 (0 : Fin 2) (0 : Fin 1) k : S2x1x256.Idx) 0).val = 0 from rfl)]
  exact congrArg _ (funext fun a => Fin.ext (by
    match a with
    | ⟨0, _⟩ => rfl
    | ⟨1, _⟩ => rfl
    | ⟨2, _⟩ => rfl))

theorem G3_row1 (c : Dev nD) (k : Fin 256) :
    (G3 m c : S2x1x256.Idx → EReal) (ix3 (1 : Fin 2) (0 : Fin 1) k) = (heldAt m c t0_3.val t0_3.isLt).o3 (ix3 (0 : Fin 1) (0 : Fin 1) k) := by
  unfold G3
  rw [if_neg (show ¬((ix3 (1 : Fin 2) (0 : Fin 1) k : S2x1x256.Idx) 0).val = 0 from by show ¬((1 : ℕ) = 0); omega)]
  exact congrArg _ (funext fun a => Fin.ext (by
    match a with
    | ⟨0, _⟩ => rfl
    | ⟨1, _⟩ => rfl
    | ⟨2, _⟩ => rfl))

theorem G4_row0 (c : Dev nD) (k : Fin 256) :
    (G4 m c : S2x1x256.Idx → EReal) (ix3 (0 : Fin 2) (0 : Fin 1) k) = (heldAt m c t0_1.val t0_1.isLt).o4 (ix3 (0 : Fin 1) (0 : Fin 1) k) := by
  unfold G4
  rw [if_pos (show ((ix3 (0 : Fin 2) (0 : Fin 1) k : S2x1x256.Idx) 0).val = 0 from rfl)]
  exact congrArg _ (funext fun a => Fin.ext (by
    match a with
    | ⟨0, _⟩ => rfl
    | ⟨1, _⟩ => rfl
    | ⟨2, _⟩ => rfl))

theorem G4_row1 (c : Dev nD) (k : Fin 256) :
    (G4 m c : S2x1x256.Idx → EReal) (ix3 (1 : Fin 2) (0 : Fin 1) k) = (heldAt m c t0_3.val t0_3.isLt).o4 (ix3 (0 : Fin 1) (0 : Fin 1) k) := by
  unfold G4
  rw [if_neg (show ¬((ix3 (1 : Fin 2) (0 : Fin 1) k : S2x1x256.Idx) 0).val = 0 from by show ¬((1 : ℕ) = 0); omega)]
  exact congrArg _ (funext fun a => Fin.ext (by
    match a with
    | ⟨0, _⟩ => rfl
    | ⟨1, _⟩ => rfl
    | ⟨2, _⟩ => rfl))

theorem stat_max0 (c : Dev nD) :
    (G2 m c : S2x1x4.Idx → EReal) (ix3 (0 : Fin 2) (0 : Fin 1) (0 : Fin 4)) = max (max ⊥ (bmax (A m c) (0 : Fin 4))) (bmax (A m c) (1 : Fin 4)) := by
  rw [G2_row0, held_o2 m c t0_1 t1_odd, pay6_apply0, pay19_apply, pay19_apply, pay9_apply, tileMax_iblk0, tileMax_iblk0]
  rfl

theorem stat_min0 (c : Dev nD) :
    (G2 m c : S2x1x4.Idx → EReal) (ix3 (0 : Fin 2) (0 : Fin 1) (1 : Fin 4)) = min (min ⊤ (bmin (A m c) (0 : Fin 4))) (bmin (A m c) (1 : Fin 4)) := by
  rw [G2_row0, held_o2 m c t0_1 t1_odd, pay6_apply1, pay1_apply, pay20_apply, pay1_apply, pay20_apply, pay10_apply, tileMin_iblk0, tileMin_iblk0]
  rfl

theorem stat_sqs0 (c : Dev nD) :
    (G2 m c : S2x1x4.Idx → EReal) (ix3 (0 : Fin 2) (0 : Fin 1) (2 : Fin 4)) = (0 + bsq (A m c) (0 : Fin 4)) + bsq (A m c) (1 : Fin 4) := by
  rw [G2_row0, held_o2 m c t0_1 t1_odd, pay6_apply2, pay2_apply, pay15_apply, pay2_apply, pay15_apply, pay11_apply, tileSq_iblk0, tileSq_iblk0]
  rfl

theorem stat_sqt0 (c : Dev nD) :
    (G2 m c : S2x1x4.Idx → EReal) (ix3 (0 : Fin 2) (0 : Fin 1) (3 : Fin 4)) = (0 + bsq (B m c) (0 : Fin 4)) + bsq (B m c) (1 : Fin 4) := by
  rw [G2_row0, held_o2 m c t0_1 t1_odd, pay6_apply3, pay3_apply, pay16_apply, pay3_apply, pay16_apply, pay12_apply, tileSq_iblk1, tileSq_iblk1]
  rfl

theorem col_s0 (c : Dev nD) (d : Fin 256) :
    (G3 m c : S2x1x256.Idx → EReal) (ix3 (0 : Fin 2) (0 : Fin 1) d) = (0 + bcol (A m c) (0 : Fin 4) d) + bcol (A m c) (1 : Fin 4) d := by
  rw [G3_row0, held_o3 m c t0_1 t1_odd, pay7_apply, pay4_apply, pay17_apply, pay4_apply, pay17_apply, pay13_apply, tileCol_iblk0, tileCol_iblk0]
  rfl

theorem col_t0 (c : Dev nD) (d : Fin 256) :
    (G4 m c : S2x1x256.Idx → EReal) (ix3 (0 : Fin 2) (0 : Fin 1) d) = (0 + bcol (B m c) (0 : Fin 4) d) + bcol (B m c) (1 : Fin 4) d := by
  rw [G4_row0, held_o4 m c t0_1 t1_odd, pay8_apply, pay5_apply, pay18_apply, pay5_apply, pay18_apply, pay14_apply, tileCol_iblk1, tileCol_iblk1]
  rfl

theorem stat_max1 (c : Dev nD) :
    (G2 m c : S2x1x4.Idx → EReal) (ix3 (1 : Fin 2) (0 : Fin 1) (0 : Fin 4)) = max (max ⊥ (bmax (A m c) (2 : Fin 4))) (bmax (A m c) (3 : Fin 4)) := by
  rw [G2_row1, held_o2 m c t0_3 t3_odd, pay6_apply0, pay19_apply, pay19_apply, pay9_apply, tileMax_iblk0, tileMax_iblk0]
  rfl

theorem stat_min1 (c : Dev nD) :
    (G2 m c : S2x1x4.Idx → EReal) (ix3 (1 : Fin 2) (0 : Fin 1) (1 : Fin 4)) = min (min ⊤ (bmin (A m c) (2 : Fin 4))) (bmin (A m c) (3 : Fin 4)) := by
  rw [G2_row1, held_o2 m c t0_3 t3_odd, pay6_apply1, pay1_apply, pay20_apply, pay1_apply, pay20_apply, pay10_apply, tileMin_iblk0, tileMin_iblk0]
  rfl

theorem stat_sqs1 (c : Dev nD) :
    (G2 m c : S2x1x4.Idx → EReal) (ix3 (1 : Fin 2) (0 : Fin 1) (2 : Fin 4)) = (0 + bsq (A m c) (2 : Fin 4)) + bsq (A m c) (3 : Fin 4) := by
  rw [G2_row1, held_o2 m c t0_3 t3_odd, pay6_apply2, pay2_apply, pay15_apply, pay2_apply, pay15_apply, pay11_apply, tileSq_iblk0, tileSq_iblk0]
  rfl

theorem stat_sqt1 (c : Dev nD) :
    (G2 m c : S2x1x4.Idx → EReal) (ix3 (1 : Fin 2) (0 : Fin 1) (3 : Fin 4)) = (0 + bsq (B m c) (2 : Fin 4)) + bsq (B m c) (3 : Fin 4) := by
  rw [G2_row1, held_o2 m c t0_3 t3_odd, pay6_apply3, pay3_apply, pay16_apply, pay3_apply, pay16_apply, pay12_apply, tileSq_iblk1, tileSq_iblk1]
  rfl

theorem col_s1 (c : Dev nD) (d : Fin 256) :
    (G3 m c : S2x1x256.Idx → EReal) (ix3 (1 : Fin 2) (0 : Fin 1) d) = (0 + bcol (A m c) (2 : Fin 4) d) + bcol (A m c) (3 : Fin 4) d := by
  rw [G3_row1, held_o3 m c t0_3 t3_odd, pay7_apply, pay4_apply, pay17_apply, pay4_apply, pay17_apply, pay13_apply, tileCol_iblk0, tileCol_iblk0]
  rfl

theorem col_t1 (c : Dev nD) (d : Fin 256) :
    (G4 m c : S2x1x256.Idx → EReal) (ix3 (1 : Fin 2) (0 : Fin 1) d) = (0 + bcol (B m c) (2 : Fin 4) d) + bcol (B m c) (3 : Fin 4) d := by
  rw [G4_row1, held_o4 m c t0_3 t3_odd, pay8_apply, pay5_apply, pay18_apply, pay5_apply, pay18_apply, pay14_apply, tileCol_iblk1, tileCol_iblk1]
  rfl

/-! ## The run -/

/-- The core's buffers after the region: the three result arrays at what the region left, the rest as found. -/
abbrev W (c : Dev nD) : Valuation τ sig (Elt Ideal) :=
  Pipeline.withArrays spec0 c (V0 m c) fun w => (dats m 0 c).arrAt w cfg0.N

theorem W_stats (c : Dev nD) : W m c (Proc.devRef .tc main_v0_0) = G2 m c :=
  (Pipeline.withArrays_arr spec0 launch0.win.arr_inj c _ _ 2).trans (final2 m c)
theorem W_colS (c : Dev nD) : W m c (Proc.devRef .tc main_v0_1) = G3 m c :=
  (Pipeline.withArrays_arr spec0 launch0.win.arr_inj c _ _ 3).trans (final3 m c)
theorem W_colT (c : Dev nD) : W m c (Proc.devRef .tc main_v0_2) = G4 m c :=
  (Pipeline.withArrays_arr spec0 launch0.win.arr_inj c _ _ 4).trans (final4 m c)

theorem statS_eq (c : Dev nD) (r : Fin 2) (k : Fin 4) : statS (W m c) r k = (G2 m c : S2x1x4.Idx → EReal) (ix3 r (0 : Fin 1) k) := by
  unfold statS; rw [W_stats]
theorem colA_eq (c : Dev nD) (r : Fin 2) (d : Fin 256) : colA (W m c) r d = (G3 m c : S2x1x256.Idx → EReal) (ix3 r (0 : Fin 1) d) := by
  unfold colA; rw [W_colS]
theorem colB_eq (c : Dev nD) (r : Fin 2) (d : Fin 256) : colB (W m c) r d = (G4 m c : S2x1x256.Idx → EReal) (ix3 r (0 : Fin 1) d) := by
  unfold colB; rw [W_colT]

/-- The scalar result after the tail is the kernel's closed form of the whole arrays' range, column sums and sums of
    squares. -/
theorem tail_kerVal (c : Dev nD) :
    Pipeline.afterTail₀ cfgs (dats m) 0 (V0 m) (tail (F := Ideal)) c main_v70
      = fun _ => kerVal (rangeOf (A m c)) (fun d => ∑ i : Fin 4096, A m c i d) (fun d => ∑ i : Fin 4096, B m c i d)
          (∑ i : Fin 4096, ∑ d : Fin 256, A m c i d * A m c i d) (∑ i : Fin 4096, ∑ d : Fin 256, B m c i d * B m c i d) := by
  unfold Pipeline.afterTail₀
  show (StableHlo.after (tail (F := Ideal)).flatten (W m c) (Proc.devRef .tc main_v70) : FVec Ideal S_ .f32) = _
  rw [tail_value]
  funext _
  simp only [statS_eq, colA_eq, colB_eq, stat_max0, stat_max1, stat_min0, stat_min1, stat_sqs0, stat_sqs1, stat_sqt0, stat_sqt1,
    col_s0, col_s1, col_t0, col_t1, hi_blocks, lo_blocks, sq_blocks, col_blocks]
  rfl

theorem v70_rest : main_v70 ∈ Pipeline.restRefs sig (cfgs 0).spec :=
  Pipeline.mem_restRefs_of main_v70 rfl (by decide)

/-- Real entries: the kernel's closed form is the reference's value. -/
theorem kerVal_refVal (a b : Fin 4096 → Fin 256 → EReal) (ha : ∀ i d, ∃ r : ℝ, a i d = (r : EReal)) (hb : ∀ i d, ∃ r : ℝ, b i d = (r : EReal)) :
    kerVal (rangeOf a) (fun d => ∑ i : Fin 4096, a i d) (fun d => ∑ i : Fin 4096, b i d)
        (∑ i : Fin 4096, ∑ d : Fin 256, a i d * a i d) (∑ i : Fin 4096, ∑ d : Fin 256, b i d * b i d)
      = refVal (rangeOf a) a b := by
  choose x hx using ha
  choose y hy using hb
  obtain rfl : a = fun i d => ((x i d : ℝ) : EReal) := funext fun i => funext fun d => hx i d
  obtain rfl : b = fun i d => ((y i d : ℝ) : EReal) := funext fun i => funext fun d => hy i d
  obtain ⟨σ, hσ⟩ := rangeOf_coe x
  rw [hσ]
  exact kerVal_eq_refVal x y σ

/-- The run of the idealized kernel, read: under finite inputs its result is the reference's value of the two inputs,
    and the inputs end unchanged. -/
theorem run_value [hP : Cert.Pre_finite_inputs.Facts]
    (hfin : ∀ c : Dev nD, Cert.Pre_finite_inputs.fn (F := Ideal) (m ((c.tc : Thread nD τ).loc main_arg0)) (m ((c.tc : Thread nD τ).loc main_arg1)) = fun _ => 1#1) :
    θ_run (defs (F := Ideal)) (onTc (τ := τ) (main (F := Ideal))) ⟨m, fun _ => 0, ρ⟩ fun r => ∀ c : Dev nD,
      r.2.mem ((c.tc : Thread nD τ).loc main_v70) = (fun _ => refVal (rangeOf (A m c)) (A m c) (B m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨hx, hy⟩ := real_of_pre _ _ (hfin c)
    refine ⟨((h c).2 main_v70 v70_rest).trans ((tail_kerVal m c).trans ?_),
      ((h c).1 0).trans ((((dats m) 0 c).arrAt_in 0 rfl _).trans ((A_eq m c 0).trans (V_main_arg0 m c))),
      ((h c).1 1).trans ((((dats m) 0 c).arrAt_in 1 rfl _).trans ((A_eq m c 1).trans (V_main_arg1 m c)))⟩
    funext _
    exact kerVal_refVal (A m c) (B m c) (fun i d => hx (ix2 i d)) (fun i d => hy (ix2 i d))) (run_main m ρ)

end Cert.KernelIdeal.Val

end
-- ==== Proof.LibMaxReduce.lean ====
/-
  A maximum taken by folding from the bottom element is a supremum.

  The host's one-operand reduction with the body `max`, started from -∞, read at the exact instance: at a
  result index it is the supremum of the operand over the source indices that reduce to it.  For a matrix
  this is a column's supremum (reduction over the rows) or the supremum of all entries (reduction over both
  axes), written over the two coordinates.
-/
import Idealize.ShloMosaic.PureOps.Ideal.Laws
import Idealize.ShloMosaic.Lib.ValueIdx

noncomputable section

namespace Cert.ReferenceIdeal.RefValue

open Idealize.ShloMosaic Idealize.ShloMosaic.ValueIdx

/-- Folding `max` from `⊥` over a finite set is the supremum over the set. -/
theorem fold_max_bot_eq_iSup {ι : Type} (S : Finset ι) (x : ι → EReal) :
    S.fold (FloatOps.maximumf (F := Ideal) (φ := .f32)) ⊥ x = ⨆ i ∈ S, x i := by
  rw [← Finset.sup_eq_iSup]
  rfl

/-- The host's max-reduce from -∞ at a result index: the supremum of the operand over the source indices
    that drop to that index. -/
theorem hostMax_eq_iSup {s t u : Shape} {axes : List (Fin s.rank)} (x : s.Idx → EReal) (init : u.Idx → EReal)
    (h : s.ReducesTo axes t) (hu : 0 < u.numel) (hinit : init (Shape.Idx.first hu) = ⊥) (j : t.Idx) :
    Host.reduce (FloatOps.maximumf (F := Ideal) (φ := .f32)) x init h hu j = ⨆ i : s.Idx, ⨆ _ : h.drop i = j, x i := by
  rw [Host.reduce_eq_fold, hinit, fold_max_bot_eq_iSup]
  refine iSup_congr fun i => ?_
  simp only [Finset.mem_filter, Finset.mem_univ, true_and]

/-- Reduction of a matrix over its rows: at column `c` the supremum over the rows. -/
theorem hostMax_rows {R C : Nat} {u : Shape} (x : (⟨2, ![R, C]⟩ : Shape).Idx → EReal) (init : u.Idx → EReal)
    (h : (⟨2, ![R, C]⟩ : Shape).ReducesTo [0] ⟨1, ![C]⟩) (hu : 0 < u.numel) (hinit : init (Shape.Idx.first hu) = ⊥)
    (c : Fin C) :
    Host.reduce (FloatOps.maximumf (F := Ideal) (φ := .f32)) x init h hu (ix1 c) = ⨆ r : Fin R, x (ix2 r c) := by
  rw [hostMax_eq_iSup x init h hu hinit]
  have key : ∀ i : (⟨2, ![R, C]⟩ : Shape).Idx, h.drop i = ix1 c ↔ i 1 = c := fun i => by
    have hv : ((h.drop i 0 : Fin C) : Nat) = (i 1 : Fin C) := rfl
    constructor
    · intro e
      have e0 := congrFun e 0
      exact Fin.ext (hv.symm.trans (congrArg Fin.val e0))
    · intro e
      funext d
      match d with
      | ⟨0, _⟩ => exact Fin.ext (hv.trans (congrArg Fin.val e))
  apply le_antisymm
  · refine iSup_le fun i => iSup_le fun hi => ?_
    have hc : i 1 = c := (key i).1 hi
    rw [eq_ix2 i, hc]
    exact le_iSup (fun r : Fin R => x (ix2 r c)) (i 0)
  · refine iSup_le fun r => ?_
    exact le_iSup_of_le (ix2 r c) (le_iSup_of_le ((key (ix2 r c)).2 rfl) le_rfl)

/-- Reduction of a matrix over both axes: the supremum of all entries. -/
theorem hostMax_all {R C : Nat} {u : Shape} (x : (⟨2, ![R, C]⟩ : Shape).Idx → EReal) (init : u.Idx → EReal)
    (h : (⟨2, ![R, C]⟩ : Shape).ReducesTo [0, 1] ⟨0, ![]⟩) (hu : 0 < u.numel) (hinit : init (Shape.Idx.first hu) = ⊥)
    (j : (⟨0, ![]⟩ : Shape).Idx) :
    Host.reduce (FloatOps.maximumf (F := Ideal) (φ := .f32)) x init h hu j = ⨆ (r : Fin R) (c : Fin C), x (ix2 r c) := by
  rw [hostMax_eq_iSup x init h hu hinit]
  have key : ∀ i : (⟨2, ![R, C]⟩ : Shape).Idx, h.drop i = j := fun i => funext fun a => a.elim0
  apply le_antisymm
  · refine iSup_le fun i => iSup_le fun _ => ?_
    rw [eq_ix2 i]
    exact le_iSup_of_le (i 0) (le_iSup (fun c : Fin C => x (ix2 (i 0) c)) (i 1))
  · refine iSup_le fun r => iSup_le fun c => ?_
    exact le_iSup_of_le (ix2 r c) (le_iSup_of_le (key (ix2 r c)) le_rfl)

end Cert.ReferenceIdeal.RefValue

end
-- ==== Proof.LibMinReduce.lean ====
/-
  A minimum taken by folding from the top element is an infimum.

  The host's one-operand reduction with the body `min`, started from +∞, read at the exact instance: at a
  result index it is the infimum of the operand over the source indices that reduce to it.  For a matrix
  reduced over both axes this is the infimum of all entries, written over the two coordinates.
-/
import Idealize.ShloMosaic.PureOps.Ideal.Laws
import Idealize.ShloMosaic.Lib.ValueIdx

noncomputable section

namespace Cert.ReferenceIdeal.RefValue

open Idealize.ShloMosaic Idealize.ShloMosaic.ValueIdx

/-- Folding `min` from `⊤` over a finite set is the infimum over the set. -/
theorem fold_min_top_eq_iInf {ι : Type} (S : Finset ι) (x : ι → EReal) :
    S.fold (FloatOps.minimumf (F := Ideal) (φ := .f32)) ⊤ x = ⨅ i ∈ S, x i := by
  rw [← Finset.inf_eq_iInf]
  rfl

/-- The host's min-reduce from +∞ at a result index: the infimum of the operand over the source indices
    that drop to that index. -/
theorem hostMin_eq_iInf {s t u : Shape} {axes : List (Fin s.rank)} (x : s.Idx → EReal) (init : u.Idx → EReal)
    (h : s.ReducesTo axes t) (hu : 0 < u.numel) (hinit : init (Shape.Idx.first hu) = ⊤) (j : t.Idx) :
    Host.reduce (FloatOps.minimumf (F := Ideal) (φ := .f32)) x init h hu j = ⨅ i : s.Idx, ⨅ _ : h.drop i = j, x i := by
  rw [Host.reduce_eq_fold, hinit, fold_min_top_eq_iInf]
  refine iInf_congr fun i => ?_
  simp only [Finset.mem_filter, Finset.mem_univ, true_and]

/-- Reduction of a matrix over both axes: the infimum of all entries. -/
theorem hostMin_all {R C : Nat} {u : Shape} (x : (⟨2, ![R, C]⟩ : Shape).Idx → EReal) (init : u.Idx → EReal)
    (h : (⟨2, ![R, C]⟩ : Shape).ReducesTo [0, 1] ⟨0, ![]⟩) (hu : 0 < u.numel) (hinit : init (Shape.Idx.first hu) = ⊤)
    (j : (⟨0, ![]⟩ : Shape).Idx) :
    Host.reduce (FloatOps.minimumf (F := Ideal) (φ := .f32)) x init h hu j = ⨅ (r : Fin R) (c : Fin C), x (ix2 r c) := by
  rw [hostMin_eq_iInf x init h hu hinit]
  have key : ∀ i : (⟨2, ![R, C]⟩ : Shape).Idx, h.drop i = j := fun i => funext fun a => a.elim0
  apply le_antisymm
  · refine le_iInf fun r => le_iInf fun c => ?_
    exact iInf_le_of_le (ix2 r c) (iInf_le_of_le (key (ix2 r c)) le_rfl)
  · refine le_iInf fun i => le_iInf fun _ => ?_
    rw [eq_ix2 i]
    exact iInf_le_of_le (i 0) (iInf_le (fun c : Fin C => x (ix2 (i 0) c)) (i 1))

end Cert.ReferenceIdeal.RefValue

end
-- ==== Proof.RefRange.lean ====
/-
  The range of the first input as the reference forms it: the maximum of all entries, folded from -∞, minus the
  minimum of all entries, folded from +∞, is the supremum minus the infimum of the entries.
-/
import proofs.«119928_j66408784331046_2_alg».proof.Proof.Spec
import proofs.«119928_j66408784331046_2_alg».proof.Proof.Entries
import proofs.«119928_j66408784331046_2_alg».proof.Proof.RefConsts
import proofs.«119928_j66408784331046_2_alg».proof.Proof.LibMaxReduce
import proofs.«119928_j66408784331046_2_alg».proof.Proof.LibMinReduce

noncomputable section

namespace Cert.ReferenceIdeal.RefValue

open Idealize.ShloMosaic Idealize.ShloMosaic.ValueIdx Cert.Mmd

/-- The maximum of all entries minus the minimum of all entries, at the one index of the scalar shape. -/
theorem range_apply (x : FVec Ideal ⟨2, ![4096, 256]⟩ .f32)
    (h : (⟨2, ![4096, 256]⟩ : Shape).ReducesTo [0, 1] ⟨0, ![]⟩) (hu : 0 < (⟨0, ![]⟩ : Shape).numel)
    (j : (⟨0, ![]⟩ : Shape).Idx) :
    subf (Host.reduce FloatOps.maximumf x (constant (F := Ideal) ⟨0, ![]⟩ .f32 0xFF800000#32) h hu)
        (Host.reduce FloatOps.minimumf x (constant (F := Ideal) ⟨0, ![]⟩ .f32 0x7F800000#32) h hu) j
      = rangeOf (entries x) := by
  rw [subf_apply,
    hostMax_all x _ h hu ((constant_apply _ _).trans ofBits_neg_inf) j,
    hostMin_all x _ h hu ((constant_apply _ _).trans ofBits_pos_inf) j]
  rfl

end Cert.ReferenceIdeal.RefValue

end
-- ==== Proof.RefOps.lean ====
/-
  The reference's layout and pointwise operations read at an index: a scalar broadcast to a full array, a vector
  broadcast along the rows or along the columns of a square array, a square block cut out of a square array, and
  the host's quotient and negation entry by entry.
-/
import Idealize.ShloMosaic.Lib.ValueIdx
import Idealize.ShloMosaic.Lib.Pipeline.Value

noncomputable section

namespace Cert.ReferenceIdeal.RefValue

open Idealize.ShloMosaic Idealize.ShloMosaic.ValueIdx

/-- The host's quotient at an index is the quotient of the entries. -/
theorem hostDivf_apply {s : Shape} {φ : FTy} (a b : FVec Ideal s φ) (i : s.Idx) :
    Host.divf a b i = Ideal.div (a i) (b i) := rfl

/-- The host's negation at an index is the negation of the entry. -/
theorem hostNegf_apply {s : Shape} {φ : FTy} (a : FVec Ideal s φ) (i : s.Idx) : Host.negf a i = -(a i) := rfl

/-- A scalar broadcast to any shape reads the scalar's one element everywhere. -/
theorem bcastScalar_apply {t : Shape} (dims : Fin (⟨0, ![]⟩ : Shape).rank → Fin t.rank)
    (h : (⟨0, ![]⟩ : Shape).BroadcastsInDim t dims) (v : (⟨0, ![]⟩ : Shape).Idx → EReal) (j : t.Idx) :
    broadcastInDim t dims h v j = v ix0 :=
  broadcastInDim_apply dims h v j ix0 (fun a => a.elim0)

/-- A vector of 8192 entries made a column and broadcast along the columns: entry (i, j) is the vector's entry i. -/
theorem rowBcast_apply (v : (⟨1, ![8192]⟩ : Shape).Idx → EReal)
    (h1 : (⟨1, ![8192]⟩ : Shape).BroadcastsInDim ⟨2, ![8192, 1]⟩ (![0] : Fin 1 → Fin (⟨2, ![8192, 1]⟩ : Shape).rank))
    (h2 : (⟨2, ![8192, 1]⟩ : Shape).BroadcastsInDim ⟨2, ![8192, 8192]⟩ (![0, 1] : Fin 2 → Fin (⟨2, ![8192, 8192]⟩ : Shape).rank))
    (i j : Fin 8192) :
    broadcastInDim (⟨2, ![8192, 8192]⟩ : Shape) ![0, 1] h2 (broadcastInDim (⟨2, ![8192, 1]⟩ : Shape) ![0] h1 v) (ix2 i j)
      = v (ix1 i) := by
  rw [broadcastInDim_apply ![0, 1] h2 _ (ix2 i j) (ix2 i (0 : Fin 1))
      (fun a => by match a with | ⟨0, _⟩ => rfl | ⟨1, _⟩ => rfl),
    broadcastInDim_apply ![0] h1 v (ix2 i (0 : Fin 1)) (ix1 i) (fun a => by match a with | ⟨0, _⟩ => rfl)]

/-- The same vector made a row and broadcast along the rows: entry (i, j) is the vector's entry j. -/
theorem colBcast_apply (v : (⟨1, ![8192]⟩ : Shape).Idx → EReal)
    (h1 : (⟨1, ![8192]⟩ : Shape).BroadcastsInDim ⟨2, ![1, 8192]⟩ (![1] : Fin 1 → Fin (⟨2, ![1, 8192]⟩ : Shape).rank))
    (h2 : (⟨2, ![1, 8192]⟩ : Shape).BroadcastsInDim ⟨2, ![8192, 8192]⟩ (![0, 1] : Fin 2 → Fin (⟨2, ![8192, 8192]⟩ : Shape).rank))
    (i j : Fin 8192) :
    broadcastInDim (⟨2, ![8192, 8192]⟩ : Shape) ![0, 1] h2 (broadcastInDim (⟨2, ![1, 8192]⟩ : Shape) ![1] h1 v) (ix2 i j)
      = v (ix1 j) := by
  rw [broadcastInDim_apply ![0, 1] h2 _ (ix2 i j) (ix2 (0 : Fin 1) j)
      (fun a => by match a with | ⟨0, _⟩ => rfl | ⟨1, _⟩ => rfl),
    broadcastInDim_apply ![1] h1 v (ix2 (0 : Fin 1) j) (ix1 j) (fun a => by match a with | ⟨0, _⟩ => rfl)]

/-- The 4096 x 4096 block of an 8192 x 8192 array that starts at row r0 and column c0: entry (i, j) is the
    array's entry (r0 + i, c0 + j), for any row and column indices with those values. -/
theorem block_apply (r0 c0 : Nat) (x : (⟨2, ![8192, 8192]⟩ : Shape).Idx → EReal)
    (h : (⟨2, ![8192, 8192]⟩ : Shape).Slices ![r0, c0] ⟨2, ![4096, 4096]⟩) (i j : Fin 4096) (p q : Fin 8192)
    (hp : p.val = r0 + i.val) (hq : q.val = c0 + j.val) :
    extractStridedSlice (⟨2, ![4096, 4096]⟩ : Shape) ![r0, c0] x h (ix2 i j) = x (ix2 p q) :=
  extractStridedSlice_apply ![r0, c0] x h (ix2 i j) (ix2 p q)
    (fun a => by match a with | ⟨0, _⟩ => exact hp | ⟨1, _⟩ => exact hq)

end Cert.ReferenceIdeal.RefValue

end
-- ==== Proof.RefStack.lean ====
/-
  The stacked matrix: both inputs divided entrywise by the (broadcast) range of the first, then concatenated along
  the rows. Row i of the result is row i of the first quotient for i < 4096 and row i - 4096 of the second otherwise.
-/
import Idealize.ShloMosaic.Lib.Pipeline.Value
import proofs.«119928_j66408784331046_2_alg».proof.Proof.Spec
import proofs.«119928_j66408784331046_2_alg».proof.Proof.Entries
import proofs.«119928_j66408784331046_2_alg».proof.Proof.RefOps

noncomputable section

namespace Cert.ReferenceIdeal.RefValue

open Idealize.ShloMosaic Idealize.ShloMosaic.ValueIdx Cert.Mmd

/-- Entry (i, d) of the concatenation of the two quotients is the specification's stacked matrix. -/
theorem stacked_apply (a b : FVec Ideal ⟨2, ![4096, 256]⟩ .f32) (σv : FVec Ideal ⟨0, ![]⟩ .f32)
    (dims : Fin (⟨0, ![]⟩ : Shape).rank → Fin (⟨2, ![4096, 256]⟩ : Shape).rank)
    (hb : (⟨0, ![]⟩ : Shape).BroadcastsInDim ⟨2, ![4096, 256]⟩ dims)
    (hc : Shape.Concatenates [(⟨2, ![4096, 256]⟩ : Shape), ⟨2, ![4096, 256]⟩] ⟨2, ![8192, 256]⟩ 0)
    (i : Fin 8192) (d : Fin 256) :
    concatenate (⟨2, ![8192, 256]⟩ : Shape) 0
        [⟨⟨2, ![4096, 256]⟩, Host.divf a (broadcastInDim ⟨2, ![4096, 256]⟩ dims hb σv)⟩,
         ⟨⟨2, ![4096, 256]⟩, Host.divf b (broadcastInDim ⟨2, ![4096, 256]⟩ dims hb σv)⟩] hc (ix2 i d)
      = stacked (σv ix0) (entries a) (entries b) i d := by
  unfold stacked
  split
  · next hlt =>
    rw [concatenate_pair_apply_left 0 _ _ hc (ix2 i d) rfl (ix2 ⟨i.val, hlt⟩ d)
      (fun c => by match c with | ⟨0, _⟩ => rfl | ⟨1, _⟩ => rfl)]
    show Ideal.div (a (ix2 ⟨i.val, hlt⟩ d)) (broadcastInDim _ dims hb σv (ix2 ⟨i.val, hlt⟩ d)) = _
    rw [bcastScalar_apply]
    rfl
  · next hge =>
    have hi : i.val - 4096 < 4096 := by have := i.isLt; omega
    obtain ⟨r, hr⟩ : ∃ r : Fin 4096, r.val + 4096 = i.val :=
      ⟨⟨i.val - 4096, hi⟩, Nat.sub_add_cancel (Nat.le_of_not_lt hge)⟩
    have e : (⟨i.val - 4096, hi⟩ : Fin 4096) = r := Fin.ext (by show i.val - 4096 = r.val; omega)
    rw [e, concatenate_pair_apply_right 0 _ _ hc (ix2 i d) rfl rfl (ix2 r d)
      (fun c => by
        match c with
        | ⟨0, _⟩ => exact fun hne => absurd rfl hne
        | ⟨1, _⟩ => exact fun _ => rfl)
      hr]
    show Ideal.div (b (ix2 r d)) (broadcastInDim _ dims hb σv (ix2 r d)) = _
    rw [bcastScalar_apply]
    rfl

end Cert.ReferenceIdeal.RefValue

end
-- ==== Proof.RefGram.lean ====
/-
  Squared norms and inner products of the rows of the stacked matrix.

  The sum over the features of the entrywise square of a matrix, from zero, is each row's squared norm; the
  product of the matrix with its own transpose, contracted over the features, has the inner product of rows
  i and j at (i, j). Both are read through the entries T i d of the matrix.
-/
import Idealize.ShloMosaic.PureOps.Ideal.Laws
import Idealize.ShloMosaic.Lib.ValueIdx
import Idealize.ShloMosaic.Lib.Pipeline.Value
import proofs.«119928_j66408784331046_2_alg».proof.Proof.Gen.ReferenceIdeal
import proofs.«119928_j66408784331046_2_alg».proof.Proof.Spec
import proofs.«119928_j66408784331046_2_alg».proof.Proof.RefConsts

noncomputable section

namespace Cert.ReferenceIdeal.RefValue

open Cert.ReferenceIdeal Cert.ReferenceIdeal.Gen Idealize.ShloMosaic Idealize.ShloMosaic.ValueIdx Cert.Mmd

/-- The sum of squares along the features, from the zero constant, at row i. -/
theorem sqNorm_apply (x : FVec Ideal S8192x256 .f32) (T : Fin 8192 → Fin 256 → EReal)
    (hx : ∀ i d, x (ix2 i d) = T i d)
    (h' : S8192x256.ReducesTo [1] S8192) (hu : 0 < S_.numel) (i : Fin 8192) :
    Host.reduceAdd (mulf x x) (constant (F := Ideal) S_ .f32 0x00000000#32) h' hu (ix1 i) = sqNorm T i := by
  have h : S8192x256.Reduces [1] S8192 := by decide
  show Ideal.hostReduceAdd h' (mulf x x) (Ideal.ofBits .f32 0x00000000#32) (ix1 i) = _
  rw [Ideal.hostReduceAdd_single h' h, ofBits_zero]
  unfold sqNorm
  refine congrArg (0 + ·) ?_
  show ∑ k : Fin 256, (mulf x x) (h.lift (ix1 i) k) = _
  refine Finset.sum_congr rfl fun k _ => ?_
  have e : h.lift (ix1 i) k = ix2 i k :=
    funext fun a => Fin.ext (by match a with | ⟨0, _⟩ => rfl | ⟨1, _⟩ => rfl)
  rw [e, mulf_apply, hx]

/-- The dimension numbers of the product with the transpose: contract axis 1 of the left with axis 0 of the right. -/
abbrev dotRec : DotDims S8192x256 S256x8192 S8192x8192 := dot_S8192x256_S256x8192_S8192x8192_1_0_0_1_n_n

theorem dot_lhs_0 (i : S8192x8192.Idx) (q : dotRec.contr.Idx) : (dotRec.lhsIdx i q 0).val = (i 0).val := by
  unfold DotDims.lhsIdx
  rw [dif_neg (show ¬(0 : Fin S8192x256.rank) ∈ dotRec.lhsBatch by decide),
    dif_pos (show (0 : Fin S8192x256.rank) ∈ dotRec.lhsNonContracting by decide)]
  rfl
theorem dot_lhs_1 (i : S8192x8192.Idx) (q : dotRec.contr.Idx) : (dotRec.lhsIdx i q 1).val = (q ⟨0, by decide⟩).val :=
  dotRec.lhsIdx_val_of_single rfl i q
theorem dot_rhs_0 (i : S8192x8192.Idx) (q : dotRec.contr.Idx) : (dotRec.rhsIdx i q 0).val = (q ⟨0, by decide⟩).val :=
  dotRec.rhsIdx_val_of_single rfl i q
theorem dot_rhs_1 (i : S8192x8192.Idx) (q : dotRec.contr.Idx) : (dotRec.rhsIdx i q 1).val = (i 1).val := by
  unfold DotDims.rhsIdx
  rw [dif_neg (show ¬(1 : Fin S256x8192.rank) ∈ dotRec.rhsBatch by decide),
    dif_pos (show (1 : Fin S256x8192.rank) ∈ dotRec.rhsNonContracting by decide)]
  rfl

/-- The product of the matrix with its transpose at (i, j): the inner product of rows i and j. -/
theorem gram_apply (x : FVec Ideal S8192x256 .f32) (T : Fin 8192 → Fin 256 → EReal)
    (hx : ∀ i d, x (ix2 i d) = T i d) (ht : S8192x256.Transposes [1, 0] S256x8192) (i j : Fin 8192) :
    Host.dotGeneral dotRec none x (transpose S256x8192 [1, 0] x ht) (ix2 i j) = gram T i j := by
  simp only [Host.dotGeneral]
  rw [Ideal.dotGeneral_apply, ← Equiv.sum_comp (contrEquiv1 dotRec 256 rfl rfl).symm]
  unfold gram
  rw [zero_add]
  refine Finset.sum_congr rfl fun k _ => ?_
  have hk := contrEquiv1_symm_val dotRec 256 rfl rfl k
  have el : dotRec.lhsIdx (ix2 i j) ((contrEquiv1 dotRec 256 rfl rfl).symm k) = ix2 i k :=
    funext fun a => Fin.ext (by
      match a with
      | ⟨0, _⟩ => exact dot_lhs_0 _ _
      | ⟨1, _⟩ => exact (dot_lhs_1 _ _).trans hk)
  have er : dotRec.rhsIdx (ix2 i j) ((contrEquiv1 dotRec 256 rfl rfl).symm k) = ix2 k j :=
    funext fun a => Fin.ext (by
      match a with
      | ⟨0, _⟩ => exact (dot_rhs_0 _ _).trans hk
      | ⟨1, _⟩ => exact dot_rhs_1 _ _)
  rw [el, er, transpose_apply [1, 0] x ht (ix2 k j) (ix2 j k)
    (fun b => by match b with | ⟨0, _⟩ => rfl | ⟨1, _⟩ => rfl), hx, hx]

end Cert.ReferenceIdeal.RefValue

end
-- ==== Proof.RefL2.lean ====
/-
  The squared distances, their total, the bandwidth and its weight, and the kernel values, as the reference forms
  them from the squared norms sq and the inner products G of the rows of the stacked matrix.
-/
import proofs.«119928_j66408784331046_2_alg».proof.Proof.Gen.ReferenceIdeal
import proofs.«119928_j66408784331046_2_alg».proof.Proof.Spec
import proofs.«119928_j66408784331046_2_alg».proof.Proof.RefConsts
import proofs.«119928_j66408784331046_2_alg».proof.Proof.RefOps
import Idealize.ShloMosaic.PureOps.Ideal.Laws

noncomputable section

namespace Cert.ReferenceIdeal.RefValue

open Cert.ReferenceIdeal Idealize.ShloMosaic Idealize.ShloMosaic.ValueIdx Cert.Mmd

/-- Entry (i, j) of (sq broadcast along columns + sq broadcast along rows - 2 G) / 256 is the squared distance of
    rows i and j over the number of features. -/
theorem l2_apply (sq : FVec Ideal S8192 .f32) (G : FVec Ideal S8192x8192 .f32) (T : Fin 8192 → Fin 256 → EReal)
    (hsq : ∀ i, sq (ix1 i) = sqNorm T i) (hG : ∀ i j, G (ix2 i j) = gram T i j)
    (h1 : S8192.BroadcastsInDim S8192x1 (![0] : Fin 1 → Fin S8192x1.rank))
    (h2 : S8192x1.BroadcastsInDim S8192x8192 (![0, 1] : Fin 2 → Fin S8192x8192.rank))
    (h1' : S8192.BroadcastsInDim S1x8192 (![1] : Fin 1 → Fin S1x8192.rank))
    (h2' : S1x8192.BroadcastsInDim S8192x8192 (![0, 1] : Fin 2 → Fin S8192x8192.rank))
    (hs : S_.BroadcastsInDim S8192x8192 (![] : Fin 0 → Fin S8192x8192.rank)) (i j : Fin 8192) :
    Host.divf
        (subf
          (addf (broadcastInDim S8192x8192 ![0, 1] h2 (broadcastInDim S8192x1 ![0] h1 sq))
            (broadcastInDim S8192x8192 ![0, 1] h2' (broadcastInDim S1x8192 ![1] h1' sq)))
          (mulf (broadcastInDim S8192x8192 ![] hs (constant (F := Ideal) S_ .f32 0x40000000#32)) G))
        (broadcastInDim S8192x8192 ![] hs (constant (F := Ideal) S_ .f32 0x43800000#32)) (ix2 i j)
      = l2 T i j := by
  rw [hostDivf_apply, subf_apply, addf_apply, mulf_apply, rowBcast_apply sq h1 h2, colBcast_apply sq h1' h2',
    bcastScalar_apply, bcastScalar_apply, constant_apply, constant_apply, ofBits_2, ofBits_256, hsq, hsq, hG]
  rfl

/-- The total of an 8192 x 8192 array of squared distances, from the zero constant. -/
theorem sumL2_apply (L : FVec Ideal S8192x8192 .f32) (T : Fin 8192 → Fin 256 → EReal)
    (hL : ∀ i j, L (ix2 i j) = l2 T i j) (h' : S8192x8192.ReducesTo [0, 1] S_) (hu : 0 < S_.numel) (j : S_.Idx) :
    Host.reduceAdd L (constant (F := Ideal) S_ .f32 0x00000000#32) h' hu j = sumL2 T := by
  show Ideal.hostReduceAdd h' L (Ideal.ofBits .f32 0x00000000#32) j = _
  rw [Ideal.hostReduceAdd_total h' (fun b => b.elim0), ofBits_zero]
  unfold sumL2
  refine congrArg (0 + ·) ((sum_idx2 L).trans ?_)
  exact Finset.sum_congr rfl fun a _ => Finset.sum_congr rfl fun b _ => hL a b

/-- A total divided by n^2 - n and then by 4 is the bandwidth. -/
theorem bandwidth_apply (s : FVec Ideal S_ .f32) (j : S_.Idx) :
    Host.divf (Host.divf s (constant (F := Ideal) S_ .f32 0x4C7FF800#32)) (constant (F := Ideal) S_ .f32 0x40800000#32) j = bandwidth (s j) := by
  rw [hostDivf_apply, hostDivf_apply, constant_apply, constant_apply, ofBits_67100672, ofBits_4]
  rfl

/-- The five reciprocals of the bandwidth times 1, 2, 4, 8, 16, summed from zero in that order, are its weight. -/
theorem invBwSum_apply (w : FVec Ideal S_ .f32) (j : S_.Idx) :
    (addf (addf (addf (addf (addf (constant (F := Ideal) S_ .f32 0x00000000#32) (Host.divf (constant (F := Ideal) S_ .f32 0x3F800000#32) (mulf w (constant (F := Ideal) S_ .f32 0x3F800000#32)))) (Host.divf (constant (F := Ideal) S_ .f32 0x3F800000#32) (mulf w (constant (F := Ideal) S_ .f32 0x40000000#32)))) (Host.divf (constant (F := Ideal) S_ .f32 0x3F800000#32) (mulf w (constant (F := Ideal) S_ .f32 0x40800000#32)))) (Host.divf (constant (F := Ideal) S_ .f32 0x3F800000#32) (mulf w (constant (F := Ideal) S_ .f32 0x41000000#32)))) (Host.divf (constant (F := Ideal) S_ .f32 0x3F800000#32) (mulf w (constant (F := Ideal) S_ .f32 0x41800000#32)))) j
      = invBwSum (w j) := by
  show (((((Ideal.ofBits .f32 0x00000000#32 + Ideal.div (Ideal.ofBits .f32 0x3F800000#32) (w j * Ideal.ofBits .f32 0x3F800000#32)) + Ideal.div (Ideal.ofBits .f32 0x3F800000#32) (w j * Ideal.ofBits .f32 0x40000000#32)) + Ideal.div (Ideal.ofBits .f32 0x3F800000#32) (w j * Ideal.ofBits .f32 0x40800000#32)) + Ideal.div (Ideal.ofBits .f32 0x3F800000#32) (w j * Ideal.ofBits .f32 0x41000000#32)) + Ideal.div (Ideal.ofBits .f32 0x3F800000#32) (w j * Ideal.ofBits .f32 0x41800000#32)) = _
  rw [ofBits_zero, ofBits_one, ofBits_2, ofBits_4, ofBits_8, ofBits_16]
  unfold invBwSum
  rw [EReal.coe_one]

/-- Minus a squared distance times the (broadcast) weight. -/
theorem kern_apply (L : FVec Ideal S8192x8192 .f32) (sv : FVec Ideal S_ .f32)
    (hs : S_.BroadcastsInDim S8192x8192 (![] : Fin 0 → Fin S8192x8192.rank)) (i j : Fin 8192) :
    mulf (Host.negf L) (broadcastInDim S8192x8192 ![] hs sv) (ix2 i j) = (- L (ix2 i j)) * sv ix0 := by
  rw [mulf_apply, hostNegf_apply, bcastScalar_apply]

end Cert.ReferenceIdeal.RefValue

end
-- ==== Proof.RefFinal.lean ====
/-
  The reference's last step: the four 4096 x 4096 blocks of the kernel-value array (rows and columns of the first
  half, of the second half, and the two mixed ones), combined as first + second - mixed - mixed, summed over all
  entries from zero and divided by 4096^2.
-/
import proofs.«119928_j66408784331046_2_alg».proof.Proof.Gen.ReferenceIdeal
import proofs.«119928_j66408784331046_2_alg».proof.Proof.Spec
import proofs.«119928_j66408784331046_2_alg».proof.Proof.RefConsts
import proofs.«119928_j66408784331046_2_alg».proof.Proof.RefOps
import Idealize.ShloMosaic.PureOps.Ideal.Laws

noncomputable section

namespace Cert.ReferenceIdeal.RefValue

open Cert.ReferenceIdeal Idealize.ShloMosaic Idealize.ShloMosaic.ValueIdx Cert.Mmd

/-- From an array K whose entry (i, j) is k i j: the mean over i, j < 4096 of
    k(i, j) + k(B+i, B+j) - k(i, B+j) - k(B+i, j), B = 4096. -/
theorem mean_apply (K : FVec Ideal S8192x8192 .f32) (k : Fin 8192 → Fin 8192 → EReal)
    (hK : ∀ i j, K (ix2 i j) = k i j)
    (s00 : S8192x8192.Slices ![0, 0] S4096x4096) (s11 : S8192x8192.Slices ![4096, 4096] S4096x4096)
    (s01 : S8192x8192.Slices ![0, 4096] S4096x4096) (s10 : S8192x8192.Slices ![4096, 0] S4096x4096)
    (h' : S4096x4096.ReducesTo [0, 1] S_) (hu : 0 < S_.numel) (j : S_.Idx) :
    Host.divf
        (Host.reduceAdd
          (subf
            (subf
              (addf (extractStridedSlice S4096x4096 ![0, 0] K s00) (extractStridedSlice S4096x4096 ![4096, 4096] K s11))
              (extractStridedSlice S4096x4096 ![0, 4096] K s01))
            (extractStridedSlice S4096x4096 ![4096, 0] K s10))
          (constant (F := Ideal) S_ .f32 0x00000000#32) h' hu)
        (constant (F := Ideal) S_ .f32 0x4B800000#32) j
      = Ideal.div
          (0 + ∑ a : Fin 4096, ∑ b : Fin 4096,
            (((k (lower a) (lower b) + k (upper a) (upper b)) - k (lower a) (upper b)) - k (upper a) (lower b)))
          ((16777216 : ℝ) : EReal) := by
  rw [hostDivf_apply, constant_apply, ofBits_16777216]
  refine congrArg (Ideal.div · _) ?_
  show Ideal.hostReduceAdd h' _ (Ideal.ofBits .f32 0x00000000#32) j = _
  rw [Ideal.hostReduceAdd_total h' (fun b => b.elim0), ofBits_zero]
  refine congrArg (0 + ·) ((sum_idx2 _).trans ?_)
  refine Finset.sum_congr rfl fun a _ => Finset.sum_congr rfl fun b _ => ?_
  rw [subf_apply, subf_apply, addf_apply,
    block_apply 0 0 K s00 a b (lower a) (lower b) (Nat.zero_add _).symm (Nat.zero_add _).symm,
    block_apply 4096 4096 K s11 a b (upper a) (upper b) (Nat.add_comm _ _) (Nat.add_comm _ _),
    block_apply 0 4096 K s01 a b (lower a) (upper b) (Nat.zero_add _).symm (Nat.add_comm _ _),
    block_apply 4096 0 K s10 a b (upper a) (lower b) (Nat.add_comm _ _) (Nat.zero_add _).symm,
    hK, hK, hK, hK]

end Cert.ReferenceIdeal.RefValue

end
-- ==== Proof.RefValue.lean ====
/-
  The reference's result at exact extended reals. Stage by stage — the range of the first input, the stacked matrix
  of the two quotients, its rows' squared norms and inner products, the squared distances, their total and the
  bandwidth, the weight, the kernel values, and the mean of the four blocks' combination — the term the reference's
  run leaves in its result is the specification's `refVal` of the two inputs' entries at the range of the first.
  No finiteness is used: every stage is an equation between total functions on the extended reals.
-/
import proofs.«119928_j66408784331046_2_alg».proof.Proof.RefRunP
import proofs.«119928_j66408784331046_2_alg».proof.Proof.Spec
import proofs.«119928_j66408784331046_2_alg».proof.Proof.Entries
import proofs.«119928_j66408784331046_2_alg».proof.Proof.RefRange
import proofs.«119928_j66408784331046_2_alg».proof.Proof.RefStack
import proofs.«119928_j66408784331046_2_alg».proof.Proof.RefGram
import proofs.«119928_j66408784331046_2_alg».proof.Proof.RefL2
import proofs.«119928_j66408784331046_2_alg».proof.Proof.RefFinal

noncomputable section

namespace Cert.ReferenceIdeal.RefValue

open Cert.ReferenceIdeal Cert.ReferenceIdeal.Gen Cert.ReferenceIdeal.ValueP Idealize.ShloMosaic Idealize.ShloMosaic.TcCoe
  Idealize.SL.Sem Idealize.ShloMosaic.StableHlo Idealize.ShloMosaic.ValueIdx Cert.Mmd

variable (V : Valuation τ sig (Elt Ideal))

/-- The entries of the first input, of the second input, the range of the first, and the stacked matrix. -/
abbrev inA : Fin 4096 → Fin 256 → EReal := entries (V (Proc.devRef .tc main_arg0))
abbrev inB : Fin 4096 → Fin 256 → EReal := entries (V (Proc.devRef .tc main_arg1))
abbrev rng : EReal := rangeOf (inA V)
abbrev stk : Fin 8192 → Fin 256 → EReal := stacked (rng V) (inA V) (inB V)

/-- The scale: maximum minus minimum of the first input. -/
theorem scale_eq (j : S_.Idx) : res_main_v2 V j = rng V := by
  unfold res_main_v2
  exact range_apply _ _ _ j

/-- The concatenation of the two quotients is the stacked matrix. -/
theorem total_eq (i : Fin 8192) (d : Fin 256) : res_main_v7 V (ix2 i d) = stk V i d := by
  unfold res_main_v7
  exact (stacked_apply _ _ (res_main_v2 V) _ _ _ i d).trans (by rw [scale_eq])

/-- The rows' squared norms. -/
theorem sq_eq (i : Fin 8192) : res_main_v9 V (ix1 i) = sqNorm (stk V) i := by
  unfold res_main_v9
  exact sqNorm_apply (res_main_v7 V) (stk V) (total_eq V) _ _ i

/-- The squared distances over the number of features. -/
theorem dist_eq (i j : Fin 8192) : res_main_v21 V (ix2 i j) = l2 (stk V) i j := by
  unfold res_main_v21
  exact l2_apply (res_main_v9 V) _ (stk V) (sq_eq V)
    (fun a b => gram_apply (res_main_v7 V) (stk V) (total_eq V) _ a b) _ _ _ _ _ i j

/-- The bandwidth. -/
theorem bw_eq (j : S_.Idx) : res_main_v24 V j = bandwidth (sumL2 (stk V)) := by
  unfold res_main_v24
  exact (bandwidth_apply _ j).trans
    (congrArg bandwidth (sumL2_apply (res_main_v21 V) (stk V) (dist_eq V) _ _ j))

/-- The kernel values. -/
theorem kernels_eq (i j : Fin 8192) : res_main_v42 V (ix2 i j) = kern (stk V) i j := by
  unfold res_main_v42
  rw [kern_apply, dist_eq, invBwSum_apply (res_main_v24 V) ix0, bw_eq]
  rfl

/-- At exact extended reals the reference's result, from ANY two input arrays, is the specification's `refVal` of their
    entries at the range of the first. (No finiteness is needed: `refVal` is total.) -/
theorem result_eq :
    (Host.divf (Host.reduceAdd (subf (subf (addf (extractStridedSlice S4096x4096 ![0, 0] (res_main_v42 V) slices_S8192x8192_S4096x4096_0_0) (extractStridedSlice S4096x4096 ![4096, 4096] (res_main_v42 V) slices_S8192x8192_S4096x4096_4096_4096)) (extractStridedSlice S4096x4096 ![0, 4096] (res_main_v42 V) slices_S8192x8192_S4096x4096_0_4096)) (extractStridedSlice S4096x4096 ![4096, 0] (res_main_v42 V) slices_S8192x8192_S4096x4096_4096_0)) (constant S_ .f32 0x00000000#32) reducesTo_S4096x4096_S_d0_1 h_S_) (constant S_ .f32 0x4B800000#32)
        : (Proc.devRef .tc main_v51 : DevRef τ sig).ty.Contents (Elt Ideal))
      = fun _ => refVal (rangeOf (entries (V (Proc.devRef .tc main_arg0))))
      (entries (V (Proc.devRef .tc main_arg0))) (entries (V (Proc.devRef .tc main_arg1))) := by
  funext j
  exact (mean_apply (res_main_v42 V) (kern (stk V)) (kernels_eq V) _ _ _ _ _ _ j).trans rfl

/-- The reference's run with its result read as the specification's function of the launch contents of the two
    arguments, the arguments unchanged. -/
theorem run_refVal (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51)
          = (fun _ => refVal (rangeOf (entries (m ((c.tc : Thread nD τ).loc main_arg0))))
              (entries (m ((c.tc : Thread nD τ).loc main_arg0))) (entries (m ((c.tc : Thread nD τ).loc main_arg1))))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono
    (fun _ h c => ⟨(h c).1.trans (result_eq (launchContents m c)), (h c).2⟩)
    (ValueP.run (F := Ideal) m ρ)

end Cert.ReferenceIdeal.RefValue

end
-- ==== Proof.lean ====
/-
  An MMD loss with a linear kernel, computed two ways on two 4096 x 256 inputs.

  The reference divides both inputs by the range of the first, stacks them into 8192 rows, forms every squared
  distance L2(i,j) = (|T_i|^2 + |T_j|^2 - 2 T_i.T_j) / 256, takes the bandwidth w from their total and the weight
  s(w) = sum_{k<5} 1 / (w 2^k), and returns the mean over the first 4096 x 4096 indices of
  k(i,j) + k(B+i,B+j) - k(i,B+j) - k(B+i,j) with k = (-L2) s(w). The kernel makes one pass over the inputs, four
  blocks of 1024 rows on a 2 x 2 grid, keeping the maximum and the minimum of the first input, the two sums of
  squares and the two vectors of column sums; ninety host operations then combine the two cores' partial values
  and evaluate the closed form (s(w) 2 / (256 * 4096^2)) |S - S'|^2, where S, S' are the column sums over the range
  and w is computed from the sums of squares and |S + S'|^2.

  Over the reals the two agree because in the block combination the squared norms cancel and the inner products
  sum to -2 |S - S'|^2, and the total of all squared distances is (2n (Q + Q') - 2 |S + S'|^2) / 256. On the
  extended reals the same holds for finite inputs, with two corners: when the range is 0 every quotient is an
  infinity, both bandwidths are minus infinity, both weights 0 and both results 0; when the bandwidth is 0 all rows
  coincide, every squared distance and S - S' vanish, and both results are 0 times plus infinity, which is 0.

  The three frames: both kernel programs run to the end with their inputs unchanged (the body's triple at each of the
  two cases of the inner grid coordinate, an invariant carrying the six accumulators between points, the region's
  launch followed by the host operations); the reference's is its run with the result dropped. Nothing was rewritten
  between the word-level kernel and its idealization, so there is nothing to preserve.
-/
import proofs.«119928_j66408784331046_2_alg».proof.Defs
import proofs.«119928_j66408784331046_2_alg».proof.Proof.Gen.Kernel
import proofs.«119928_j66408784331046_2_alg».proof.Proof.Gen.KernelIdeal
import proofs.«119928_j66408784331046_2_alg».proof.Proof.Gen.ReferenceIdeal
import proofs.«119928_j66408784331046_2_alg».proof.Proof.Gen.Pre_finite_inputs
import proofs.«119928_j66408784331046_2_alg».proof.Proof.KB.Frame
import proofs.«119928_j66408784331046_2_alg».proof.Proof.KI.Value
import proofs.«119928_j66408784331046_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its two inputs as they were. -/
theorem frame_kernel : Cert.frame_Kernel := fun m ρ _ => Cert.Kernel.Fr.frame m ρ

/-- So does its idealization. -/
theorem frame_kernelIdeal : Cert.frame_KernelIdeal := fun m ρ _ => Cert.KernelIdeal.Fr.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization is the kernel's own text read at exact extended reals: nothing was rewritten. -/
theorem preserves : Cert.preserves_Kernel_KernelIdeal := trivial

/-- On finite inputs both idealized programs end with the reference's value of the two inputs. -/
theorem algebraic : Cert.algebraic_KernelIdeal_ReferenceIdeal := by
  intro m ρ m' ρ' hpre hagree
  refine ⟨fun c => (fun _ => Cert.Mmd.refVal (Cert.Mmd.rangeOf (Cert.KernelIdeal.Val.A m c)) (Cert.KernelIdeal.Val.A m c) (Cert.KernelIdeal.Val.B m c) : Cert.KernelIdeal.S_.Idx → EReal),
    Cert.KernelIdeal.Val.run_value m ρ hpre, ?_⟩
  refine (θ_run Cert.ReferenceIdeal.defs _ _).mono (fun _ h c => ⟨(h c).1.trans ?_, (h c).2⟩)
    (Cert.ReferenceIdeal.RefValue.run_refVal m' ρ')
  unfold Cert.KernelIdeal.Val.A Cert.KernelIdeal.Val.B
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
